-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v134)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v134) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v198) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S256x1 : Shape := ⟨2, ![256, 1]⟩
abbrev S1 : Shape := ⟨1, ![1]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg13 : FVec F S256x1 .f32) (main_arg14 : FVec F S1 .f32) (main_v48 : IVec S_ 1) (main_v49 : FVec F S2x128 .f32) (main_v50 : FVec F S2x128 .f32) : IVec S_ 1 :=
  let main_v51 : IVec S2x128 1 := cmpf .olt main_v49 main_v50
  let main_c_19 : IVec S_ 1 := constantI S_ 1 1#1
  let main_v52 : IVec S_ 1 := (fun x v => Host.reduce IntOp.andi x v reducesTo_S2x128_S_d0_1 h_S_) main_v51 main_c_19
  let main_v53 : IVec S_ 1 := andi main_v48 main_v52
  let main_v54 : FVec F S256x1 .f32 := Host.absf main_arg13
  let main_cst_20 : FVec F S_ .f32 := constant S_ .f32 0x7F800000#32
  let main_v55 : FVec F S256x1 .f32 := broadcastInDim S256x1 ![] bcast_S_S256x1 main_cst_20
  let main_v56 : IVec S256x1 1 := cmpf .olt main_v54 main_v55
  let main_c_21 : IVec S_ 1 := constantI S_ 1 1#1
  let main_v57 : IVec S_ 1 := (fun x v => Host.reduce IntOp.andi x v reducesTo_S256x1_S_d0_1 h_S_) main_v56 main_c_21
  let main_v58 : IVec S_ 1 := andi main_v53 main_v57
  let main_v59 : FVec F S1 .f32 := Host.absf main_arg14
  let main_cst_22 : FVec F S_ .f32 := constant S_ .f32 0x7F800000#32
  let main_v60 : FVec F S1 .f32 := broadcastInDim S1 ![] bcast_S_S1 main_cst_22
  let main_v61 : IVec S1 1 := cmpf .olt main_v59 main_v60
  let main_c_23 : IVec S_ 1 := constantI S_ 1 1#1
  let main_v62 : IVec S_ 1 := (fun x v => Host.reduce IntOp.andi x v reducesTo_S1_S_d0 h_S_) main_v61 main_c_23
  let main_v63 : IVec S_ 1 := andi main_v58 main_v62
  main_v63

def fn_part2 {F : FTy → Type} [FloatOps F] (main_arg9 : FVec F S2x128x128 .f32) (main_arg10 : FVec F S2x128 .f32) (main_arg11 : FVec F S2x128 .f32) (main_arg12 : FVec F S2x128 .f32) (main_arg13 : FVec F S256x1 .f32) (main_arg14 : FVec F S1 .f32) (main_v33 : IVec S_ 1) : IVec S_ 1 :=
  let main_v34 : FVec F S2x128x128 .f32 := Host.absf main_arg9
  let main_cst_12 : FVec F S_ .f32 := constant S_ .f32 0x7F800000#32
  let main_v35 : FVec F S2x128x128 .f32 := broadcastInDim S2x128x128 ![] bcast_S_S2x128x128 main_cst_12
  let main_v36 : IVec S2x128x128 1 := cmpf .olt main_v34 main_v35
  let main_c_13 : IVec S_ 1 := constantI S_ 1 1#1
  let main_v37 : IVec S_ 1 := (fun x v => Host.reduce IntOp.andi x v reducesTo_S2x128x128_S_d0_1_2 h_S_) main_v36 main_c_13
  let main_v38 : IVec S_ 1 := andi main_v33 main_v37
  let main_v39 : FVec F S2x128 .f32 := Host.absf main_arg10
  let main_cst_14 : FVec F S_ .f32 := constant S_ .f32 0x7F800000#32
  let main_v40 : FVec F S2x128 .f32 := broadcastInDim S2x128 ![] bcast_S_S2x128 main_cst_14
  let main_v41 : IVec S2x128 1 := cmpf .olt main_v39 main_v40
  let main_c_15 : IVec S_ 1 := constantI S_ 1 1#1
  let main_v42 : IVec S_ 1 := (fun x v => Host.reduce IntOp.andi x v reducesTo_S2x128_S_d0_1 h_S_) main_v41 main_c_15
  let main_v43 : IVec S_ 1 := andi main_v38 main_v42
  let main_v44 : FVec F S2x128 .f32 := Host.absf main_arg11
  let main_cst_16 : FVec F S_ .f32 := constant S_ .f32 0x7F800000#32
  let main_v45 : FVec F S2x128 .f32 := broadcastInDim S2x128 ![] bcast_S_S2x128 main_cst_16
  let main_v46 : IVec S2x128 1 := cmpf .olt main_v44 main_v45
  let main_c_17 : IVec S_ 1 := constantI S_ 1 1#1
  let main_v47 : IVec S_ 1 := (fun x v => Host.reduce IntOp.andi x v reducesTo_S2x128_S_d0_1 h_S_) main_v46 main_c_17
  let main_v48 : IVec S_ 1 := andi main_v43 main_v47
  let main_v49 : FVec F S2x128 .f32 := Host.absf main_arg12
  let main_cst_18 : FVec F S_ .f32 := constant S_ .f32 0x7F800000#32
  let main_v50 : FVec F S2x128 .f32 := broadcastInDim S2x128 ![] bcast_S_S2x128 main_cst_18
  fn_part3 (F := F) main_arg13 main_arg14 main_v48 main_v49 main_v50

def fn_part1 {F : FTy → Type} [FloatOps F] (main_arg6 : FVec F S2x128 .f32) (main_arg7 : FVec F S2x128 .f32) (main_arg8 : FVec F S2x128 .f32) (main_arg9 : FVec F S2x128x128 .f32) (main_arg10 : FVec F S2x128 .f32) (main_arg11 : FVec F S2x128 .f32) (main_arg12 : FVec F S2x128 .f32) (main_arg13 : FVec F S256x1 .f32) (main_arg14 : FVec F S1 .f32) (main_v13 : IVec S_ 1) (main_v16 : IVec S2x128x128 1) : IVec S_ 1 :=
  let main_c_5 : IVec S_ 1 := constantI S_ 1 1#1
  let main_v17 : IVec S_ 1 := (fun x v => Host.reduce IntOp.andi x v reducesTo_S2x128x128_S_d0_1_2 h_S_) main_v16 main_c_5
  let main_v18 : IVec S_ 1 := andi main_v13 main_v17
  let main_v19 : FVec F S2x128 .f32 := Host.absf main_arg6
  let main_cst_6 : FVec F S_ .f32 := constant S_ .f32 0x7F800000#32
  let main_v20 : FVec F S2x128 .f32 := broadcastInDim S2x128 ![] bcast_S_S2x128 main_cst_6
  let main_v21 : IVec S2x128 1 := cmpf .olt main_v19 main_v20
  let main_c_7 : IVec S_ 1 := constantI S_ 1 1#1
  let main_v22 : IVec S_ 1 := (fun x v => Host.reduce IntOp.andi x v reducesTo_S2x128_S_d0_1 h_S_) main_v21 main_c_7
  let main_v23 : IVec S_ 1 := andi main_v18 main_v22
  let main_v24 : FVec F S2x128 .f32 := Host.absf main_arg7
  let main_cst_8 : FVec F S_ .f32 := constant S_ .f32 0x7F800000#32
  let main_v25 : FVec F S2x128 .f32 := broadcastInDim S2x128 ![] bcast_S_S2x128 main_cst_8
  let main_v26 : IVec S2x128 1 := cmpf .olt main_v24 main_v25
  let main_c_9 : IVec S_ 1 := constantI S_ 1 1#1
  let main_v27 : IVec S_ 1 := (fun x v => Host.reduce IntOp.andi x v reducesTo_S2x128_S_d0_1 h_S_) main_v26 main_c_9
  let main_v28 : IVec S_ 1 := andi main_v23 main_v27
  let main_v29 : FVec F S2x128 .f32 := Host.absf main_arg8
  let main_cst_10 : FVec F S_ .f32 := constant S_ .f32 0x7F800000#32
  let main_v30 : FVec F S2x128 .f32 := broadcastInDim S2x128 ![] bcast_S_S2x128 main_cst_10
  let main_v31 : IVec S2x128 1 := cmpf .olt main_v29 main_v30
  let main_c_11 : IVec S_ 1 := constantI S_ 1 1#1
  let main_v32 : IVec S_ 1 := (fun x v => Host.reduce IntOp.andi x v reducesTo_S2x128_S_d0_1 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x640000 32) (main_arg2 : IVec S50000 32) (main_arg3 : FVec F S128x128 .f32) (main_arg4 : FVec F S128 .f32) (main_arg5 : FVec F S2x128x128 .f32) (main_arg6 : FVec F S2x128 .f32) (main_arg7 : FVec F S2x128 .f32) (main_arg8 : FVec F S2x128 .f32) (main_arg9 : FVec F S2x128x128 .f32) (main_arg10 : FVec F S2x128 .f32) (main_arg11 : FVec F S2x128 .f32) (main_arg12 : FVec F S2x128 .f32) (main_arg13 : FVec F S256x1 .f32) (main_arg14 : FVec F S1 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S2x128x128 .f32 := Host.absf main_arg5
  let main_cst_4 : FVec F S_ .f32 := constant S_ .f32 0x7F800000#32
  let main_v15 : FVec F S2x128x128 .f32 := broadcastInDim S2x128x128 ![] bcast_S_S2x128x128 main_cst_4
  let main_v16 : IVec S2x128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S256x1 : Shape := ⟨2, ![256, 1]⟩
abbrev S1 : Shape := ⟨1, ![1]⟩
abbrev S1x640000 : Shape := ⟨2, ![1, 640000]⟩
abbrev S640000 : Shape := ⟨1, ![640000]⟩
abbrev S1x128 : Shape := ⟨2, ![1, 128]⟩
abbrev S5000x128 : Shape := ⟨2, ![5000, 128]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S50000x256 : Shape := ⟨2, ![50000, 256]⟩
abbrev S512 : Shape := ⟨1, ![512]⟩
abbrev S50000x1 : Shape := ⟨2, ![50000, 1]⟩
abbrev S512x256 : Shape := ⟨2, ![512, 256]⟩
abbrev S512x1 : Shape := ⟨2, ![512, 1]⟩
abbrev S1x1 : Shape := ⟨2, ![1, 1]⟩

abbrev nBuf : Space → Nat
  | .hbm => 176
  | .vmem => 62
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S2x128x128, .f32⟩
  | 6 => ⟨S2x128, .f32⟩
  | 7 => ⟨S2x128, .f32⟩
  | 8 => ⟨S2x128, .f32⟩
  | 9 => ⟨S2x128x128, .f32⟩
  | 10 => ⟨S2x128, .f32⟩
  | 11 => ⟨S2x128, .f32⟩
  | 12 => ⟨S2x128, .f32⟩
  | 13 => ⟨S256x1, .f32⟩
  | 14 => ⟨S1, .f32⟩
  | 15 => ⟨S1x640000, .i32⟩
  | 16 => ⟨S640000, .i32⟩
  | 17 => ⟨S1x640000, .i32⟩
  | 18 => ⟨S640000, .i32⟩
  | 19 => ⟨S1x128, .f32⟩
  | 20 => ⟨S50000x128, .f32⟩
  | 21 => ⟨S_, .i32⟩
  | 22 => ⟨S640000, .i32⟩
  | 23 => ⟨S640000, .i1⟩
  | 24 => ⟨S_, .i32⟩
  | 25 => ⟨S640000, .i32⟩
  | 26 => ⟨S640000, .i32⟩
  | 27 => ⟨S640000, .i32⟩
  | 28 => ⟨S640000x1, .i32⟩
  | 29 => ⟨S640000x128, .f32⟩
  | 30 => ⟨S_, .f32⟩
  | 31 => ⟨S50000x128, .f32⟩
  | 32 => ⟨S640000x1, .i32⟩
  | 33 => ⟨S50000x128, .f32⟩
  | 34 => ⟨S1x128x128, .f32⟩
  | 35 => ⟨S128x128, .f32⟩
  | 36 => ⟨S1x128, .f32⟩
  | 37 => ⟨S128, .f32⟩
  | 38 => ⟨S1x128, .f32⟩
  | 39 => ⟨S50000x128, .f32⟩
  | 40 => ⟨S_, .f32⟩
  | 41 => ⟨S128, .f32⟩
  | 42 => ⟨S1x128, .f32⟩
  | 43 => ⟨S_, .f32⟩
  | 44 => ⟨S1x128, .f32⟩
  | 45 => ⟨S1x128, .f32⟩
  | 46 => ⟨S50000x128, .f32⟩
  | 47 => ⟨S50000x128, .f32⟩
  | 48 => ⟨S50000x128, .f32⟩
  | 49 => ⟨S_, .f32⟩
  | 50 => ⟨S128, .f32⟩
  | 51 => ⟨S1x128, .f32⟩
  | 52 => ⟨S_, .f32⟩
  | 53 => ⟨S1x128, .f32⟩
  | 54 => ⟨S1x128, .f32⟩
  | 55 => ⟨S1x128, .f32⟩
  | 56 => ⟨S128, .f32⟩
  | 57 => ⟨S1x128, .f32⟩
  | 58 => ⟨S1x128, .f32⟩
  | 59 => ⟨S128, .f32⟩
  | 60 => ⟨S1x128, .f32⟩
  | 61 => ⟨S1x128x128, .f32⟩
  | 62 => ⟨S128x128, .f32⟩
  | 63 => ⟨S1x128, .f32⟩
  | 64 => ⟨S128, .f32⟩
  | 65 => ⟨S1x128, .f32⟩
  | 66 => ⟨S50000x128, .f32⟩
  | 67 => ⟨S_, .f32⟩
  | 68 => ⟨S128, .f32⟩
  | 69 => ⟨S1x128, .f32⟩
  | 70 => ⟨S_, .f32⟩
  | 71 => ⟨S1x128, .f32⟩
  | 72 => ⟨S1x128, .f32⟩
  | 73 => ⟨S50000x128, .f32⟩
  | 74 => ⟨S50000x128, .f32⟩
  | 75 => ⟨S50000x128, .f32⟩
  | 76 => ⟨S_, .f32⟩
  | 77 => ⟨S128, .f32⟩
  | 78 => ⟨S1x128, .f32⟩
  | 79 => ⟨S_, .f32⟩
  | 80 => ⟨S1x128, .f32⟩
  | 81 => ⟨S1x128, .f32⟩
  | 82 => ⟨S1x128, .f32⟩
  | 83 => ⟨S128, .f32⟩
  | 84 => ⟨S1x128, .f32⟩
  | 85 => ⟨S1x128, .f32⟩
  | 86 => ⟨S128, .f32⟩
  | 87 => ⟨S1x128, .f32⟩
  | 88 => ⟨S50000x128, .f32⟩
  | 89 => ⟨S_, .i32⟩
  | 90 => ⟨S640000, .i32⟩
  | 91 => ⟨S640000, .i1⟩
  | 92 => ⟨S_, .i32⟩
  | 93 => ⟨S640000, .i32⟩
  | 94 => ⟨S640000, .i32⟩
  | 95 => ⟨S640000, .i32⟩
  | 96 => ⟨S640000x1, .i32⟩
  | 97 => ⟨S640000x128, .f32⟩
  | 98 => ⟨S_, .f32⟩
  | 99 => ⟨S50000x128, .f32⟩
  | 100 => ⟨S640000x1, .i32⟩
  | 101 => ⟨S50000x128, .f32⟩
  | 102 => ⟨S1x128x128, .f32⟩
  | 103 => ⟨S128x128, .f32⟩
  | 104 => ⟨S1x128, .f32⟩
  | 105 => ⟨S128, .f32⟩
  | 106 => ⟨S1x128, .f32⟩
  | 107 => ⟨S50000x128, .f32⟩
  | 108 => ⟨S_, .f32⟩
  | 109 => ⟨S128, .f32⟩
  | 110 => ⟨S1x128, .f32⟩
  | 111 => ⟨S_, .f32⟩
  | 112 => ⟨S1x128, .f32⟩
  | 113 => ⟨S1x128, .f32⟩
  | 114 => ⟨S50000x128, .f32⟩
  | 115 => ⟨S50000x128, .f32⟩
  | 116 => ⟨S50000x128, .f32⟩
  | 117 => ⟨S_, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S128, .f32⟩
  | 125 => ⟨S1x128, .f32⟩
  | 126 => ⟨S1x128, .f32⟩
  | 127 => ⟨S128, .f32⟩
  | _ => ⟨S50000x128, .f32⟩

abbrev hbmTy0_1 (i : Nat) : BufTy := match i % 128 with
  | 0 => ⟨S1x128, .f32⟩
  | 1 => ⟨S1x128x128, .f32⟩
  | 2 => ⟨S128x128, .f32⟩
  | 3 => ⟨S1x128, .f32⟩
  | 4 => ⟨S128, .f32⟩
  | 5 => ⟨S1x128, .f32⟩
  | 6 => ⟨S50000x128, .f32⟩
  | 7 => ⟨S_, .f32⟩
  | 8 => ⟨S128, .f32⟩
  | 9 => ⟨S1x128, .f32⟩
  | 10 => ⟨S_, .f32⟩
  | 11 => ⟨S1x128, .f32⟩
  | 12 => ⟨S1x128, .f32⟩
  | 13 => ⟨S50000x128, .f32⟩
  | 14 => ⟨S50000x128, .f32⟩
  | 15 => ⟨S50000x128, .f32⟩
  | 16 => ⟨S_, .f32⟩
  | 17 => ⟨S128, .f32⟩
  | 18 => ⟨S1x128, .f32⟩
  | 19 => ⟨S_, .f32⟩
  | 20 => ⟨S1x128, .f32⟩
  | 21 => ⟨S1x128, .f32⟩
  | 22 => ⟨S1x128, .f32⟩
  | 23 => ⟨S128, .f32⟩
  | 24 => ⟨S1x128, .f32⟩
  | 25 => ⟨S1x128, .f32⟩
  | 26 => ⟨S128, .f32⟩
  | 27 => ⟨S1x128, .f32⟩
  | 28 => ⟨S50000x128, .f32⟩
  | 29 => ⟨S50000x256, .f32⟩
  | 30 => ⟨S_, .f32⟩
  | 31 => ⟨S50000, .f32⟩
  | 32 => ⟨S_, .f32⟩
  | 33 => ⟨S512, .f32⟩
  | 34 => ⟨S50000x1, .i32⟩
  | 35 => ⟨S512, .f32⟩
  | 36 => ⟨S_, .f32⟩
  | 37 => ⟨S512x256, .f32⟩
  | 38 => ⟨S50000x1, .i32⟩
  | 39 => ⟨S512x256, .f32⟩
  | 40 => ⟨S_, .f32⟩
  | 41 => ⟨S512, .f32⟩
  | 42 => ⟨S512, .f32⟩
  | 43 => ⟨S512x1, .f32⟩
  | 44 => ⟨S512x256, .f32⟩
  | 45 => ⟨S512x256, .f32⟩
  | 46 => ⟨S1x1, .f32⟩
  | 47 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S128x128, .f32⟩
  | .local _ .vmem, ⟨11, _⟩ => ⟨S1x128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S1x128, .f32⟩
  | .local _ .vmem, ⟨17, _⟩ => ⟨S1x128, .f32⟩
  | .local _ .vmem, ⟨18, _⟩ => ⟨S1x128, .f32⟩
  | .local _ .vmem, ⟨19, _⟩ => ⟨S1x128, .f32⟩
  | .local _ .vmem, ⟨20, _⟩ => ⟨S128x128, .f32⟩
  | .local _ .vmem, ⟨21, _⟩ => ⟨S1x128, .f32⟩
  | .local _ .vmem, ⟨22, _⟩ => ⟨S5000x128, .f32⟩
  | .local _ .vmem, ⟨23, _⟩ => ⟨S5000x128, .f32⟩
  | .local _ .vmem, ⟨24, _⟩ => ⟨S5000x128, .f32⟩
  | .local _ .vmem, ⟨25, _⟩ => ⟨S5000x128, .f32⟩
  | .local _ .vmem, ⟨26, _⟩ => ⟨S1x128, .f32⟩
  | .local _ .vmem, ⟨27, _⟩ => ⟨S1x128, .f32⟩
  | .local _ .vmem, ⟨28, _⟩ => ⟨S1x128, .f32⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S5000x128, .f32⟩
  | .local _ .vmem, ⟨39, _⟩ => ⟨S5000x128, .f32⟩
  | .local _ .vmem, ⟨40, _⟩ => ⟨S5000x128, .f32⟩
  | .local _ .vmem, ⟨41, _⟩ => ⟨S5000x128, .f32⟩
  | .local _ .vmem, ⟨42, _⟩ => ⟨S1x128, .f32⟩
  | .local _ .vmem, ⟨43, _⟩ => ⟨S1x128, .f32⟩
  | .local _ .vmem, ⟨44, _⟩ => ⟨S1x128, .f32⟩
  | .local _ .vmem, ⟨45, _⟩ => ⟨S1x128, .f32⟩
  | .local _ .vmem, ⟨46, _⟩ => ⟨S128x128, .f32⟩
  | .local _ .vmem, ⟨47, _⟩ => ⟨S1x128, .f32⟩
  | .local _ .vmem, ⟨48, _⟩ => ⟨S5000x128, .f32⟩
  | .local _ .vmem, ⟨49, _⟩ => ⟨S5000x128, .f32⟩
  | .local _ .vmem, ⟨50, _⟩ => ⟨S5000x128, .f32⟩
  | .local _ .vmem, ⟨51, _⟩ => ⟨S5000x128, .f32⟩
  | .local _ .vmem, ⟨52, _⟩ => ⟨S1x128, .f32⟩
  | .local _ .vmem, ⟨53, _⟩ => ⟨S1x128, .f32⟩
  | .local _ .vmem, ⟨54, _⟩ => ⟨S1x128, .f32⟩
  | .local _ .vmem, ⟨55, _⟩ => ⟨S1x128, .f32⟩
  | .local _ .vmem, ⟨56, _⟩ => ⟨S5000x128, .f32⟩
  | .local _ .vmem, ⟨57, _⟩ => ⟨S5000x128, .f32⟩
  | .local _ .vmem, ⟨58, _⟩ => ⟨S512x256, .f32⟩
  | .local _ .vmem, ⟨59, _⟩ => ⟨S256x1, .f32⟩
  | .local _ .vmem, ⟨60, _⟩ => ⟨S1x1, .f32⟩
  | .local _ .vmem, ⟨61, _⟩ => ⟨S512x1, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | _, _ => false

abbrev semScoped : Fin 0 → Bool
  | ⟨_, h⟩ => absurd h (Nat.not_lt_zero _)

abbrev dmaSemScoped : Fin 62 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | _ => false

abbrev sig : RefSig :=
  ofTc nBuf bufTy 0 62 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_c : Ref sig .tc := ⟨.hbm, 21, rfl⟩
abbrev main_v6 : Ref sig .tc := ⟨.hbm, 22, rfl⟩
abbrev main_v7 : Ref sig .tc := ⟨.hbm, 23, rfl⟩
abbrev main_c_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_1 : Ref sig .tc := ⟨.hbm, 40, rfl⟩
abbrev main_v22 : Ref sig .tc := ⟨.hbm, 41, rfl⟩
abbrev main_v23 : Ref sig .tc := ⟨.hbm, 42, rfl⟩
abbrev main_cst_2 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_cst_3 : Ref sig .tc := ⟨.hbm, 49, rfl⟩
abbrev main_v29 : Ref sig .tc := ⟨.hbm, 50, rfl⟩
abbrev main_v30 : Ref sig .tc := ⟨.hbm, 51, rfl⟩
abbrev main_cst_4 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_5 : Ref sig .tc := ⟨.hbm, 67, rfl⟩
abbrev main_v45 : Ref sig .tc := ⟨.hbm, 68, rfl⟩
abbrev main_v46 : Ref sig .tc := ⟨.hbm, 69, rfl⟩
abbrev main_cst_6 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_cst_7 : Ref sig .tc := ⟨.hbm, 76, rfl⟩
abbrev main_v52 : Ref sig .tc := ⟨.hbm, 77, rfl⟩
abbrev main_v53 : Ref sig .tc := ⟨.hbm, 78, rfl⟩
abbrev main_cst_8 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_c_9 : Ref sig .tc := ⟨.hbm, 89, rfl⟩
abbrev main_v63 : Ref sig .tc := ⟨.hbm, 90, rfl⟩
abbrev main_v64 : Ref sig .tc := ⟨.hbm, 91, rfl⟩
abbrev main_c_10 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_cst_11 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_cst_12 : Ref sig .tc := ⟨.hbm, 108, rfl⟩
abbrev main_v79 : Ref sig .tc := ⟨.hbm, 109, rfl⟩
abbrev main_v80 : Ref sig .tc := ⟨.hbm, 110, rfl⟩
abbrev main_cst_13 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_cst_14 : Ref sig .tc := ⟨.hbm, 117, rfl⟩
abbrev main_v86 : Ref sig .tc := ⟨.hbm, 118, rfl⟩
abbrev main_v87 : Ref sig .tc := ⟨.hbm, 119, rfl⟩
abbrev main_cst_15 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_cst_16 : Ref sig .tc := ⟨.hbm, 135, rfl⟩
abbrev main_v102 : Ref sig .tc := ⟨.hbm, 136, rfl⟩
abbrev main_v103 : Ref sig .tc := ⟨.hbm, 137, rfl⟩
abbrev main_cst_17 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_cst_18 : Ref sig .tc := ⟨.hbm, 144, rfl⟩
abbrev main_v109 : Ref sig .tc := ⟨.hbm, 145, rfl⟩
abbrev main_v110 : Ref sig .tc := ⟨.hbm, 146, rfl⟩
abbrev main_cst_19 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_v117 : Ref sig .tc := ⟨.hbm, 154, rfl⟩
abbrev main_v118 : Ref sig .tc := ⟨.hbm, 155, rfl⟩
abbrev main_v119 : Ref sig .tc := ⟨.hbm, 156, rfl⟩
abbrev main_v120 : Ref sig .tc := ⟨.hbm, 157, rfl⟩
abbrev main_cst_20 : Ref sig .tc := ⟨.hbm, 158, rfl⟩
abbrev main_v121 : Ref sig .tc := ⟨.hbm, 159, rfl⟩
abbrev main_cst_21 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_cst_22 : Ref sig .tc := ⟨.hbm, 164, rfl⟩
abbrev main_v125 : Ref sig .tc := ⟨.hbm, 165, rfl⟩
abbrev main_v126 : Ref sig .tc := ⟨.hbm, 166, rfl⟩
abbrev main_v127 : Ref sig .tc := ⟨.hbm, 167, rfl⟩
abbrev main_cst_23 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg3_0 : Ref sig .tc := ⟨.vmem, 18, rfl⟩
abbrev cc2_stg4_0 : Ref sig .tc := ⟨.vmem, 19, rfl⟩
abbrev cc2_stg5_0 : Ref sig .tc := ⟨.vmem, 20, rfl⟩
abbrev cc2_stg6_0 : Ref sig .tc := ⟨.vmem, 21, rfl⟩
abbrev cc2_stg7_0 : Ref sig .tc := ⟨.vmem, 22, rfl⟩
abbrev cc2_stg7_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg6_0 : Ref sig .tc := ⟨.vmem, 47, rfl⟩
abbrev cc5_stg7_0 : Ref sig .tc := ⟨.vmem, 48, rfl⟩
abbrev cc5_stg7_1 : Ref sig .tc := ⟨.vmem, 49, rfl⟩
abbrev cc6_stg0_0 : Ref sig .tc := ⟨.vmem, 50, rfl⟩
abbrev cc6_stg0_1 : Ref sig .tc := ⟨.vmem, 51, rfl⟩
abbrev cc6_stg1_0 : Ref sig .tc := ⟨.vmem, 52, rfl⟩
abbrev cc6_stg2_0 : Ref sig .tc := ⟨.vmem, 53, rfl⟩
abbrev cc6_stg3_0 : Ref sig .tc := ⟨.vmem, 54, rfl⟩
abbrev cc6_stg4_0 : Ref sig .tc := ⟨.vmem, 55, rfl⟩
abbrev cc6_stg5_0 : Ref sig .tc := ⟨.vmem, 56, rfl⟩
abbrev cc6_stg5_1 : Ref sig .tc := ⟨.vmem, 57, rfl⟩
abbrev cc7_stg0_0 : Ref sig .tc := ⟨.vmem, 58, rfl⟩
abbrev cc7_stg1_0 : Ref sig .tc := ⟨.vmem, 59, rfl⟩
abbrev cc7_stg2_0 : Ref sig .tc := ⟨.vmem, 60, rfl⟩
abbrev cc7_stg3_0 : Ref sig .tc := ⟨.vmem, 61, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem3_0 : DmaSem sig := 18
abbrev cc2_sem4_0 : DmaSem sig := 19
abbrev cc2_sem5_0 : DmaSem sig := 20
abbrev cc2_sem6_0 : DmaSem sig := 21
abbrev cc2_sem7_0 : DmaSem sig := 22
abbrev cc2_sem7_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem6_0 : DmaSem sig := 47
abbrev cc5_sem7_0 : DmaSem sig := 48
abbrev cc5_sem7_1 : DmaSem sig := 49
abbrev cc6_sem0_0 : DmaSem sig := 50
abbrev cc6_sem0_1 : DmaSem sig := 51
abbrev cc6_sem1_0 : DmaSem sig := 52
abbrev cc6_sem2_0 : DmaSem sig := 53
abbrev cc6_sem3_0 : DmaSem sig := 54
abbrev cc6_sem4_0 : DmaSem sig := 55
abbrev cc6_sem5_0 : DmaSem sig := 56
abbrev cc6_sem5_1 : DmaSem sig := 57
abbrev cc7_sem0_0 : DmaSem sig := 58
abbrev cc7_sem1_0 : DmaSem sig := 59
abbrev cc7_sem2_0 : DmaSem sig := 60
abbrev cc7_sem3_0 : DmaSem sig := 61

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S5000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S5000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S5000x128 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S128x128 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S5000x128 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S5000x128 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev grid7 : Pipeline.Grid := ⟨1, ![1], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage7_0 : Fin 1 → Memref sig .tc .vmem S512x256 .f32 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![false]

abbrev stage7_1 : Fin 1 → Memref sig .tc .vmem S256x1 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x1 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S512x1 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  shapeCasts_S5000x128_S5000x128 : S5000x128.ShapeCasts S5000x128
  shapeCasts_S128x128_S128x128 : S128x128.ShapeCasts S128x128
  reducesTo_S50000x128_S128_d0 : S50000x128.ReducesTo [0] S128
  h_S_ : 0 < S_.numel
  bcast_S128_S1x128_1 : S128.BroadcastsInDim S1x128 (![1] : Fin 1 → Fin S1x128.rank)
  bcast_S_S1x128 : S_.BroadcastsInDim S1x128 (![] : Fin 0 → Fin S1x128.rank)
  bcast_S1x128_S50000x128_0_1 : S1x128.BroadcastsInDim S50000x128 (![0, 1] : Fin 2 → Fin S50000x128.rank)
  slices_S2x128x128_S1x128x128_1_0_0 : S2x128x128.Slices ![1, 0, 0] S1x128x128
  slices_S2x128_S1x128_1_0 : S2x128.Slices ![1, 0] S1x128
  concatenates_S50000x128_S50000x128_S50000x256_d1 : Shape.Concatenates [S50000x128, S50000x128] S50000x256 1
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  shapeCasts_S1_S1x1 : S1.ShapeCasts S1x1
  inb_S512x256_S512x256_0_0 : ∀ a, (![0, 0] : Fin 2 → Nat) a + S512x256.size a ≤ S512x256.size a
  h_S512x256 : 0 < S512x256.numel
  shapeCasts_S512x256_S512x256 : S512x256.ShapeCasts S512x256
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  dot_S5000x128_S128x128_S5000x128_1_0_0_1_n_n_wf : DotDims.WF S5000x128 S128x128 S5000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S512_S50000x1_S50000_n_0_0_1_wf : ScatterDims.WF S512 S50000x1 S50000 [] [0] [0] 1
  scatter_S512x256_S50000x1_S50000x256_1_0_0_1_wf : ScatterDims.WF S512x256 S50000x1 S50000x256 [1] [0] [0] 1
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S5000x128.size a ≤ S50000x128.size a
  hwx0_3 : ∀ i : grid0.Coords, EltTy.bits .f32 = 32 ∨ (Rect.block (s := S50000x128) S5000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x128.size a ≤ S50000x128.size a
  hwx1_4 : ∀ i : grid1.Coords, EltTy.bits .f32 = 32 ∨ (Rect.block (s := S50000x128) S5000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x128.size a ≤ S1x128.size a
  hwx2_6 : ∀ i : grid2.Coords, EltTy.bits .f32 = 32 ∨ (Rect.block (s := S1x128) S1x128.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S5000x128.size a ≤ S50000x128.size a
  hwx2_7 : ∀ i : grid2.Coords, EltTy.bits .f32 = 32 ∨ (Rect.block (s := S50000x128) S5000x128.size (cc2_transform_7 i) (hinb2_7 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S50000x128.size a
  hwx4_1 : ∀ i : grid4.Coords, EltTy.bits .f32 = 32 ∨ (Rect.block (s := S50000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S50000x128.size a
  hwx4_4 : ∀ i : grid4.Coords, EltTy.bits .f32 = 32 ∨ (Rect.block (s := S50000x128) S5000x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .f32 = 32 ∨ (Rect.block (s := S50000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S128x128.size a ≤ S128x128.size a
  hwx5_5 : ∀ i : grid5.Coords, EltTy.bits .f32 = 32 ∨ (Rect.block (s := S128x128) S128x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S5000x128.size a ≤ S50000x128.size a
  hwx5_7 : ∀ i : grid5.Coords, EltTy.bits .f32 = 32 ∨ (Rect.block (s := S50000x128) S5000x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S50000x128.size a
  hwx6_0 : ∀ i : grid6.Coords, EltTy.bits .f32 = 32 ∨ (Rect.block (s := S50000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S5000x128.size a ≤ S50000x128.size a
  hwx6_5 : ∀ i : grid6.Coords, EltTy.bits .f32 = 32 ∨ (Rect.block (s := S50000x128) S5000x128.size (cc6_transform_5 i) (hinb6_5 i)).WholeWords (EltTy.packing .f32)
  hrank7 : 0 < grid7.rank
  hstage7_0 : ∀ j, (stage7_0 j).IsWhole
  nbuf7_0 : grid7.bufCount reads7_0 true = 1
  hreads7_0 : ∀ i i' : grid7.Coords, (∀ a, reads7_0 a = true → i a = i' a) → cc7_transform_0 i = cc7_transform_0 i'
  hinb7_0 : ∀ (i : grid7.Coords) a, (cc7_transform_0 i a + 1) * S512x256.size a ≤ S512x256.size a
  hwx7_0 : ∀ i : grid7.Coords, EltTy.bits .f32 = 32 ∨ (Rect.block (s := S512x256) S512x256.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S256x1.size a ≤ S256x1.size a
  hwx7_1 : ∀ i : grid7.Coords, EltTy.bits .f32 = 32 ∨ (Rect.block (s := S256x1) S256x1.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x1.size a ≤ S1x1.size a
  hwx7_2 : ∀ i : grid7.Coords, EltTy.bits .f32 = 32 ∨ (Rect.block (s := S1x1) S1x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S512x1.size a ≤ S512x1.size a
  hwx7_3 : ∀ i : grid7.Coords, EltTy.bits .f32 = 32 ∨ (Rect.block (s := S512x1) S512x1.size (cc7_transform_3 i) (hinb7_3 i)).WholeWords (EltTy.packing .f32)

variable [Facts₀]

def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v5) S5000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v5) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v17) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v21) S5000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v21) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v25) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v35) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v38) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v40) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v43) S1x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v44) S5000x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v44) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v48) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v55) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v61) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v62) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v62) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v72) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v74) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v78) S5000x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v78) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v82) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v89) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v92) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v95) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v97) S128x128.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v100) S1x128.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v101) S5000x128.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v101) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v105) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v112) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v115) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v118) S1x128.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v119) S5000x128.size cc6_transform_5 reads6_5 true false 2 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v132) S512x256.size cc7_transform_0 reads7_0 false true 1 stage7_0 sem7_0
    hrank7 hreads7_0 hinb7_0 nbuf7_0 (Memref.isWhole_whole _) hwx7_0 hstage7_0

abbrev win7_1 : Pipeline.Window sig grid7 :=
  Pipeline.Window.ofSpec (Memref.whole main_arg13) S256x1.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v133) S1x1.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v134) S512x1.size cc7_transform_3 reads7_3 true true 1 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x640000 : Shape := ⟨2, ![2, 640000]⟩
abbrev S50000 : Shape := ⟨1, ![50000]⟩
abbrev S128x128 : Shape := ⟨2, ![128, 128]⟩
abbrev S128 : Shape := ⟨1, ![128]⟩
abbrev S2x128x128 : Shape := ⟨3, ![2, 128, 128]⟩
abbrev S2x128 : Shape := ⟨2, ![2, 128]⟩
abbrev S256x1 : Shape := ⟨2, ![256, 1]⟩
abbrev S1 : Shape := ⟨1, ![1]⟩
abbrev S1x640000 : Shape := ⟨2, ![1, 640000]⟩
abbrev S640000 : Shape := ⟨1, ![640000]⟩
abbrev S1x128 : Shape := ⟨2, ![1, 128]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S50000x256 : Shape := ⟨2, ![50000, 256]⟩
abbrev S512 : Shape := ⟨1, ![512]⟩
abbrev S50000x1 : Shape := ⟨2, ![50000, 1]⟩
abbrev S512x256 : Shape := ⟨2, ![512, 256]⟩
abbrev S512x1 : Shape := ⟨2, ![512, 1]⟩
abbrev S1x1 : Shape := ⟨2, ![1, 1]⟩

abbrev nBuf : Space → Nat
  | .hbm => 252
  | .vmem => 0
  | .smem => 0
  | _ => 0

abbrev hbmTy0_0 (i : Nat) : BufTy := match i % 128 with
  | 0 => ⟨S50000x128, .f32⟩
  | 1 => ⟨S2x640000, .i32⟩
  | 2 => ⟨S50000, .i32⟩
  | 3 => ⟨S128x128, .f32⟩
  | 4 => ⟨S128, .f32⟩
  | 5 => ⟨S2x128x128, .f32⟩
  | 6 => ⟨S2x128, .f32⟩
  | 7 => ⟨S2x128, .f32⟩
  | 8 => ⟨S2x128, .f32⟩
  | 9 => ⟨S2x128x128, .f32⟩
  | 10 => ⟨S2x128, .f32⟩
  | 11 => ⟨S2x128, .f32⟩
  | 12 => ⟨S2x128, .f32⟩
  | 13 => ⟨S256x1, .f32⟩
  | 14 => ⟨S1, .f32⟩
  | 15 => ⟨S1x640000, .i32⟩
  | 16 => ⟨S640000, .i32⟩
  | 17 => ⟨S1x640000, .i32⟩
  | 18 => ⟨S640000, .i32⟩
  | 19 => ⟨S50000x128, .f32⟩
  | 20 => ⟨S1x128, .f32⟩
  | 21 => ⟨S50000x128, .f32⟩
  | 22 => ⟨S50000x128, .f32⟩
  | 23 => ⟨S_, .i32⟩
  | 24 => ⟨S640000, .i32⟩
  | 25 => ⟨S640000, .i1⟩
  | 26 => ⟨S_, .i32⟩
  | 27 => ⟨S640000, .i32⟩
  | 28 => ⟨S640000, .i32⟩
  | 29 => ⟨S640000, .i32⟩
  | 30 => ⟨S640000x1, .i32⟩
  | 31 => ⟨S640000x128, .f32⟩
  | 32 => ⟨S_, .f32⟩
  | 33 => ⟨S50000x128, .f32⟩
  | 34 => ⟨S640000x1, .i32⟩
  | 35 => ⟨S50000x128, .f32⟩
  | 36 => ⟨S50000x128, .f32⟩
  | 37 => ⟨S1x128x128, .f32⟩
  | 38 => ⟨S128x128, .f32⟩
  | 39 => ⟨S50000x128, .f32⟩
  | 40 => ⟨S1x128, .f32⟩
  | 41 => ⟨S128, .f32⟩
  | 42 => ⟨S1x128, .f32⟩
  | 43 => ⟨S50000x128, .f32⟩
  | 44 => ⟨S50000x128, .f32⟩
  | 45 => ⟨S1x128, .f32⟩
  | 46 => ⟨S128, .f32⟩
  | 47 => ⟨S1x128, .f32⟩
  | 48 => ⟨S128, .f32⟩
  | 49 => ⟨S_, .f32⟩
  | 50 => ⟨S128, .f32⟩
  | 51 => ⟨S_, .f32⟩
  | 52 => ⟨S128, .f32⟩
  | 53 => ⟨S128, .f32⟩
  | 54 => ⟨S1x128, .f32⟩
  | 55 => ⟨S50000x128, .f32⟩
  | 56 => ⟨S50000x128, .f32⟩
  | 57 => ⟨S50000x128, .f32⟩
  | 58 => ⟨S_, .f32⟩
  | 59 => ⟨S128, .f32⟩
  | 60 => ⟨S_, .f32⟩
  | 61 => ⟨S128, .f32⟩
  | 62 => ⟨S128, .f32⟩
  | 63 => ⟨S1x128, .f32⟩
  | 64 => ⟨S50000x128, .f32⟩
  | 65 => ⟨S50000x128, .f32⟩
  | 66 => ⟨S_, .f32⟩
  | 67 => ⟨S128, .f32⟩
  | 68 => ⟨S128, .f32⟩
  | 69 => ⟨S128, .f32⟩
  | 70 => ⟨S1x128, .f32⟩
  | 71 => ⟨S50000x128, .f32⟩
  | 72 => ⟨S50000x128, .f32⟩
  | 73 => ⟨S1x128, .f32⟩
  | 74 => ⟨S50000x128, .f32⟩
  | 75 => ⟨S50000x128, .f32⟩
  | 76 => ⟨S1x128, .f32⟩
  | 77 => ⟨S50000x128, .f32⟩
  | 78 => ⟨S50000x128, .f32⟩
  | 79 => ⟨S_, .f32⟩
  | 80 => ⟨S50000x128, .f32⟩
  | 81 => ⟨S50000x128, .f32⟩
  | 82 => ⟨S1x128x128, .f32⟩
  | 83 => ⟨S128x128, .f32⟩
  | 84 => ⟨S50000x128, .f32⟩
  | 85 => ⟨S1x128, .f32⟩
  | 86 => ⟨S128, .f32⟩
  | 87 => ⟨S1x128, .f32⟩
  | 88 => ⟨S50000x128, .f32⟩
  | 89 => ⟨S50000x128, .f32⟩
  | 90 => ⟨S1x128, .f32⟩
  | 91 => ⟨S128, .f32⟩
  | 92 => ⟨S1x128, .f32⟩
  | 93 => ⟨S128, .f32⟩
  | 94 => ⟨S_, .f32⟩
  | 95 => ⟨S128, .f32⟩
  | 96 => ⟨S_, .f32⟩
  | 97 => ⟨S128, .f32⟩
  | 98 => ⟨S128, .f32⟩
  | 99 => ⟨S1x128, .f32⟩
  | 100 => ⟨S50000x128, .f32⟩
  | 101 => ⟨S50000x128, .f32⟩
  | 102 => ⟨S50000x128, .f32⟩
  | 103 => ⟨S_, .f32⟩
  | 104 => ⟨S128, .f32⟩
  | 105 => ⟨S_, .f32⟩
  | 106 => ⟨S128, .f32⟩
  | 107 => ⟨S128, .f32⟩
  | 108 => ⟨S1x128, .f32⟩
  | 109 => ⟨S50000x128, .f32⟩
  | 110 => ⟨S50000x128, .f32⟩
  | 111 => ⟨S_, .f32⟩
  | 112 => ⟨S128, .f32⟩
  | 113 => ⟨S128, .f32⟩
  | 114 => ⟨S128, .f32⟩
  | 115 => ⟨S1x128, .f32⟩
  | 116 => ⟨S50000x128, .f32⟩
  | 117 => ⟨S50000x128, .f32⟩
  | 118 => ⟨S1x128, .f32⟩
  | 119 => ⟨S50000x128, .f32⟩
  | 120 => ⟨S50000x128, .f32⟩
  | 121 => ⟨S1x128, .f32⟩
  | 122 => ⟨S50000x128, .f32⟩
  | 123 => ⟨S50000x128, .f32⟩
  | 124 => ⟨S_, .f32⟩
  | 125 => ⟨S50000x128, .f32⟩
  | 126 => ⟨S50000x128, .f32⟩
  | 127 => ⟨S_, .i32⟩
  | _ => ⟨S50000x128, .f32⟩

abbrev hbmTy0_1 (i : Nat) : BufTy := match i % 128 with
  | 0 => ⟨S640000, .i32⟩
  | 1 => ⟨S640000, .i1⟩
  | 2 => ⟨S_, .i32⟩
  | 3 => ⟨S640000, .i32⟩
  | 4 => ⟨S640000, .i32⟩
  | 5 => ⟨S640000, .i32⟩
  | 6 => ⟨S640000x1, .i32⟩
  | 7 => ⟨S640000x128, .f32⟩
  | 8 => ⟨S_, .f32⟩
  | 9 => ⟨S50000x128, .f32⟩
  | 10 => ⟨S640000x1, .i32⟩
  | 11 => ⟨S50000x128, .f32⟩
  | 12 => ⟨S50000x128, .f32⟩
  | 13 => ⟨S1x128x128, .f32⟩
  | 14 => ⟨S128x128, .f32⟩
  | 15 => ⟨S50000x128, .f32⟩
  | 16 => ⟨S1x128, .f32⟩
  | 17 => ⟨S128, .f32⟩
  | 18 => ⟨S1x128, .f32⟩
  | 19 => ⟨S50000x128, .f32⟩
  | 20 => ⟨S50000x128, .f32⟩
  | 21 => ⟨S1x128, .f32⟩
  | 22 => ⟨S128, .f32⟩
  | 23 => ⟨S1x128, .f32⟩
  | 24 => ⟨S128, .f32⟩
  | 25 => ⟨S_, .f32⟩
  | 26 => ⟨S128, .f32⟩
  | 27 => ⟨S_, .f32⟩
  | 28 => ⟨S128, .f32⟩
  | 29 => ⟨S128, .f32⟩
  | 30 => ⟨S1x128, .f32⟩
  | 31 => ⟨S50000x128, .f32⟩
  | 32 => ⟨S50000x128, .f32⟩
  | 33 => ⟨S50000x128, .f32⟩
  | 34 => ⟨S_, .f32⟩
  | 35 => ⟨S128, .f32⟩
  | 36 => ⟨S_, .f32⟩
  | 37 => ⟨S128, .f32⟩
  | 38 => ⟨S128, .f32⟩
  | 39 => ⟨S1x128, .f32⟩
  | 40 => ⟨S50000x128, .f32⟩
  | 41 => ⟨S50000x128, .f32⟩
  | 42 => ⟨S_, .f32⟩
  | 43 => ⟨S128, .f32⟩
  | 44 => ⟨S128, .f32⟩
  | 45 => ⟨S128, .f32⟩
  | 46 => ⟨S1x128, .f32⟩
  | 47 => ⟨S50000x128, .f32⟩
  | 48 => ⟨S50000x128, .f32⟩
  | 49 => ⟨S1x128, .f32⟩
  | 50 => ⟨S50000x128, .f32⟩
  | 51 => ⟨S50000x128, .f32⟩
  | 52 => ⟨S1x128, .f32⟩
  | 53 => ⟨S50000x128, .f32⟩
  | 54 => ⟨S50000x128, .f32⟩
  | 55 => ⟨S_, .f32⟩
  | 56 => ⟨S50000x128, .f32⟩
  | 57 => ⟨S50000x128, .f32⟩
  | 58 => ⟨S1x128x128, .f32⟩
  | 59 => ⟨S128x128, .f32⟩
  | 60 => ⟨S50000x128, .f32⟩
  | 61 => ⟨S1x128, .f32⟩
  | 62 => ⟨S128, .f32⟩
  | 63 => ⟨S1x128, .f32⟩
  | 64 => ⟨S50000x128, .f32⟩
  | 65 => ⟨S50000x128, .f32⟩
  | 66 => ⟨S1x128, .f32⟩
  | 67 => ⟨S128, .f32⟩
  | 68 => ⟨S1x128, .f32⟩
  | 69 => ⟨S128, .f32⟩
  | 70 => ⟨S_, .f32⟩
  | 71 => ⟨S128, .f32⟩
  | 72 => ⟨S_, .f32⟩
  | 73 => ⟨S128, .f32⟩
  | 74 => ⟨S128, .f32⟩
  | 75 => ⟨S1x128, .f32⟩
  | 76 => ⟨S50000x128, .f32⟩
  | 77 => ⟨S50000x128, .f32⟩
  | 78 => ⟨S50000x128, .f32⟩
  | 79 => ⟨S_, .f32⟩
  | 80 => ⟨S128, .f32⟩
  | 81 => ⟨S_, .f32⟩
  | 82 => ⟨S128, .f32⟩
  | 83 => ⟨S128, .f32⟩
  | 84 => ⟨S1x128, .f32⟩
  | 85 => ⟨S50000x128, .f32⟩
  | 86 => ⟨S50000x128, .f32⟩
  | 87 => ⟨S_, .f32⟩
  | 88 => ⟨S128, .f32⟩
  | 89 => ⟨S128, .f32⟩
  | 90 => ⟨S128, .f32⟩
  | 91 => ⟨S1x128, .f32⟩
  | 92 => ⟨S50000x128, .f32⟩
  | 93 => ⟨S50000x128, .f32⟩
  | 94 => ⟨S1x128, .f32⟩
  | 95 => ⟨S50000x128, .f32⟩
  | 96 => ⟨S50000x128, .f32⟩
  | 97 => ⟨S1x128, .f32⟩
  | 98 => ⟨S50000x128, .f32⟩
  | 99 => ⟨S50000x128, .f32⟩
  | 100 => ⟨S_, .f32⟩
  | 101 => ⟨S50000x128, .f32⟩
  | 102 => ⟨S50000x128, .f32⟩
  | 103 => ⟨S50000x256, .f32⟩
  | 104 => ⟨S_, .f32⟩
  | 105 => ⟨S50000, .f32⟩
  | 106 => ⟨S_, .f32⟩
  | 107 => ⟨S512, .f32⟩
  | 108 => ⟨S50000x1, .i32⟩
  | 109 => ⟨S512, .f32⟩
  | 110 => ⟨S_, .f32⟩
  | 111 => ⟨S512x256, .f32⟩
  | 112 => ⟨S50000x1, .i32⟩
  | 113 => ⟨S512x256, .f32⟩
  | 114 => ⟨S_, .f32⟩
  | 115 => ⟨S512, .f32⟩
  | 116 => ⟨S512, .f32⟩
  | 117 => ⟨S512x1, .f32⟩
  | 118 => ⟨S512x256, .f32⟩
  | 119 => ⟨S512x256, .f32⟩
  | 120 => ⟨S512x1, .f32⟩
  | 121 => ⟨S1x1, .f32⟩
  | 122 => ⟨S512x1, .f32⟩
  | 123 => ⟨S512x1, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_c : Ref sig .tc := ⟨.hbm, 23, rfl⟩
abbrev main_v8 : Ref sig .tc := ⟨.hbm, 24, rfl⟩
abbrev main_v9 : Ref sig .tc := ⟨.hbm, 25, rfl⟩
abbrev main_c_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_1 : Ref sig .tc := ⟨.hbm, 49, rfl⟩
abbrev main_v31 : Ref sig .tc := ⟨.hbm, 50, rfl⟩
abbrev main_cst_2 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_3 : Ref sig .tc := ⟨.hbm, 58, rfl⟩
abbrev main_v38 : Ref sig .tc := ⟨.hbm, 59, rfl⟩
abbrev main_cst_4 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_cst_5 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_call0_cst : Ref sig .tc := ⟨.hbm, 79, rfl⟩
abbrev main_call0_v0 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_6 : Ref sig .tc := ⟨.hbm, 94, rfl⟩
abbrev main_v69 : Ref sig .tc := ⟨.hbm, 95, rfl⟩
abbrev main_cst_7 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_cst_8 : Ref sig .tc := ⟨.hbm, 103, rfl⟩
abbrev main_v76 : Ref sig .tc := ⟨.hbm, 104, rfl⟩
abbrev main_cst_9 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_v80 : Ref sig .tc := ⟨.hbm, 109, rfl⟩
abbrev main_v81 : Ref sig .tc := ⟨.hbm, 110, rfl⟩
abbrev main_cst_10 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_v87 : Ref sig .tc := ⟨.hbm, 117, rfl⟩
abbrev main_v88 : Ref sig .tc := ⟨.hbm, 118, rfl⟩
abbrev main_v89 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_call1_cst : Ref sig .tc := ⟨.hbm, 124, rfl⟩
abbrev main_call1_v0 : Ref sig .tc := ⟨.hbm, 125, rfl⟩
abbrev main_v94 : Ref sig .tc := ⟨.hbm, 126, rfl⟩
abbrev main_c_11 : Ref sig .tc := ⟨.hbm, 127, rfl⟩
abbrev main_v95 : Ref sig .tc := ⟨.hbm, 128, rfl⟩
abbrev main_v96 : Ref sig .tc := ⟨.hbm, 129, rfl⟩
abbrev main_c_12 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_cst_13 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_v108 : Ref sig .tc := ⟨.hbm, 143, rfl⟩
abbrev main_v109 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_v113 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_cst_14 : Ref sig .tc := ⟨.hbm, 153, rfl⟩
abbrev main_v118 : Ref sig .tc := ⟨.hbm, 154, rfl⟩
abbrev main_cst_15 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_cst_16 : Ref sig .tc := ⟨.hbm, 162, rfl⟩
abbrev main_v125 : Ref sig .tc := ⟨.hbm, 163, rfl⟩
abbrev main_cst_17 : Ref sig .tc := ⟨.hbm, 164, rfl⟩
abbrev main_v126 : Ref sig .tc := ⟨.hbm, 165, rfl⟩
abbrev main_v127 : Ref sig .tc := ⟨.hbm, 166, rfl⟩
abbrev main_v128 : Ref sig .tc := ⟨.hbm, 167, rfl⟩
abbrev main_v129 : Ref sig .tc := ⟨.hbm, 168, rfl⟩
abbrev main_v130 : Ref sig .tc := ⟨.hbm, 169, rfl⟩
abbrev main_cst_18 : Ref sig .tc := ⟨.hbm, 170, rfl⟩
abbrev main_v131 : Ref sig .tc := ⟨.hbm, 171, rfl⟩
abbrev main_v132 : Ref sig .tc := ⟨.hbm, 172, rfl⟩
abbrev main_v133 : Ref sig .tc := ⟨.hbm, 173, rfl⟩
abbrev main_v134 : Ref sig .tc := ⟨.hbm, 174, rfl⟩
abbrev main_v135 : Ref sig .tc := ⟨.hbm, 175, rfl⟩
abbrev main_v136 : Ref sig .tc := ⟨.hbm, 176, rfl⟩
abbrev main_v137 : Ref sig .tc := ⟨.hbm, 177, rfl⟩
abbrev main_v138 : Ref sig .tc := ⟨.hbm, 178, rfl⟩
abbrev main_v139 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_call2_cst : Ref sig .tc := ⟨.hbm, 183, rfl⟩
abbrev main_call2_v0 : Ref sig .tc := ⟨.hbm, 184, rfl⟩
abbrev main_v143 : Ref sig .tc := ⟨.hbm, 185, rfl⟩
abbrev main_v144 : Ref sig .tc := ⟨.hbm, 186, rfl⟩
abbrev main_v145 : Ref sig .tc := ⟨.hbm, 187, rfl⟩
abbrev main_v146 : Ref sig .tc := ⟨.hbm, 188, rfl⟩
abbrev main_v147 : Ref sig .tc := ⟨.hbm, 189, rfl⟩
abbrev main_v148 : Ref sig .tc := ⟨.hbm, 190, rfl⟩
abbrev main_v149 : Ref sig .tc := ⟨.hbm, 191, rfl⟩
abbrev main_v150 : Ref sig .tc := ⟨.hbm, 192, rfl⟩
abbrev main_v151 : Ref sig .tc := ⟨.hbm, 193, rfl⟩
abbrev main_v152 : Ref sig .tc := ⟨.hbm, 194, rfl⟩
abbrev main_v153 : Ref sig .tc := ⟨.hbm, 195, rfl⟩
abbrev main_v154 : Ref sig .tc := ⟨.hbm, 196, rfl⟩
abbrev main_v155 : Ref sig .tc := ⟨.hbm, 197, rfl⟩
abbrev main_cst_19 : Ref sig .tc := ⟨.hbm, 198, rfl⟩
abbrev main_v156 : Ref sig .tc := ⟨.hbm, 199, rfl⟩
abbrev main_cst_20 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_21 : Ref sig .tc := ⟨.hbm, 207, rfl⟩
abbrev main_v163 : Ref sig .tc := ⟨.hbm, 208, rfl⟩
abbrev main_cst_22 : Ref sig .tc := ⟨.hbm, 209, rfl⟩
abbrev main_v164 : Ref sig .tc := ⟨.hbm, 210, rfl⟩
abbrev main_v165 : Ref sig .tc := ⟨.hbm, 211, rfl⟩
abbrev main_v166 : Ref sig .tc := ⟨.hbm, 212, rfl⟩
abbrev main_v167 : Ref sig .tc := ⟨.hbm, 213, rfl⟩
abbrev main_v168 : Ref sig .tc := ⟨.hbm, 214, rfl⟩
abbrev main_cst_23 : Ref sig .tc := ⟨.hbm, 215, rfl⟩
abbrev main_v169 : Ref sig .tc := ⟨.hbm, 216, rfl⟩
abbrev main_v170 : Ref sig .tc := ⟨.hbm, 217, rfl⟩
abbrev main_v171 : Ref sig .tc := ⟨.hbm, 218, rfl⟩
abbrev main_v172 : Ref sig .tc := ⟨.hbm, 219, rfl⟩
abbrev main_v173 : Ref sig .tc := ⟨.hbm, 220, rfl⟩
abbrev main_v174 : Ref sig .tc := ⟨.hbm, 221, rfl⟩
abbrev main_v175 : Ref sig .tc := ⟨.hbm, 222, rfl⟩
abbrev main_v176 : Ref sig .tc := ⟨.hbm, 223, rfl⟩
abbrev main_v177 : Ref sig .tc := ⟨.hbm, 224, rfl⟩
abbrev main_v178 : Ref sig .tc := ⟨.hbm, 225, rfl⟩
abbrev main_v179 : Ref sig .tc := ⟨.hbm, 226, rfl⟩
abbrev main_v180 : Ref sig .tc := ⟨.hbm, 227, rfl⟩
abbrev main_call3_cst : Ref sig .tc := ⟨.hbm, 228, rfl⟩
abbrev main_call3_v0 : Ref sig .tc := ⟨.hbm, 229, rfl⟩
abbrev main_v181 : Ref sig .tc := ⟨.hbm, 230, rfl⟩
abbrev main_v182 : Ref sig .tc := ⟨.hbm, 231, rfl⟩
abbrev main_cst_24 : Ref sig .tc := ⟨.hbm, 232, rfl⟩
abbrev main_v183 : Ref sig .tc := ⟨.hbm, 233, rfl⟩
abbrev main_cst_25 : Ref sig .tc := ⟨.hbm, 234, rfl⟩
abbrev main_v184 : Ref sig .tc := ⟨.hbm, 235, rfl⟩
abbrev main_v185 : Ref sig .tc := ⟨.hbm, 236, rfl⟩
abbrev main_v186 : Ref sig .tc := ⟨.hbm, 237, rfl⟩
abbrev main_cst_26 : Ref sig .tc := ⟨.hbm, 238, rfl⟩
abbrev main_v187 : Ref sig .tc := ⟨.hbm, 239, rfl⟩
abbrev main_v188 : Ref sig .tc := ⟨.hbm, 240, rfl⟩
abbrev main_v189 : Ref sig .tc := ⟨.hbm, 241, rfl⟩
abbrev main_cst_27 : Ref sig .tc := ⟨.hbm, 242, rfl⟩
abbrev main_v190 : Ref sig .tc := ⟨.hbm, 243, rfl⟩
abbrev main_v191 : Ref sig .tc := ⟨.hbm, 244, rfl⟩
abbrev main_v192 : Ref sig .tc := ⟨.hbm, 245, rfl⟩
abbrev main_v193 : Ref sig .tc := ⟨.hbm, 246, rfl⟩
abbrev main_v194 : Ref sig .tc := ⟨.hbm, 247, rfl⟩
abbrev main_v195 : Ref sig .tc := ⟨.hbm, 248, rfl⟩
abbrev main_v196 : Ref sig .tc := ⟨.hbm, 249, rfl⟩
abbrev main_v197 : Ref sig .tc := ⟨.hbm, 250, rfl⟩
abbrev main_v198 : Ref sig .tc := ⟨.hbm, 251, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S640000 : S_.BroadcastsInDim S640000 (![] : Fin 0 → Fin S640000.rank)
  bcast_S640000_S640000x1_0 : S640000.BroadcastsInDim S640000x1 (![0] : Fin 1 → Fin S640000x1.rank)
  bcast_S_S50000x128 : S_.BroadcastsInDim S50000x128 (![] : Fin 0 → Fin S50000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  reducesTo_S50000x128_S128_d0 : S50000x128.ReducesTo [0] S128
  h_S_ : 0 < S_.numel
  bcast_S_S128 : S_.BroadcastsInDim S128 (![] : Fin 0 → Fin S128.rank)
  slices_S2x128x128_S1x128x128_1_0_0 : S2x128x128.Slices ![1, 0, 0] S1x128x128
  slices_S2x128_S1x128_1_0 : S2x128.Slices ![1, 0] S1x128
  concatenates_S50000x128_S50000x128_S50000x256_d1 : Shape.Concatenates [S50000x128, S50000x128] S50000x256 1
  bcast_S_S50000 : S_.BroadcastsInDim S50000 (![] : Fin 0 → Fin S50000.rank)
  bcast_S_S512 : S_.BroadcastsInDim S512 (![] : Fin 0 → Fin S512.rank)
  bcast_S50000_S50000x1_0 : S50000.BroadcastsInDim S50000x1 (![0] : Fin 1 → Fin S50000x1.rank)
  bcast_S_S512x256 : S_.BroadcastsInDim S512x256 (![] : Fin 0 → Fin S512x256.rank)
  bcast_S512_S512x1_0 : S512.BroadcastsInDim S512x1 (![0] : Fin 1 → Fin S512x1.rank)
  bcast_S512x1_S512x256_0_1 : S512x1.BroadcastsInDim S512x256 (![0, 1] : Fin 2 → Fin S512x256.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  dot_S50000x128_S128x128_S50000x128_1_0_0_1_n_n_wf : DotDims.WF S50000x128 S128x128 S50000x128 [1] [0] [0] [1] [] []
  gather_S50000x128_S640000x1_S640000x128_1_0_n_n_0_1_1128_wf : GatherDims.WF S50000x128 S640000x1 S640000x128 [1] [0] [] [0] [] 1 ![1, 128]
  scatter_S50000x128_S640000x1_S640000x128_1_0_0_1_wf : ScatterDims.WF S50000x128 S640000x1 S640000x128 [1] [0] [0] 1
  scatter_S512_S50000x1_S50000_n_0_0_1_wf : ScatterDims.WF S512 S50000x1 S50000 [] [0] [0] 1
  scatter_S512x256_S50000x1_S50000x256_1_0_0_1_wf : ScatterDims.WF S512x256 S50000x1 S50000x256 [1] [0] [0] 1
  dot_S512x256_S256x1_S512x1_1_0_0_1_n_n_wf : DotDims.WF S512x256 S256x1 S512x1 [1] [0] [0] [1] [] []

variable [Facts₀]

def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S640000x1_S640000x128_1_0_n_n_0_1_1128 : GatherDims S50000x128 S640000x1 S640000x128 where
  offsetDims := [1]
  collapsedSliceDims := [0]
  operandBatchingDims := []
  startIndicesBatchingDims := []
  startIndexMap := [0]
  indexVectorDim := 1
  sliceSizes := ![1, 128]
  wf := gather_S50000x128_S640000x1_S640000x128_1_0_n_n_0_1_1128_wf
def scatter_S50000x128_S640000x1_S640000x128_1_0_0_1 : ScatterDims S50000x128 S640000x1 S640000x128 where
  updateWindowDims := [1]
  insertedWindowDims := [0]
  scatterDimsToOperandDims := [0]
  indexVectorDim := 1
  wf := scatter_S50000x128_S640000x1_S640000x128_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x256_S50000x1_S50000x256_1_0_0_1 : ScatterDims S512x256 S50000x1 S50000x256 where
  updateWindowDims := [1]
  insertedWindowDims := [0]
  scatterDimsToOperandDims := [0]
  indexVectorDim := 1
  wf := scatter_S512x256_S50000x1_S50000x256_1_0_0_1_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.KernelRun.lean ====
/-
  The whole program's run with its result named.  The program is eight kernel launches among stretches of host
  operations; the buffers' contents at each boundary are a fold from the launch memory, and at the end every buffer
  that outlives a launch holds the last boundary's contents.  Read at the result buffer this names the result; read at
  the argument buffers it says they are unchanged.
-/
import proofs.«151745_j68229850464792_1_alg».proof.Proof.Gen.KernelIdeal.Frame

set_option maxRecDepth 16384

noncomputable section

namespace Cert.KernelIdeal.GinRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program ends with the result buffer at the last boundary's contents and the
    argument buffers as launched. -/
theorem run_value : θ_run defs (onTc (τ := τ) (main (F := F))) ⟨m, fun _ => 0, ρ⟩ (fun r => ∀ c : Dev nD,
      r.2.mem ((c.tc : Thread nD τ).loc main_v134) = W16 m ρ c (Proc.devRef .tc main_v134)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W16 m ρ c b)
    (hfin := fun c s' => by
      iintro ⟨⟨Hh, -⟩, HSI⟩
      unfold StableHlo.held
      imodintro
      iapply (pointsTo_read_all (Pipeline.ucRefs τ sig) (fun b => (((c : Thread nD τ)).1, b)) (W16 m ρ c) s')
      isplitl [Hh] <;> iassumption)
    (hQ := fun s h c =>
      ⟨h c _ (mem_uc main_v134 (by decide)),
       (h c _ (mem_uc main_arg0 (by decide))).trans (W16_main_arg0 m ρ c),
       (h c _ (mem_uc main_arg1 (by decide))).trans (W16_main_arg1 m ρ c),
       (h c _ (mem_uc main_arg2 (by decide))).trans (W16_main_arg2 m ρ c),
       (h c _ (mem_uc main_arg3 (by decide))).trans (W16_main_arg3 m ρ c),
       (h c _ (mem_uc main_arg4 (by decide))).trans (W16_main_arg4 m ρ c),
       (h c _ (mem_uc main_arg5 (by decide))).trans (W16_main_arg5 m ρ c),
       (h c _ (mem_uc main_arg6 (by decide))).trans (W16_main_arg6 m ρ c),
       (h c _ (mem_uc main_arg7 (by decide))).trans (W16_main_arg7 m ρ c),
       (h c _ (mem_uc main_arg8 (by decide))).trans (W16_main_arg8 m ρ c),
       (h c _ (mem_uc main_arg9 (by decide))).trans (W16_main_arg9 m ρ c),
       (h c _ (mem_uc main_arg10 (by decide))).trans (W16_main_arg10 m ρ c),
       (h c _ (mem_uc main_arg11 (by decide))).trans (W16_main_arg11 m ρ c),
       (h c _ (mem_uc main_arg12 (by decide))).trans (W16_main_arg12 m ρ c),
       (h c _ (mem_uc main_arg13 (by decide))).trans (W16_main_arg13 m ρ c),
       (h c _ (mem_uc main_arg14 (by decide))).trans (W16_main_arg14 m ρ c)⟩)

end Cert.KernelIdeal.GinRun

end
-- ==== Proof.KFoldArgs.lean ====
/-
  The argument buffers through the whole program.  No host operation writes an argument and no launch writes one
  back (a launch reads an argument through an input window or passes it by), so at every boundary between the
  program's segments each argument buffer still holds what it held at launch.
-/
import proofs.«151745_j68229850464792_1_alg».proof.Proof.Gen.KernelIdeal.Frame

set_option maxRecDepth 16384

noncomputable section

open Idealize.ShloMosaic Idealize.ShloMosaic.TcCoe Idealize.SL.Sem
open Idealize.ShloMosaic.Pipeline (Dat)

namespace Cert.KernelIdeal.GinFold

open Cert.KernelIdeal Cert.KernelIdeal.Gen

variable {F : FTy → Type} [FloatOps F]
variable (m : (ℓ : Loc nD τ sig) → Buf (Elt F) ℓ) (ρ : Dev nD → PrngReg) (c : Dev nD)

/-- The argument buffers. -/
abbrev argRefs : List (Ref sig .tc) :=
  [main_arg0, main_arg1, main_arg2, main_arg3, main_arg4, main_arg5, main_arg6, main_arg7, main_arg8, main_arg9,
   main_arg10, main_arg11, main_arg12, main_arg13, main_arg14]

/-- No operation of a literal list writes the buffer in question. -/
macro "not_written" ops:ident : tactic => `(tactic| exact List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide)))

theorem W0_arg (a : Ref sig .tc) (ha : a ∈ argRefs) : W0 m ρ c (Proc.devRef .tc a) = m ((c : Thread nD τ).loc a) := rfl

theorem W1_arg (a : Ref sig .tc) (ha : a ∈ argRefs) : W1 m ρ c (Proc.devRef .tc a) = m ((c : Thread nD τ).loc a) := by
  refine Eq.trans ?_ (W0_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals exact StableHlo.after_of_forall_not_mem (b := Proc.devRef .tc _) _ _ (by not_written hostOps0)

theorem W2_arg (a : Ref sig .tc) (ha : a ∈ argRefs) : W2 m ρ c (Proc.devRef .tc a) = m ((c : Thread nD τ).loc a) := by
  refine Eq.trans ?_ (W1_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals first
    | exact W2_of_ne m ρ c _ (by decide)
    | exact (W2_arr m ρ c 0).trans (((dat0 (V1 m ρ) c).arrAt_in 0 rfl _).trans (A_eq0 (V1 m ρ) c 0))
    | exact (W2_arr m ρ c 1).trans (((dat0 (V1 m ρ) c).arrAt_in 1 rfl _).trans (A_eq0 (V1 m ρ) c 1))

theorem W3_arg (a : Ref sig .tc) (ha : a ∈ argRefs) : W3 m ρ c (Proc.devRef .tc a) = m ((c : Thread nD τ).loc a) := by
  refine Eq.trans ?_ (W2_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals exact StableHlo.after_of_forall_not_mem (b := Proc.devRef .tc _) _ _ (by not_written hostOps1)

theorem W4_arg (a : Ref sig .tc) (ha : a ∈ argRefs) : W4 m ρ c (Proc.devRef .tc a) = m ((c : Thread nD τ).loc a) := by
  refine Eq.trans ?_ (W3_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals first
    | exact W4_of_ne m ρ c _ (by decide)

theorem W5_arg (a : Ref sig .tc) (ha : a ∈ argRefs) : W5 m ρ c (Proc.devRef .tc a) = m ((c : Thread nD τ).loc a) := by
  refine Eq.trans ?_ (W4_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals exact StableHlo.after_of_forall_not_mem (b := Proc.devRef .tc _) _ _ (by not_written hostOps2)

theorem W6_arg (a : Ref sig .tc) (ha : a ∈ argRefs) : W6 m ρ c (Proc.devRef .tc a) = m ((c : Thread nD τ).loc a) := by
  refine Eq.trans ?_ (W5_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals first
    | exact W6_of_ne m ρ c _ (by decide)

theorem W7_arg (a : Ref sig .tc) (ha : a ∈ argRefs) : W7 m ρ c (Proc.devRef .tc a) = m ((c : Thread nD τ).loc a) := by
  refine Eq.trans ?_ (W6_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals exact StableHlo.after_of_forall_not_mem (b := Proc.devRef .tc _) _ _ (by not_written hostOps3)

theorem W8_arg (a : Ref sig .tc) (ha : a ∈ argRefs) : W8 m ρ c (Proc.devRef .tc a) = m ((c : Thread nD τ).loc a) := by
  refine Eq.trans ?_ (W7_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals first
    | exact W8_of_ne m ρ c _ (by decide)

theorem W9_arg (a : Ref sig .tc) (ha : a ∈ argRefs) : W9 m ρ c (Proc.devRef .tc a) = m ((c : Thread nD τ).loc a) := by
  refine Eq.trans ?_ (W8_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals exact StableHlo.after_of_forall_not_mem (b := Proc.devRef .tc _) _ _ (by not_written hostOps4)

theorem W10_arg (a : Ref sig .tc) (ha : a ∈ argRefs) : W10 m ρ c (Proc.devRef .tc a) = m ((c : Thread nD τ).loc a) := by
  refine Eq.trans ?_ (W9_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals first
    | exact W10_of_ne m ρ c _ (by decide)

theorem W11_arg (a : Ref sig .tc) (ha : a ∈ argRefs) : W11 m ρ c (Proc.devRef .tc a) = m ((c : Thread nD τ).loc a) := by
  refine Eq.trans ?_ (W10_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals exact StableHlo.after_of_forall_not_mem (b := Proc.devRef .tc _) _ _ (by not_written hostOps5)

theorem W12_arg (a : Ref sig .tc) (ha : a ∈ argRefs) : W12 m ρ c (Proc.devRef .tc a) = m ((c : Thread nD τ).loc a) := by
  refine Eq.trans ?_ (W11_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals first
    | exact W12_of_ne m ρ c _ (by decide)

theorem W13_arg (a : Ref sig .tc) (ha : a ∈ argRefs) : W13 m ρ c (Proc.devRef .tc a) = m ((c : Thread nD τ).loc a) := by
  refine Eq.trans ?_ (W12_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals exact StableHlo.after_of_forall_not_mem (b := Proc.devRef .tc _) _ _ (by not_written hostOps6)

theorem W14_arg (a : Ref sig .tc) (ha : a ∈ argRefs) : W14 m ρ c (Proc.devRef .tc a) = m ((c : Thread nD τ).loc a) := by
  refine Eq.trans ?_ (W13_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals first
    | exact W14_of_ne m ρ c _ (by decide)

theorem W15_arg (a : Ref sig .tc) (ha : a ∈ argRefs) : W15 m ρ c (Proc.devRef .tc a) = m ((c : Thread nD τ).loc a) := by
  refine Eq.trans ?_ (W14_arg m ρ c a ha)
  simp only [argRefs, List.mem_cons, List.mem_singleton, List.not_mem_nil, or_false] at ha
  rcases ha with rfl | rfl | rfl | rfl | rfl | rfl | rfl | rfl | rfl | rfl | rfl | rfl | rfl | rfl | rfl
  all_goals exact StableHlo.after_of_forall_not_mem (b := Proc.devRef .tc _) _ _ (by not_written hostOps7)

end Cert.KernelIdeal.GinFold

end
-- ==== Proof.Stages.lean ====
/-
  The stages of a two-layer graph network read entry by entry on the extended reals.

  A node-feature matrix has 50000 rows of 128 features.  A dense layer adds one row of biases to every row of a matrix
  product; a normalisation layer subtracts a row of column means, scales by the reciprocal square root of a row of
  column variances (plus a small constant) and by a row of gains, adds a row of offsets and clips at zero.  The
  matrix products themselves are passed in as arrays: nothing here opens a sum.
-/
import Idealize.ShloMosaic.Lib.Pipeline.Value
import Idealize.ShloMosaic.Lib.ValueIdx
import Idealize.ShloMosaic.Lib.ValueLayout
import Idealize.ShloMosaic.PureOps.Ideal.Laws

noncomputable section

namespace Cert.Gin

open Idealize.ShloMosaic Idealize.ShloMosaic.ValueIdx

/-- A node-feature matrix: 50000 rows of 128 features. -/
abbrev SN : Shape := ⟨2, ![50000, 128]⟩
/-- One row of 128 features. -/
abbrev SR : Shape := ⟨2, ![1, 128]⟩
/-- A vector of 128 features. -/
abbrev SV : Shape := ⟨1, ![128]⟩

/-- The entry of a one-row array that sits above (or below) entry `i` of a matrix: same column, row 0. -/
abbrev rowOf (i : SN.Idx) : SR.Idx := ix2 (0 : Fin 1) (⟨(i 1).val, (i 1).isLt⟩ : Fin 128)

theorem rowOf_ix2 (p : Fin 50000) (q : Fin 128) : rowOf (ix2 p q) = ix2 (0 : Fin 1) q := rfl

/-- A vector laid out as one row: entry `(0, q)` is entry `q`. -/
def asRow (v : FVec Ideal SV .f32) : FVec Ideal SR .f32 := fun i => v (ix1 (⟨(i 1).val, (i 1).isLt⟩ : Fin 128))

theorem asRow_ix2 (v : FVec Ideal SV .f32) (u : Fin 1) (q : Fin 128) : asRow v (ix2 u q) = v (ix1 q) := rfl

/-- A matrix with one row of biases added to every row. -/
def addRow (D : FVec Ideal SN .f32) (B : FVec Ideal SR .f32) : FVec Ideal SN .f32 := fun i => D i + B (rowOf i)

theorem addRow_ix2 (D : FVec Ideal SN .f32) (B : FVec Ideal SR .f32) (p : Fin 50000) (q : Fin 128) :
    addRow D B (ix2 p q) = D (ix2 p q) + B (ix2 (0 : Fin 1) q) := rfl

/-- The small constant added to a variance before the reciprocal square root (the single-precision value nearest 1e-5). -/
def eps : Ideal .f32 := Ideal.ofBits .f32 0x3727C5AC#32
/-- Zero, as the single-precision zero word reads. -/
def zero32 : Ideal .f32 := Ideal.ofBits .f32 0x00000000#32

/-- Normalise, scale, shift and clip at zero: entry `(p, q)` of `Z` becomes
    `max ((Z[p,q] - mu[q]) * rsqrt (var[q] + eps) * g[q] + beta[q]) 0`. -/
def bnRelu (Z : FVec Ideal SN .f32) (mu var g beta : FVec Ideal SR .f32) : FVec Ideal SN .f32 :=
  fun i => max ((Z i - mu (rowOf i)) * Ideal.rsqrt (var (rowOf i) + eps) * g (rowOf i) + beta (rowOf i)) zero32

theorem bnRelu_ix2 (Z : FVec Ideal SN .f32) (mu var g beta : FVec Ideal SR .f32) (p : Fin 50000) (q : Fin 128) :
    bnRelu Z mu var g beta (ix2 p q)
      = max ((Z (ix2 p q) - mu (ix2 (0 : Fin 1) q)) * Ideal.rsqrt (var (ix2 (0 : Fin 1) q) + eps) * g (ix2 (0 : Fin 1) q)
          + beta (ix2 (0 : Fin 1) q)) zero32 := rfl

end Cert.Gin

end
-- ==== Proof.LibLayout.lean ====
/-
  Layout operations of small rank read at an index written by coordinates, and a row sum.

  A column vector `[a, 1]` made from a vector `[a]`, a column broadcast along the rows of a matrix `[a, b]`, and the
  sum of a matrix's rows by a reduction over its second axis: each read at `ix1` / `ix2` coordinates.
-/
import Idealize.ShloMosaic.Lib.Pipeline.Value
import Idealize.ShloMosaic.Lib.ValueIdx
import Idealize.ShloMosaic.Lib.ValueLayout
import Idealize.ShloMosaic.PureOps.Ideal.Laws

namespace Cert.LibLayout

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The sum over the second axis of a matrix of extended reals, read at row `n`: the row's sum. -/
theorem multiReduction_add_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.add.neutral FTy.f32 hφ)
    (n : Fin a) :
    multiReduction .add [1] ⟨1, ![a]⟩ src acc h hφ hacc (ix1 n) = ∑ k : Fin b, src (ix2 n k) := by
  refine (Ideal.multiReduction_add_single src acc h hφ hacc (ix1 n)).trans ?_
  refine Finset.sum_congr rfl fun k _ => ?_
  exact congrArg src (funext fun ax => Fin.ext (by match ax with | ⟨0, _⟩ => rfl | ⟨1, _⟩ => rfl))

/-- The maximum over the second axis of a matrix of extended reals, read at row `n`: the fold of `max` over the row
    from the accumulator's value. -/
theorem multiReduction_max_rows {a b : ℕ} (src : FVec Ideal ⟨2, ![a, b]⟩ .f32) (acc : BitVec 32)
    (h : (⟨2, ![a, b]⟩ : Shape).Reduces [1] ⟨1, ![a]⟩) (hφ : FKind.Formats FTy.f32) (hacc : acc = FKind.maximumf.neutral FTy.f32 hφ)
    (n : Fin a) :
    multiReduction .maximumf [1] ⟨1, ![a]⟩ src acc h hφ hacc (ix1 n)
      = (Finset.univ : Finset (Fin b)).fold max (Ideal.ofBits .f32 acc) (fun k => src (ix2 n k)) := by
  refine (Ideal.multiReduction_maximumf_single src acc h hφ hacc (ix1 n)).trans ?_
  refine congrArg (Finset.fold max (Ideal.ofBits .f32 acc) · Finset.univ) (funext fun k => ?_)
  exact congrArg src (funext fun ax => Fin.ext (by match ax with | ⟨0, _⟩ => rfl | ⟨1, _⟩ => rfl))

/-- The row sum and the row maximum with the accumulator's word and its proof spelt as a printed body spells them (the
    zero word; the `-∞` word), so that they rewrite a printed reduction where it stands. -/
theorem sum_rows_apply {a b : ℕ} (src : FVec Ideal ⟨2, ![a, b]⟩ .f32)
    (h : (⟨2, ![a, b]⟩ : Shape).Reduces [1] ⟨1, ![a]⟩) (hφ : FKind.Formats FTy.f32)
    (hacc : (0x00000000#32 : BitVec 32) = 0x00000000#32) (n : Fin a) :
    multiReduction .add [1] ⟨1, ![a]⟩ src 0x00000000#32 h hφ hacc (ix1 n) = ∑ k : Fin b, src (ix2 n k) :=
  multiReduction_add_rows src 0x00000000#32 h hφ hacc n

theorem max_rows_apply {a b : ℕ} (src : FVec Ideal ⟨2, ![a, b]⟩ .f32)
    (h : (⟨2, ![a, b]⟩ : Shape).Reduces [1] ⟨1, ![a]⟩) (hφ : FKind.Formats FTy.f32)
    (hacc : (0xFF800000#32 : BitVec 32) = 0xFF800000#32) (n : Fin a) :
    multiReduction .maximumf [1] ⟨1, ![a]⟩ src 0xFF800000#32 h hφ hacc (ix1 n)
      = (Finset.univ : Finset (Fin b)).fold max (Ideal.ofBits .f32 0xFF800000#32) (fun k => src (ix2 n k)) :=
  multiReduction_max_rows src 0xFF800000#32 h hφ hacc n

/-- A vector `[b]` laid as one row and repeated down the rows of `[a, b]` reads, at `(p, c)`, the vector at `c`
    (a bias added to every row). -/
theorem rowBias_apply {a b : ℕ} (v : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ v h1) h2 (ix2 p c) = v (ix1 c) :=
  (broadcastTo_1b_ab_apply _ h2 p c).trans (shapeCast_a_1a_apply v h1 0 c)

/-- A matrix product of rows with rows (`A · Bᵀ`: the second axis of each operand contracted) into a zero accumulator,
    on the extended reals: entry `(p, q)` is the sum over `k` of `A[p, k] · B[q, k]`.  The record's own facts (one
    contracted axis of extent `K`; the free axes' coordinates) are hypotheses, closed at a literal record by
    `rfl` and by unfolding the index functions. -/
theorem matmul_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    matmul d prec lhs rhs (constant ⟨2, ![M, N]⟩ .f32 0x00000000#32) (ix2 p q) = ∑ k : Fin K, lhs (ix2 p k) * rhs (ix2 q k) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- A matrix product of rows with columns (`A · B`: the left operand's second axis against the right operand's first)
    into a zero accumulator, on the extended reals: entry `(p, q)` is the sum over `k` of `A[p, k] · B[k, q]`. -/
theorem matmul_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  refine (Ideal.matmul_constant_zero_apply d prec lhs rhs (ix2 p q)).trans ?_
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

/-- A vector cut from `o` reads, at `j`, the source at `o + j`. -/
theorem slice1_eq {n0 m : Nat} (o : Nat) (X : (⟨1, ![n0]⟩ : Shape).Idx → α)
    (h : (⟨1, ![n0]⟩ : Shape).Slices ![o] ⟨1, ![m]⟩) (j : Fin m) :
    extractStridedSlice ⟨1, ![m]⟩ ![o] X h (ix1 j)
      = X (ix1 ⟨o + j.val, Nat.lt_of_lt_of_le (Nat.add_lt_add_left j.isLt o) (h.2 0)⟩) :=
  extractStridedSlice_apply _ _ _ _ _ (fun ax => by
    match ax with
    | ⟨0, _⟩ => rfl)

/-- A column `[a, 1]` read back as the vector `[a]`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- A sum over 512 terms is the sum of its eight runs of 64. -/
theorem sum_512_eq_8x64 {M : Type*} [AddCommMonoid M] (f : Fin 512 → M) :
    ∑ r : Fin 512, f r = ∑ c : Fin 8, ∑ j : Fin 64, f ⟨64 * c.val + j.val, by omega⟩ := by
  have e := Equiv.sum_comp (finProdFinEquiv (m := 8) (n := 64)) (fun r : Fin (8 * 64) => f r)
  rw [show (∑ r : Fin 512, f r) = ∑ r : Fin (8 * 64), f r from rfl, ← e, Fintype.sum_prod_type]
  refine Finset.sum_congr rfl fun c _ => Finset.sum_congr rfl fun j _ => congrArg f (Fin.ext ?_)
  show j.val + 64 * c.val = 64 * c.val + j.val
  omega

/-- The same sum as an accumulation from zero of the eight runs, in order. -/
theorem sum_512_chunks {M : Type*} [AddCommMonoid M] (f : Fin 512 → M) :
    ∑ r : Fin 512, f r =
      0 + (∑ j : Fin 64, f ⟨0 + j.val, by omega⟩) + (∑ j : Fin 64, f ⟨64 + j.val, by omega⟩)
        + (∑ j : Fin 64, f ⟨128 + j.val, by omega⟩) + (∑ j : Fin 64, f ⟨192 + j.val, by omega⟩)
        + (∑ j : Fin 64, f ⟨256 + j.val, by omega⟩) + (∑ j : Fin 64, f ⟨320 + j.val, by omega⟩)
        + (∑ j : Fin 64, f ⟨384 + j.val, by omega⟩) + (∑ j : Fin 64, f ⟨448 + j.val, by omega⟩) := by
  rw [sum_512_eq_8x64, Fin.sum_univ_eight, zero_add]
  rfl

end Cert.LibLayout
-- ==== Proof.LibHostDot.lean ====
/-
  The host's matrix products read entry by entry on the extended reals: rows against rows (A · Bᵀ) and rows against
  columns (A · B), each entry the sum over the contracted index of the operands' products.
-/
import Idealize.ShloMosaic.Lib.Pipeline.Value
import Idealize.ShloMosaic.Lib.ValueIdx
import Idealize.ShloMosaic.PureOps.Ideal.Laws

namespace Cert.LibHostDot

open Idealize.ShloMosaic Idealize.ShloMosaic.ValueIdx

/-- The host's product of rows with rows: entry `(p, q)` is the sum over `k` of `A[p, k] · B[q, k]`. The record's facts
    (one contracted axis of extent `K`; the free axes' coordinates) are hypotheses, closed at a literal record by `rfl`
    and by unfolding the index functions. -/
theorem dotGeneral_rows_rows_apply {M K N : ℕ} {φ₁ φ₂ : FTy} (d : DotDims ⟨2, ![M, K]⟩ ⟨2, ![N, K]⟩ ⟨2, ![M, N]⟩)
    (hr : d.contr.rank = 1) (hs : d.contr.size ⟨0, by omega⟩ = K)
    (hlc : d.lhsContracting = [1]) (hrc : d.rhsContracting = [1])
    (hl0 : ∀ j k, (d.lhsIdx j k 0).val = (j 0).val) (hr0 : ∀ j k, (d.rhsIdx j k 0).val = (j 1).val)
    (prec : Option ContractPrecision) (lhs : FVec Ideal ⟨2, ![M, K]⟩ φ₁) (rhs : FVec Ideal ⟨2, ![N, K]⟩ φ₂) (p : Fin M) (q : Fin N) :
    Host.dotGeneral d prec lhs rhs (ix2 p q) = ∑ k : Fin K, lhs (ix2 p k) * rhs (ix2 q k) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 q k := funext fun a => Fin.ext (by
    match a with
    | ⟨0, _⟩ => exact hr0 _ _
    | ⟨1, _⟩ => exact (d.rhsIdx_val_of_single hrc _ _).trans hk)
  rw [el, er]

/-- The host's product of rows with columns: entry `(p, q)` is the sum over `k` of `A[p, k] · B[k, q]`. -/
theorem dotGeneral_rows_cols_apply {M K N : ℕ} {φ₁ φ₂ : FTy} (d : DotDims ⟨2, ![M, K]⟩ ⟨2, ![K, N]⟩ ⟨2, ![M, N]⟩)
    (hr : d.contr.rank = 1) (hs : d.contr.size ⟨0, by omega⟩ = K)
    (hlc : d.lhsContracting = [1]) (hrc : d.rhsContracting = [0])
    (hl0 : ∀ j k, (d.lhsIdx j k 0).val = (j 0).val) (hr1 : ∀ j k, (d.rhsIdx j k 1).val = (j 1).val)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact hl0 _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact hr1 _ _)
  rw [el, er]

end Cert.LibHostDot
-- ==== Proof.LibMatRows.lean ====
/-
  A matrix product computed one block of rows at a time is the whole product.

  Let X be an M × K matrix, W a K × N matrix, and let x0 be m consecutive rows of X (row p of x0 is row P of X).  The
  product of x0 with W accumulated into the zero matrix has, at (p, q), the sum over k of x0[p, k] · W[k, q]; the host's
  whole product X · W has, at (P, q), the sum over k of X[P, k] · W[k, q].  The two sums have equal terms, so a grid of
  row blocks that tiles X writes exactly the whole product.  On the extended reals nothing else is involved: no
  rounding, no order of summation.  All extents are variables; the records' own facts are hypotheses.
-/
import Idealize.ShloMosaic.Lib.Pipeline.Value
import Idealize.ShloMosaic.Lib.ValueIdx
import Idealize.ShloMosaic.PureOps.Ideal.Laws
import proofs.«151745_j68229850464792_1_alg».proof.Proof.LibLayout
import proofs.«151745_j68229850464792_1_alg».proof.Proof.LibHostDot

noncomputable section

namespace Cert.LibMatRows

open Idealize.ShloMosaic Idealize.ShloMosaic.ValueIdx

/-- Entry (p, q) of a block's product into zero is entry (P, q) of the whole host product, when row p of the block is
    row P of the whole left operand and the right operands agree on column q. -/
theorem block_entry {M m K N : ℕ} {φ₁ φ₂ : FTy}
    (dB : DotDims ⟨2, ![m, K]⟩ ⟨2, ![K, N]⟩ ⟨2, ![m, N]⟩) (dW : DotDims ⟨2, ![M, K]⟩ ⟨2, ![K, N]⟩ ⟨2, ![M, N]⟩)
    (hrB : dB.contr.rank = 1) (hsB : dB.contr.size ⟨0, by omega⟩ = K)
    (hlcB : dB.lhsContracting = [1]) (hrcB : dB.rhsContracting = [0])
    (hl0B : ∀ j k, (dB.lhsIdx j k 0).val = (j 0).val) (hr1B : ∀ j k, (dB.rhsIdx j k 1).val = (j 1).val)
    (hrW : dW.contr.rank = 1) (hsW : dW.contr.size ⟨0, by omega⟩ = K)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal ⟨2, ![M, K]⟩ .f32) (W : FVec Ideal ⟨2, ![K, N]⟩ .f32)
    (x0 : FVec Ideal ⟨2, ![m, K]⟩ φ₁) (w0 : FVec Ideal ⟨2, ![K, N]⟩ φ₂)
    (p : Fin m) (q : Fin N) (P : Fin M)
    (hx : ∀ k : Fin K, x0 (ix2 p k) = X (ix2 P k)) (hw : ∀ k : Fin K, w0 (ix2 k q) = W (ix2 k q)) :
    matmul dB none x0 w0 (constant ⟨2, ![m, N]⟩ .f32 0x00000000#32) (ix2 p q)
      = Host.dotGeneral dW none X W (ix2 P q) := by
  rw [Cert.LibLayout.matmul_rows_cols_apply dB hrB hsB hlcB hrcB hl0B hr1B,
    Cert.LibHostDot.dotGeneral_rows_cols_apply dW hrW hsW hlcW hrcW hl0W hr1W]
  refine Finset.sum_congr rfl fun k _ => ?_
  rw [hx k, hw k]

end Cert.LibMatRows

end
-- ==== Proof.Region0.lean ====
/-
  The first dense layer, one block of 5000 rows at a time.  Each grid point multiplies its 5000 rows of the features
  with the whole weight matrix and adds the bias row; the ten blocks tile the 50000 rows, so the array written is the
  whole product with the bias row added to every row.
-/
import proofs.«151745_j68229850464792_1_alg».proof.Proof.Gen.KernelIdeal.Frame
import proofs.«151745_j68229850464792_1_alg».proof.Proof.Stages
import proofs.«151745_j68229850464792_1_alg».proof.Proof.LibMatRows
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region0

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The block product's record: the left operand's free axis is the result's first axis. -/
theorem dB_l0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's free axis is the result's second axis. -/
theorem dB_r1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One entry of a block's result: row `p` of the block is row `P` of the whole features. -/
theorem pay_entry (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (X : FVec Ideal SN .f32) (x0 : FVec Ideal S5000x128 .f32) (x1 : FVec Ideal S128x128 .f32) (x2 : FVec Ideal S1x128 .f32)
    (p : Fin 5000) (q : Fin 128) (P : Fin 50000) (hx : ∀ k : Fin 128, x0 (ix2 p k) = X (ix2 P k)) :
    k0_pay1 x0 x1 x2 (ix2 p q) = addRow (Host.dotGeneral dW none X x1) x2 (ix2 P q) := by
  unfold k0_pay1
  show _ + _ = Host.dotGeneral dW none X x1 (ix2 P q) + x2 (ix2 (0 : Fin 1) q)
  refine congrArg₂ (· + ·) ?_ ?_
  · exact Cert.LibMatRows.block_entry dot_S5000x128_S128x128_S5000x128_1_0_0_1_n_n dW rfl rfl rfl rfl dB_l0 dB_r1
      hrW hsW hlcW hrcW hl0W hr1W X x1 _ _ p q P (fun k => hx k) (fun k => rfl)
  · rw [shapeCast_self]
    exact broadcastTo_1b_ab_apply x2 broadcasts_S1x128_S5000x128 p q

/-- The printed index maps over the grid: the row blocks move with the grid point, the weights and the bias stay. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The weights' block is the whole weight matrix. -/
theorem blk1 (c : Dev nD) (t : Fin cfg0.N) : iblk0 V c 1 t = V c main_arg3 := by
  obtain ⟨-, -, e2, e3, -⟩ := idx_facts t
  funext y
  show V c main_arg3 (((cfg0.win 1).blk t).view.emb y) = V c main_arg3 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

/-- The bias row's block is the whole row. -/
theorem blk2 (c : Dev nD) (t : Fin cfg0.N) : iblk0 V c 2 t = V c main_v4 := by
  obtain ⟨-, -, -, -, e4, e5, -⟩ := idx_facts t
  funext y
  show V c main_v4 (((cfg0.win 2).blk t).view.emb y) = V c main_v4 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

/-- Row `p` of the features' block at point `t` is row `5000 t + p` of the features. -/
theorem blk0 (c : Dev nD) (t : Fin cfg0.N) (p : Fin 5000) (k : Fin 128) (P : Fin 50000) (hP : P.val = 5000 * t.val + p.val) :
    iblk0 V c 0 t (ix2 p k) = V c main_arg0 (ix2 P k) := by
  obtain ⟨e0, e1, -⟩ := idx_facts t
  show V c main_arg0 (((cfg0.win 0).blk t).view.emb (ix2 p k)) = V c main_arg0 (ix2 P k)
  refine congrArg _ (funext fun a => Fin.ext ?_)
  match a with
  | ⟨0, _⟩ => show win0_0.index t (0 : Fin 2) * 5000 + 1 * p.val = P.val; omega
  | ⟨1, _⟩ => show win0_0.index t (1 : Fin 2) * 128 + 1 * k.val = k.val; omega

/-- What point `t` writes back is block `t` of the whole product with the bias row added. -/
theorem flushed_eq (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) (t : Fin cfg0.N) :
    (dat0 V c).flushed 3 t = ((cfg0.win 3).blk t).view.read (Elt Ideal)
      (addRow (Host.dotGeneral (φ₁ := .f32) (φ₂ := .f32) dW none (V c main_arg0) (V c main_arg3)) (V c main_v4)) := by
  show (cfg0.win 3).cut (grid0.coords t) ((dat0 V c).after 3 t) = _
  rw [after0_3]
  unfold out0_3
  rw [View.canon_unit_zero hz]
  simp only [View.ld_unit_zero (S := S5000x128) hz, View.ld_unit_zero (S := S128x128) hz, View.ld_unit_zero (S := S1x128) hz]
  rw [blk1, blk2]
  obtain ⟨-, -, -, -, -, -, e6, e7⟩ := idx_facts t
  funext j
  obtain ⟨p, q, rfl⟩ : ∃ (p : Fin 5000) (q : Fin 128), j = ix2 p q := ⟨j 0, j 1, eq_ix2 j⟩
  have hP : 5000 * t.val + p.val < 50000 := by
    have := t.isLt; have hN : cfg0.N = 10 := N_0; have := p.isLt; omega
  have hemb : ((cfg0.win 3).blk t).view.emb (ix2 p q) = ix2 (⟨5000 * t.val + p.val, hP⟩ : Fin 50000) q := by
    funext a; apply Fin.ext
    match a with
    | ⟨0, _⟩ => show win0_3.index t (0 : Fin 2) * 5000 + 1 * p.val = 5000 * t.val + p.val; omega
    | ⟨1, _⟩ => show win0_3.index t (1 : Fin 2) * 128 + 1 * q.val = q.val; omega
  show k0_pay1 (iblk0 V c 0 t) (V c main_arg3) (V c main_v4) (ix2 p q) = addRow _ _ (((cfg0.win 3).blk t).view.emb (ix2 p q))
  rw [hemb]
  exact pay_entry dW hrW hsW hlcW hrcW hl0W hr1W (V c main_arg0) (iblk0 V c 0 t) (V c main_arg3) (V c main_v4) p q _
    (fun k => blk0 V c t p k _ rfl)

/-- An index of the array is in point `t`'s block iff each coordinate is in the block's range on its axis. -/
theorem mem_blk (t : Fin cfg0.N) (i : S50000x128.Idx) :
    i ∈ ((cfg0.win 3).blk t).view.set ↔ ∀ a : Fin 2, win0_3.index t a * S5000x128.size a ≤ (i a).val ∧ (i a).val < win0_3.index t a * S5000x128.size a + S5000x128.size a := by
  show i ∈ ((View.whole main_v5).slice (win0_3.rect t)).set ↔ _
  rw [View.set_slice_whole, Rect.mem_set_unit]
  exact Iff.rfl

/-- Every row is in some point's block: row `r` in block `r / 5000`. -/
theorem cover (i : S50000x128.Idx) : ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 10 := N_0
  let t : Fin cfg0.N := ⟨(i 0).val / 5000, by rw [hN]; omega⟩
  obtain ⟨-, -, -, -, -, -, e6, e7⟩ := idx_facts t
  refine ⟨t, flush0_3 t, ?_⟩
  rw [mem_blk]
  intro a
  have ht : t.val = (i 0).val / 5000 := rfl
  match a with
  | ⟨0, _⟩ => show win0_3.index t (0 : Fin 2) * 5000 ≤ (i 0).val ∧ (i 0).val < win0_3.index t (0 : Fin 2) * 5000 + 5000; omega
  | ⟨1, _⟩ => show win0_3.index t (1 : Fin 2) * 128 ≤ (i 1).val ∧ (i 1).val < win0_3.index t (1 : Fin 2) * 128 + 128; omega

/-- The array the launch leaves: the whole product of the features with the weights, the bias row added to every row. -/
theorem final (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) :
    (dat0 V c).arrAt 3 cfg0.N = addRow (Host.dotGeneral (φ₁ := .f32) (φ₂ := .f32) dW none (V c main_arg0) (V c main_arg3)) (V c main_v4) :=
  (dat0 V c).arrAt_eq_of_cover 3 _ (fun t _ => flushed_eq V dW hrW hsW hlcW hrcW hl0W hr1W c t) cover

end Cert.KernelIdeal.Region0

end
-- ==== Proof.Region1.lean ====
/-
  A dense layer on the sum of two feature matrices, one block of 5000 rows at a time.  Each grid point adds its 5000
  rows of the two summands, multiplies the sum with the whole weight matrix and adds the bias row; the ten blocks tile
  the 50000 rows, so the array written is the whole product of the sum with the weights, the bias row added to every row.
-/
import proofs.«151745_j68229850464792_1_alg».proof.Proof.Gen.KernelIdeal.Frame
import proofs.«151745_j68229850464792_1_alg».proof.Proof.Stages
import proofs.«151745_j68229850464792_1_alg».proof.Proof.LibMatRows
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region1

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The block product's record: the left operand's free axis is the result's first axis. -/
theorem dB_l0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's free axis is the result's second axis. -/
theorem dB_r1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One entry of a block's result: row `p` of both blocks is row `P` of the two whole summands. -/
theorem pay_entry (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (A B : FVec Ideal SN .f32) (x0 x1 : FVec Ideal S5000x128 .f32) (x2 : FVec Ideal S128x128 .f32) (x3 : FVec Ideal S1x128 .f32)
    (p : Fin 5000) (q : Fin 128) (P : Fin 50000)
    (hx0 : ∀ k : Fin 128, x0 (ix2 p k) = A (ix2 P k)) (hx1 : ∀ k : Fin 128, x1 (ix2 p k) = B (ix2 P k)) :
    k1_pay1 x0 x1 x2 x3 (ix2 p q) = addRow (Host.dotGeneral dW none (addf A B) x2) x3 (ix2 P q) := by
  unfold k1_pay1
  simp only [shapeCast_self]
  show _ + _ = Host.dotGeneral dW none (addf A B) x2 (ix2 P q) + x3 (ix2 (0 : Fin 1) q)
  refine congrArg₂ (· + ·) ?_ ?_
  · exact Cert.LibMatRows.block_entry dot_S5000x128_S128x128_S5000x128_1_0_0_1_n_n dW rfl rfl rfl rfl dB_l0 dB_r1
      hrW hsW hlcW hrcW hl0W hr1W (addf A B) x2 _ _ p q P
      (fun k => by
        show x0 (ix2 p k) + x1 (ix2 p k) = A (ix2 P k) + B (ix2 P k)
        rw [hx0 k, hx1 k]) (fun k => rfl)
  · exact broadcastTo_1b_ab_apply x3 broadcasts_S1x128_S5000x128 p q

/-- The printed index maps over the grid: the row blocks move with the grid point, the whole arrays stay. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- Row `p` of window 0's block at point `t` is row `5000 t + p` of its array. -/
theorem blk0 (c : Dev nD) (t : Fin cfg1.N) (p : Fin 5000) (k : Fin 128) (P : Fin 50000) (hP : P.val = 5000 * t.val + p.val) :
    iblk1 V c 0 t (ix2 p k) = V c main_v5 (ix2 P k) := by
  obtain ⟨e0, e1, e2, e3, e4, e5, e6, e7, e8, e9⟩ := idx_facts t
  show V c main_v5 (((cfg1.win 0).blk t).view.emb (ix2 p k)) = V c main_v5 (ix2 P k)
  refine congrArg _ (funext fun a => Fin.ext ?_)
  match a with
  | ⟨0, _⟩ => show win1_0.index t (0 : Fin 2) * 5000 + 1 * p.val = P.val; omega
  | ⟨1, _⟩ => show win1_0.index t (1 : Fin 2) * 128 + 1 * k.val = k.val; omega

/-- Row `p` of window 1's block at point `t` is row `5000 t + p` of its array. -/
theorem blk1 (c : Dev nD) (t : Fin cfg1.N) (p : Fin 5000) (k : Fin 128) (P : Fin 50000) (hP : P.val = 5000 * t.val + p.val) :
    iblk1 V c 1 t (ix2 p k) = V c main_v15 (ix2 P k) := by
  obtain ⟨e0, e1, e2, e3, e4, e5, e6, e7, e8, e9⟩ := idx_facts t
  show V c main_v15 (((cfg1.win 1).blk t).view.emb (ix2 p k)) = V c main_v15 (ix2 P k)
  refine congrArg _ (funext fun a => Fin.ext ?_)
  match a with
  | ⟨0, _⟩ => show win1_1.index t (0 : Fin 2) * 5000 + 1 * p.val = P.val; omega
  | ⟨1, _⟩ => show win1_1.index t (1 : Fin 2) * 128 + 1 * k.val = k.val; omega

/-- Window 2's block is its whole array (the weight matrix). -/
theorem blk2 (c : Dev nD) (t : Fin cfg1.N) : iblk1 V c 2 t = V c main_v17 := by
  obtain ⟨e0, e1, e2, e3, e4, e5, e6, e7, e8, e9⟩ := idx_facts t
  funext y
  show V c main_v17 (((cfg1.win 2).blk t).view.emb y) = V c main_v17 y
  refine congrArg _ (funext fun a => Fin.ext ?_)
  match a with
  | ⟨0, _⟩ => show win1_2.index t (0 : Fin 2) * 128 + 1 * (y 0).val = (y 0).val; omega
  | ⟨1, _⟩ => show win1_2.index t (1 : Fin 2) * 128 + 1 * (y 1).val = (y 1).val; omega

/-- Window 3's block is its whole array (one row). -/
theorem blk3 (c : Dev nD) (t : Fin cfg1.N) : iblk1 V c 3 t = V c main_v20 := by
  obtain ⟨e0, e1, e2, e3, e4, e5, e6, e7, e8, e9⟩ := idx_facts t
  funext y
  show V c main_v20 (((cfg1.win 3).blk t).view.emb y) = V c main_v20 y
  refine congrArg _ (funext fun a => Fin.ext ?_)
  match a with
  | ⟨0, _⟩ => show win1_3.index t (0 : Fin 2) * 1 + 1 * (y 0).val = (y 0).val; omega
  | ⟨1, _⟩ => show win1_3.index t (1 : Fin 2) * 128 + 1 * (y 1).val = (y 1).val; omega

/-- What point `t` writes back is block `t` of the whole result. -/
theorem flushed_eq (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) (t : Fin cfg1.N) :
    (dat1 V c).flushed 4 t = ((cfg1.win 4).blk t).view.read (Elt Ideal)
      (addRow (Host.dotGeneral (φ₁ := .f32) (φ₂ := .f32) dW none (addf (V c main_v5 : FVec Ideal SN .f32) (V c main_v15)) (V c main_v17)) (V c main_v20)) := by
  show (cfg1.win 4).cut (grid1.coords t) ((dat1 V c).after 4 t) = _
  rw [after1_4]
  unfold out1_4
  rw [View.canon_unit_zero hz]
  simp only [View.ld_unit_zero (S := S5000x128) hz, View.ld_unit_zero (S := S128x128) hz, View.ld_unit_zero (S := S1x128) hz]
  rw [blk2, blk3]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  have hP : 5000 * t.val + p.val < 50000 := by
    have := t.isLt; have hN : cfg1.N = 10 := N_1; have := p.isLt; omega
  have hemb : ((cfg1.win 4).blk t).view.emb (ix2 p q) = ix2 (⟨5000 * t.val + p.val, hP⟩ : Fin 50000) q := by
    funext a; apply Fin.ext
    match a with
    | ⟨0, _⟩ => show win1_4.index t (0 : Fin 2) * 5000 + 1 * p.val = 5000 * t.val + p.val; omega
    | ⟨1, _⟩ => show win1_4.index t (1 : Fin 2) * 128 + 1 * q.val = q.val; omega
  show k1_pay1 (iblk1 V c 0 t) (iblk1 V c 1 t) (V c main_v17) (V c main_v20) (ix2 p q) = (addRow (Host.dotGeneral (φ₁ := .f32) (φ₂ := .f32) dW none (addf (V c main_v5 : FVec Ideal SN .f32) (V c main_v15)) (V c main_v17)) (V c main_v20)) (((cfg1.win 4).blk t).view.emb (ix2 p q))
  rw [hemb]
  exact pay_entry dW hrW hsW hlcW hrcW hl0W hr1W (V c main_v5) (V c main_v15) (iblk1 V c 0 t) (iblk1 V c 1 t) (V c main_v17) (V c main_v20) p q _
    (fun k => blk0 V c t p k _ rfl) (fun k => blk1 V c t p k _ rfl)

/-- An index of the array is in point `t`'s block iff each coordinate is in the block's range on its axis. -/
theorem mem_blk (t : Fin cfg1.N) (i : S50000x128.Idx) :
    i ∈ ((cfg1.win 4).blk t).view.set ↔ ∀ a : Fin 2, win1_4.index t a * S5000x128.size a ≤ (i a).val ∧ (i a).val < win1_4.index t a * S5000x128.size a + S5000x128.size a := by
  show i ∈ ((View.whole main_v21).slice (win1_4.rect t)).set ↔ _
  rw [View.set_slice_whole, Rect.mem_set_unit]
  exact Iff.rfl

/-- Every row is in some point's block: row `r` in block `r / 5000`. -/
theorem cover (i : S50000x128.Idx) : ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 10 := N_1
  let t : Fin cfg1.N := ⟨(i 0).val / 5000, by rw [hN]; omega⟩
  obtain ⟨e0, e1, e2, e3, e4, e5, e6, e7, e8, e9⟩ := idx_facts t
  refine ⟨t, flush1_4 t, ?_⟩
  rw [mem_blk]
  intro a
  have ht : t.val = (i 0).val / 5000 := rfl
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 128 ≤ (i 1).val ∧ (i 1).val < win1_4.index t (1 : Fin 2) * 128 + 128; omega

/-- The array the launch leaves, as a function of the arrays it read. -/
theorem final (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) :
    (dat1 V c).arrAt 4 cfg1.N = addRow (Host.dotGeneral (φ₁ := .f32) (φ₂ := .f32) dW none (addf (V c main_v5 : FVec Ideal SN .f32) (V c main_v15)) (V c main_v17)) (V c main_v20) :=
  (dat1 V c).arrAt_eq_of_cover 4 _ (fun t _ => flushed_eq V dW hrW hsW hlcW hrcW hl0W hr1W c t) cover

end Cert.KernelIdeal.Region1

end
-- ==== Proof.RefStages.lean ====
/-
  The reference's stages as the stage functions of `Stages`: each dense layer is its matrix product with a bias row
  added to every row, each normalisation layer is `bnRelu` of the layer's input, its row of column means, its column
  variances laid as a row, its gains and its offsets.  Only pointwise and layout operations are read; the matrix
  products and the column sums stay closed.
-/
import proofs.«151745_j68229850464792_1_alg».proof.Proof.RefRead
import proofs.«151745_j68229850464792_1_alg».proof.Proof.Stages
import Idealize.ShloMosaic.Lib.ValueLayout

noncomputable section

namespace Cert.Gin.Ref

open Cert.ReferenceIdeal Cert.ReferenceIdeal.Gen Cert.ReferenceIdeal.Read Cert.Gin
open Idealize.ShloMosaic Idealize.ShloMosaic.ValueIdx

variable (x0 : (⟨S50000x128, .f32⟩ : BufTy).Contents (Elt Ideal)) (x1 : (⟨S2x640000, .i32⟩ : BufTy).Contents (Elt Ideal)) (x2 : (⟨S50000, .i32⟩ : BufTy).Contents (Elt Ideal))
  (x3 : (⟨S128x128, .f32⟩ : BufTy).Contents (Elt Ideal)) (x4 : (⟨S128, .f32⟩ : BufTy).Contents (Elt Ideal)) (x5 : (⟨S2x128x128, .f32⟩ : BufTy).Contents (Elt Ideal))
  (x6 x7 x8 : (⟨S2x128, .f32⟩ : BufTy).Contents (Elt Ideal)) (x9 : (⟨S2x128x128, .f32⟩ : BufTy).Contents (Elt Ideal)) (x10 x11 x12 : (⟨S2x128, .f32⟩ : BufTy).Contents (Elt Ideal))
  (x13 : (⟨S256x1, .f32⟩ : BufTy).Contents (Elt Ideal)) (x14 : (⟨S1, .f32⟩ : BufTy).Contents (Elt Ideal))

/-- Two index functions into a two-axis array agree when they agree on each of the two axes. -/
local macro "idx2" : tactic =>
  `(tactic| exact funext fun a => Fin.ext (by match a with | ⟨0, _⟩ => rfl | ⟨1, _⟩ => rfl))
/-- Two index functions into a one-axis array agree when they agree on its one axis. -/
local macro "idx1" : tactic =>
  `(tactic| exact funext fun a => Fin.ext (by match a with | ⟨0, _⟩ => rfl))

/-- The first dense layer: the product of the features with the input weights plus the bias row. -/
theorem ref_h0 :
    val_main_v7 (F := Ideal) x0 x3 x4 = addRow (val_main_v4 (F := Ideal) x0 x3) (val_main_v5 (F := Ideal) x4) := by
  funext i
  obtain ⟨p, q, rfl⟩ : ∃ (p : Fin 50000) (q : Fin 128), i = ix2 p q := ⟨i 0, i 1, eq_ix2 i⟩
  have hb : idx_main_v6 (ix2 p q) = ix2 (0 : Fin 1) q := by idx2
  rw [val_main_v7_apply, val_main_v6_apply, hb, addRow_ix2]
  rfl

/-- Layer 1, first dense layer of the perceptron. -/
theorem ref_z1 :
    val_main_v26 (F := Ideal) x0 x1 x3 x4 x5 x6 = addRow (val_main_v21 (F := Ideal) x0 x1 x3 x4 x5) (val_main_v24 (F := Ideal) x6) := by
  funext i
  obtain ⟨p, q, rfl⟩ : ∃ (p : Fin 50000) (q : Fin 128), i = ix2 p q := ⟨i 0, i 1, eq_ix2 i⟩
  have hb : idx_main_v25 (ix2 p q) = ix2 (0 : Fin 1) q := by idx2
  rw [val_main_v26_apply, val_main_v25_apply, hb, addRow_ix2]
  rfl

/-- Layer 1, inner normalisation and clip. -/
theorem ref_a1 :
    val_main_v56 (F := Ideal) x0 x1 x3 x4 x5 x6 x7 x8 = bnRelu (val_main_v26 (F := Ideal) x0 x1 x3 x4 x5 x6) (val_main_v34 (F := Ideal) x0 x1 x3 x4 x5 x6) (asRow (val_main_v40 (F := Ideal) x0 x1 x3 x4 x5 x6)) (val_main_v50 (F := Ideal) x7) (val_main_v53 (F := Ideal) x8) := by
  funext i
  obtain ⟨p, q, rfl⟩ : ∃ (p : Fin 50000) (q : Fin 128), i = ix2 p q := ⟨i 0, i 1, eq_ix2 i⟩
  have hbeta : idx_main_v54 (ix2 p q) = ix2 (0 : Fin 1) q := by idx2
  have hgain : idx_main_v51 (ix2 p q) = ix2 (0 : Fin 1) q := by idx2
  have hrs2 : idx_main_v48 (ix2 p q) = ix2 (0 : Fin 1) q := by idx2
  have hrs1 : idx_main_v47 (ix2 (0 : Fin 1) q) = ix1 q := by idx1
  have hmu2 : idx_main_v42 (ix2 p q) = ix2 (0 : Fin 1) q := by idx2
  have hmu1 : idx_main_v41 (ix2 (0 : Fin 1) q) = ix1 q := by idx1
  have hrow : idx_main_v34 (ix2 (0 : Fin 1) q) = ix1 q := by idx1
  rw [bnRelu_ix2, asRow_ix2, val_main_v34_apply, hrow,
    val_main_v56_apply, val_main_v55_apply, val_main_v54_apply, hbeta,
    val_main_v52_apply, val_main_v51_apply, hgain,
    val_main_v49_apply, val_main_v48_apply, hrs2, val_main_v47_apply, hrs1,
    val_main_v46_apply, val_main_v45_apply, val_main_v44_apply, val_main_cst_5_apply,
    val_main_v43_apply, val_main_v42_apply, hmu2, val_main_v41_apply, hmu1,
    val_main_call0_v0_apply, val_main_call0_cst_apply]
  rfl

/-- Layer 1, second dense layer. -/
theorem ref_z2 :
    val_main_v64 (F := Ideal) x0 x1 x3 x4 x5 x6 x7 x8 x9 x10 = addRow (val_main_v59 (F := Ideal) x0 x1 x3 x4 x5 x6 x7 x8 x9) (val_main_v62 (F := Ideal) x10) := by
  funext i
  obtain ⟨p, q, rfl⟩ : ∃ (p : Fin 50000) (q : Fin 128), i = ix2 p q := ⟨i 0, i 1, eq_ix2 i⟩
  have hb : idx_main_v63 (ix2 p q) = ix2 (0 : Fin 1) q := by idx2
  rw [val_main_v64_apply, val_main_v63_apply, hb, addRow_ix2]
  rfl

/-- Layer 1, outer normalisation and clip. -/
theorem ref_h1 :
    val_main_v94 (F := Ideal) x0 x1 x3 x4 x5 x6 x7 x8 x9 x10 x11 x12 = bnRelu (val_main_v64 (F := Ideal) x0 x1 x3 x4 x5 x6 x7 x8 x9 x10) (val_main_v72 (F := Ideal) x0 x1 x3 x4 x5 x6 x7 x8 x9 x10) (asRow (val_main_v78 (F := Ideal) x0 x1 x3 x4 x5 x6 x7 x8 x9 x10)) (val_main_v88 (F := Ideal) x11) (val_main_v91 (F := Ideal) x12) := by
  funext i
  obtain ⟨p, q, rfl⟩ : ∃ (p : Fin 50000) (q : Fin 128), i = ix2 p q := ⟨i 0, i 1, eq_ix2 i⟩
  have hbeta : idx_main_v92 (ix2 p q) = ix2 (0 : Fin 1) q := by idx2
  have hgain : idx_main_v89 (ix2 p q) = ix2 (0 : Fin 1) q := by idx2
  have hrs2 : idx_main_v86 (ix2 p q) = ix2 (0 : Fin 1) q := by idx2
  have hrs1 : idx_main_v85 (ix2 (0 : Fin 1) q) = ix1 q := by idx1
  have hmu2 : idx_main_v80 (ix2 p q) = ix2 (0 : Fin 1) q := by idx2
  have hmu1 : idx_main_v79 (ix2 (0 : Fin 1) q) = ix1 q := by idx1
  have hrow : idx_main_v72 (ix2 (0 : Fin 1) q) = ix1 q := by idx1
  rw [bnRelu_ix2, asRow_ix2, val_main_v72_apply, hrow,
    val_main_v94_apply, val_main_v93_apply, val_main_v92_apply, hbeta,
    val_main_v90_apply, val_main_v89_apply, hgain,
    val_main_v87_apply, val_main_v86_apply, hrs2, val_main_v85_apply, hrs1,
    val_main_v84_apply, val_main_v83_apply, val_main_v82_apply, val_main_cst_10_apply,
    val_main_v81_apply, val_main_v80_apply, hmu2, val_main_v79_apply, hmu1,
    val_main_call1_v0_apply, val_main_call1_cst_apply]
  rfl

/-- Layer 2, first dense layer. -/
theorem ref_z3 :
    val_main_v113 (F := Ideal) x0 x1 x3 x4 x5 x6 x7 x8 x9 x10 x11 x12 = addRow (val_main_v108 (F := Ideal) x0 x1 x3 x4 x5 x6 x7 x8 x9 x10 x11 x12) (val_main_v111 (F := Ideal) x6) := by
  funext i
  obtain ⟨p, q, rfl⟩ : ∃ (p : Fin 50000) (q : Fin 128), i = ix2 p q := ⟨i 0, i 1, eq_ix2 i⟩
  have hb : idx_main_v112 (ix2 p q) = ix2 (0 : Fin 1) q := by idx2
  rw [val_main_v113_apply, val_main_v112_apply, hb, addRow_ix2]
  rfl

/-- Layer 2, inner normalisation and clip. -/
theorem ref_a3 :
    val_main_v143 (F := Ideal) x0 x1 x3 x4 x5 x6 x7 x8 x9 x10 x11 x12 = bnRelu (val_main_v113 (F := Ideal) x0 x1 x3 x4 x5 x6 x7 x8 x9 x10 x11 x12) (val_main_v121 (F := Ideal) x0 x1 x3 x4 x5 x6 x7 x8 x9 x10 x11 x12) (asRow (val_main_v127 (F := Ideal) x0 x1 x3 x4 x5 x6 x7 x8 x9 x10 x11 x12)) (val_main_v137 (F := Ideal) x7) (val_main_v140 (F := Ideal) x8) := by
  funext i
  obtain ⟨p, q, rfl⟩ : ∃ (p : Fin 50000) (q : Fin 128), i = ix2 p q := ⟨i 0, i 1, eq_ix2 i⟩
  have hbeta : idx_main_v141 (ix2 p q) = ix2 (0 : Fin 1) q := by idx2
  have hgain : idx_main_v138 (ix2 p q) = ix2 (0 : Fin 1) q := by idx2
  have hrs2 : idx_main_v135 (ix2 p q) = ix2 (0 : Fin 1) q := by idx2
  have hrs1 : idx_main_v134 (ix2 (0 : Fin 1) q) = ix1 q := by idx1
  have hmu2 : idx_main_v129 (ix2 p q) = ix2 (0 : Fin 1) q := by idx2
  have hmu1 : idx_main_v128 (ix2 (0 : Fin 1) q) = ix1 q := by idx1
  have hrow : idx_main_v121 (ix2 (0 : Fin 1) q) = ix1 q := by idx1
  rw [bnRelu_ix2, asRow_ix2, val_main_v121_apply, hrow,
    val_main_v143_apply, val_main_v142_apply, val_main_v141_apply, hbeta,
    val_main_v139_apply, val_main_v138_apply, hgain,
    val_main_v136_apply, val_main_v135_apply, hrs2, val_main_v134_apply, hrs1,
    val_main_v133_apply, val_main_v132_apply, val_main_v131_apply, val_main_cst_18_apply,
    val_main_v130_apply, val_main_v129_apply, hmu2, val_main_v128_apply, hmu1,
    val_main_call2_v0_apply, val_main_call2_cst_apply]
  rfl

/-- Layer 2, second dense layer. -/
theorem ref_z4 :
    val_main_v151 (F := Ideal) x0 x1 x3 x4 x5 x6 x7 x8 x9 x10 x11 x12 = addRow (val_main_v146 (F := Ideal) x0 x1 x3 x4 x5 x6 x7 x8 x9 x10 x11 x12) (val_main_v149 (F := Ideal) x10) := by
  funext i
  obtain ⟨p, q, rfl⟩ : ∃ (p : Fin 50000) (q : Fin 128), i = ix2 p q := ⟨i 0, i 1, eq_ix2 i⟩
  have hb : idx_main_v150 (ix2 p q) = ix2 (0 : Fin 1) q := by idx2
  rw [val_main_v151_apply, val_main_v150_apply, hb, addRow_ix2]
  rfl

/-- Layer 2, outer normalisation and clip. -/
theorem ref_h2 :
    val_main_v181 (F := Ideal) x0 x1 x3 x4 x5 x6 x7 x8 x9 x10 x11 x12 = bnRelu (val_main_v151 (F := Ideal) x0 x1 x3 x4 x5 x6 x7 x8 x9 x10 x11 x12) (val_main_v159 (F := Ideal) x0 x1 x3 x4 x5 x6 x7 x8 x9 x10 x11 x12) (asRow (val_main_v165 (F := Ideal) x0 x1 x3 x4 x5 x6 x7 x8 x9 x10 x11 x12)) (val_main_v175 (F := Ideal) x11) (val_main_v178 (F := Ideal) x12) := by
  funext i
  obtain ⟨p, q, rfl⟩ : ∃ (p : Fin 50000) (q : Fin 128), i = ix2 p q := ⟨i 0, i 1, eq_ix2 i⟩
  have hbeta : idx_main_v179 (ix2 p q) = ix2 (0 : Fin 1) q := by idx2
  have hgain : idx_main_v176 (ix2 p q) = ix2 (0 : Fin 1) q := by idx2
  have hrs2 : idx_main_v173 (ix2 p q) = ix2 (0 : Fin 1) q := by idx2
  have hrs1 : idx_main_v172 (ix2 (0 : Fin 1) q) = ix1 q := by idx1
  have hmu2 : idx_main_v167 (ix2 p q) = ix2 (0 : Fin 1) q := by idx2
  have hmu1 : idx_main_v166 (ix2 (0 : Fin 1) q) = ix1 q := by idx1
  have hrow : idx_main_v159 (ix2 (0 : Fin 1) q) = ix1 q := by idx1
  rw [bnRelu_ix2, asRow_ix2, val_main_v159_apply, hrow,
    val_main_v181_apply, val_main_v180_apply, val_main_v179_apply, hbeta,
    val_main_v177_apply, val_main_v176_apply, hgain,
    val_main_v174_apply, val_main_v173_apply, hrs2, val_main_v172_apply, hrs1,
    val_main_v171_apply, val_main_v170_apply, val_main_v169_apply, val_main_cst_23_apply,
    val_main_v168_apply, val_main_v167_apply, hmu2, val_main_v166_apply, hmu1,
    val_main_call3_v0_apply, val_main_call3_cst_apply]
  rfl

/-- The read-out: the pooled features times the read-out weights plus the one bias. -/
theorem ref_out :
    val_main_v198 (F := Ideal) x0 x1 x2 x3 x4 x5 x6 x7 x8 x9 x10 x11 x12 x13 x14 = fun i => val_main_v195 (F := Ideal) x0 x1 x2 x3 x4 x5 x6 x7 x8 x9 x10 x11 x12 x13 i + val_main_v196 (F := Ideal) x14 (ix2 (0 : Fin 1) (0 : Fin 1)) := by
  funext i
  obtain ⟨p, u, rfl⟩ : ∃ (p : Fin 512) (u : Fin 1), i = ix2 p u := ⟨i 0, i 1, eq_ix2 i⟩
  have hb : idx_main_v197 (ix2 p u) = ix2 (0 : Fin 1) (0 : Fin 1) := by idx2
  rw [val_main_v198_apply, val_main_v197_apply, hb]
  rfl

end Cert.Gin.Ref

end
-- ==== Proof.Rows.lean ====
/-
  One-row layouts.  A vector of 128 entries laid out as a [1,128] row, by a reshape or by a broadcast along a new
  leading axis, is the same row; dividing a row by a constant is dividing the vector and then laying it out; a
  one-entry vector laid out as a [1,1] array is the same by either road.
-/
import proofs.«151745_j68229850464792_1_alg».proof.Proof.Stages

noncomputable section

namespace Cert.Gin

open Idealize.ShloMosaic Idealize.ShloMosaic.ValueIdx

/-- The empty shape of a scalar. -/
abbrev S0 : Shape := ⟨0, ![]⟩

/-- A vector reshaped to one row is the vector laid as a row. -/
theorem shapeCast_row (v : FVec Ideal SV .f32) (h : SV.ShapeCasts SR) : shapeCast SR v h = asRow v := by
  funext i
  obtain ⟨u, q, rfl⟩ : ∃ (u : Fin 1) (q : Fin 128), i = ix2 u q := ⟨i 0, i 1, eq_ix2 i⟩
  rw [asRow_ix2]
  exact shapeCast_a_1a_apply v h u q

/-- A vector broadcast along a new leading unit axis is the vector laid as a row. -/
theorem bcast_row (v : FVec Ideal SV .f32) (h : SV.BroadcastsInDim SR ![1]) : broadcastInDim SR ![1] h v = asRow v := by
  funext i
  obtain ⟨u, q, rfl⟩ : ∃ (u : Fin 1) (q : Fin 128), i = ix2 u q := ⟨i 0, i 1, eq_ix2 i⟩
  rw [asRow_ix2]
  exact broadcastInDim_apply _ h v (ix2 u q) (ix1 q) (fun a => match a with
    | ⟨0, _⟩ => by show q.val = if (128 : Nat) = 1 then 0 else q.val; rw [if_neg (by decide)])

/-- A row divided entry by entry by one constant is the vector divided by the constant, laid as a row. -/
theorem div_row (S : FVec Ideal SV .f32) (w : BitVec 32) (h2 : S0.BroadcastsInDim SR ![]) (h3 : S0.BroadcastsInDim SV ![]) :
    Host.divf (F := Ideal) (asRow S) (broadcastInDim SR ![] h2 (constant (F := Ideal) S0 .f32 w))
      = asRow (Host.divf (F := Ideal) S (broadcastInDim SV ![] h3 (constant (F := Ideal) S0 .f32 w))) := by
  funext i
  obtain ⟨u, q, rfl⟩ : ∃ (u : Fin 1) (q : Fin 128), i = ix2 u q := ⟨i 0, i 1, eq_ix2 i⟩
  rw [asRow_ix2]
  show FloatOps.hostDivf (asRow S (ix2 u q)) (broadcastInDim SR ![] h2 (constant (F := Ideal) S0 .f32 w) (ix2 u q))
    = FloatOps.hostDivf (S (ix1 q)) (broadcastInDim SV ![] h3 (constant (F := Ideal) S0 .f32 w) (ix1 q))
  rw [asRow_ix2, broadcastInDim_apply _ h2 (constant (F := Ideal) S0 .f32 w) (ix2 u q) ix0 (fun a => a.elim0),
    broadcastInDim_apply _ h3 (constant (F := Ideal) S0 .f32 w) (ix1 q) ix0 (fun a => a.elim0)]

/-- A row of column sums divided by the count is the row of the column means: the division and the layout commute. -/
theorem mean_row (S : FVec Ideal SV .f32) (w : BitVec 32) (h1 : SV.BroadcastsInDim SR ![1]) (h2 : S0.BroadcastsInDim SR ![])
    (h3 : S0.BroadcastsInDim SV ![]) :
    Host.divf (F := Ideal) (broadcastInDim SR ![1] h1 S) (broadcastInDim SR ![] h2 (constant (F := Ideal) S0 .f32 w))
      = broadcastInDim SR ![1] h1 (Host.divf (F := Ideal) S (broadcastInDim SV ![] h3 (constant (F := Ideal) S0 .f32 w))) := by
  rw [bcast_row, bcast_row, div_row S w h2 h3]

/-- A one-entry vector as a [1,1] array: the reshape and the broadcast along a new leading axis agree. -/
theorem one_by_one {α : Type} (v : (⟨1, ![1]⟩ : Shape).Idx → α) (h : (⟨1, ![1]⟩ : Shape).ShapeCasts ⟨2, ![1, 1]⟩)
    (h' : (⟨1, ![1]⟩ : Shape).BroadcastsInDim ⟨2, ![1, 1]⟩ ![1]) :
    shapeCast ⟨2, ![1, 1]⟩ v h = broadcastInDim ⟨2, ![1, 1]⟩ ![1] h' v := by
  funext i
  obtain ⟨u, q, rfl⟩ : ∃ (u : Fin 1) (q : Fin 1), i = ix2 u q := ⟨i 0, i 1, eq_ix2 i⟩
  rw [shapeCast_a_1a_apply v h u q]
  refine (broadcastInDim_apply _ h' v (ix2 u q) (ix1 q) (fun a => match a with
    | ⟨0, _⟩ => by show q.val = if (1 : Nat) = 1 then 0 else q.val; rw [if_pos rfl]; omega)).symm

end Cert.Gin

end
-- ==== Proof.KFold1.lean ====
/-
  The first layer's first half, boundary by boundary.  At each boundary between the program's segments the buffers that
  are still to be read hold the reference's named stages of the arguments: the edge endpoints, the first dense layer,
  the neighbourhood sums, the first perceptron layer.
-/
import proofs.«151745_j68229850464792_1_alg».proof.Proof.Gen.KernelIdeal.Frame
import proofs.«151745_j68229850464792_1_alg».proof.Proof.KFoldArgs
import proofs.«151745_j68229850464792_1_alg».proof.Proof.Region0
import proofs.«151745_j68229850464792_1_alg».proof.Proof.Region1
import proofs.«151745_j68229850464792_1_alg».proof.Proof.RefStages
import proofs.«151745_j68229850464792_1_alg».proof.Proof.Rows
set_option maxRecDepth 16384

noncomputable section

open Idealize.ShloMosaic Idealize.ShloMosaic.TcCoe Idealize.SL.Sem
open Idealize.ShloMosaic.Pipeline (Dat)

namespace Cert.KernelIdeal.GinFold

open Cert.KernelIdeal Cert.KernelIdeal.Gen

open Cert.Gin Cert.Gin.Ref
open Cert.ReferenceIdeal.Read (val_main_v1 val_main_v3 val_main_v4 val_main_v5 val_main_v7 val_main_v17 val_main_v18 val_main_v20 val_main_v21 val_main_v24 val_main_v26 lhs_main_v4_0 rhs_main_v4_1)

variable (m : (ℓ : Loc nD τ sig) → Buf (Elt Ideal) ℓ) (ρ : Dev nD → PrngReg) (c : Dev nD)

abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)
abbrev a6 := m ((c : Thread nD τ).loc main_arg6)
abbrev a7 := m ((c : Thread nD τ).loc main_arg7)
abbrev a8 := m ((c : Thread nD τ).loc main_arg8)
abbrev a9 := m ((c : Thread nD τ).loc main_arg9)
abbrev a10 := m ((c : Thread nD τ).loc main_arg10)
abbrev a11 := m ((c : Thread nD τ).loc main_arg11)
abbrev a12 := m ((c : Thread nD τ).loc main_arg12)
abbrev a13 := m ((c : Thread nD τ).loc main_arg13)
abbrev a14 := m ((c : Thread nD τ).loc main_arg14)

/-- The reference's record of a product of a [50000,128] matrix with a [128,128] matrix. -/
abbrev dW := Cert.ReferenceIdeal.dot_S50000x128_S128x128_S50000x128_1_0_0_1_n_n

/-! ## After the first host stretch: the edge endpoints and the bias row -/

theorem W1_v1 : W1 m ρ c (Proc.devRef .tc main_v1) = val_main_v1 (F := Ideal) (a1 m c) := by
  show StableHlo.after hostOps0 (W0 m ρ c) (Proc.devRef .tc main_v1) = _
  dsimp only [hostOps0]
  after_results
  rfl

theorem W1_v3 : W1 m ρ c (Proc.devRef .tc main_v3) = val_main_v3 (F := Ideal) (a1 m c) := by
  show StableHlo.after hostOps0 (W0 m ρ c) (Proc.devRef .tc main_v3) = _
  dsimp only [hostOps0]
  after_results
  rfl

theorem W1_v4 : W1 m ρ c (Proc.devRef .tc main_v4) = val_main_v5 (F := Ideal) (a4 m c) := by
  show StableHlo.after hostOps0 (W0 m ρ c) (Proc.devRef .tc main_v4) = _
  dsimp only [hostOps0]
  after_results
  exact (shapeCast_row (a4 m c) _).trans (bcast_row (a4 m c) _).symm

/-! ## After the first launch: the first dense layer -/

theorem W2_v1 : W2 m ρ c (Proc.devRef .tc main_v1) = val_main_v1 (F := Ideal) (a1 m c) :=
  (W2_of_ne m ρ c main_v1 (by decide)).trans (W1_v1 m ρ c)
theorem W2_v3 : W2 m ρ c (Proc.devRef .tc main_v3) = val_main_v3 (F := Ideal) (a1 m c) :=
  (W2_of_ne m ρ c main_v3 (by decide)).trans (W1_v3 m ρ c)

theorem W2_v5 : W2 m ρ c (Proc.devRef .tc main_v5) = val_main_v7 (F := Ideal) (a0 m c) (a3 m c) (a4 m c) := by
  refine (W2_arr m ρ c 3).trans ?_
  refine (Region0.final (V1 m ρ) dW rfl rfl rfl rfl lhs_main_v4_0 rhs_main_v4_1 c).trans ?_
  show addRow (Host.dotGeneral (φ₁ := .f32) (φ₂ := .f32) dW none (W1 m ρ c (Proc.devRef .tc main_arg0)) (W1 m ρ c (Proc.devRef .tc main_arg3)))
    (W1 m ρ c (Proc.devRef .tc main_v4)) = _
  rw [W1_arg m ρ c main_arg0 (by simp [argRefs]), W1_arg m ρ c main_arg3 (by simp [argRefs]), W1_v4 m ρ c]
  exact (ref_h0 (a0 m c) (a3 m c) (a4 m c)).symm

/-! ## After the second host stretch: the neighbourhood sums, the first perceptron layer's weights and bias row -/

theorem W3_v5 : W3 m ρ c (Proc.devRef .tc main_v5) = val_main_v7 (F := Ideal) (a0 m c) (a3 m c) (a4 m c) :=
  (StableHlo.after_of_forall_not_mem (b := Proc.devRef .tc main_v5) _ _ (by not_written hostOps1)).trans (W2_v5 m ρ c)
theorem W3_v1 : W3 m ρ c (Proc.devRef .tc main_v1) = val_main_v1 (F := Ideal) (a1 m c) :=
  (StableHlo.after_of_forall_not_mem (b := Proc.devRef .tc main_v1) _ _ (by not_written hostOps1)).trans (W2_v1 m ρ c)
theorem W3_v3 : W3 m ρ c (Proc.devRef .tc main_v3) = val_main_v3 (F := Ideal) (a1 m c) :=
  (StableHlo.after_of_forall_not_mem (b := Proc.devRef .tc main_v3) _ _ (by not_written hostOps1)).trans (W2_v3 m ρ c)

theorem W3_v15 : W3 m ρ c (Proc.devRef .tc main_v15) = val_main_v17 (F := Ideal) (a0 m c) (a1 m c) (a3 m c) (a4 m c) := by
  show StableHlo.after hostOps1 (W2 m ρ c) (Proc.devRef .tc main_v15) = _
  dsimp only [hostOps1]
  after_results
  rw [W2_v1 m ρ c, W2_v3 m ρ c, W2_v5 m ρ c]
  rfl

theorem W3_v17 : W3 m ρ c (Proc.devRef .tc main_v17) = val_main_v20 (F := Ideal) (a5 m c) := by
  show StableHlo.after hostOps1 (W2 m ρ c) (Proc.devRef .tc main_v17) = _
  dsimp only [hostOps1]
  after_results
  rw [W2_arg m ρ c main_arg5 (by simp [argRefs])]
  rfl

theorem W3_v20 : W3 m ρ c (Proc.devRef .tc main_v20) = val_main_v24 (F := Ideal) (a6 m c) := by
  show StableHlo.after hostOps1 (W2 m ρ c) (Proc.devRef .tc main_v20) = _
  dsimp only [hostOps1]
  after_results
  rw [W2_arg m ρ c main_arg6 (by simp [argRefs])]
  exact (shapeCast_row _ _).trans (bcast_row _ _).symm

/-! ## After the second launch: the first perceptron layer -/

theorem W4_v21 : W4 m ρ c (Proc.devRef .tc main_v21) = val_main_v26 (F := Ideal) (a0 m c) (a1 m c) (a3 m c) (a4 m c) (a5 m c) (a6 m c) := by
  refine (W4_arr m ρ c 4).trans ?_
  refine (Region1.final (V3 m ρ) dW rfl rfl rfl rfl lhs_main_v4_0 rhs_main_v4_1 c).trans ?_
  show addRow (Host.dotGeneral (φ₁ := .f32) (φ₂ := .f32) dW none
      (addf (W3 m ρ c (Proc.devRef .tc main_v5) : FVec Ideal SN .f32) (W3 m ρ c (Proc.devRef .tc main_v15)))
      (W3 m ρ c (Proc.devRef .tc main_v17))) (W3 m ρ c (Proc.devRef .tc main_v20)) = _
  rw [W3_v5 m ρ c, W3_v15 m ρ c, W3_v17 m ρ c, W3_v20 m ρ c]
  exact (ref_z1 (a0 m c) (a1 m c) (a3 m c) (a4 m c) (a5 m c) (a6 m c)).symm

end Cert.KernelIdeal.GinFold

end
-- ==== Proof.Region2.lean ====
/-
  A normalisation layer followed by a dense layer, one block of 5000 rows at a time.  Each grid point normalises its
  5000 rows (subtract the row of column means, scale by the reciprocal square root of the row of column variances plus
  the small constant and by the row of gains, add the row of offsets, clip at zero), multiplies the result with the
  whole weight matrix and adds the bias row; the ten blocks tile the 50000 rows, so the array written is the whole
  product of the normalised matrix with the weights, the bias row added to every row.
-/
import proofs.«151745_j68229850464792_1_alg».proof.Proof.Gen.KernelIdeal.Frame
import proofs.«151745_j68229850464792_1_alg».proof.Proof.Stages
import proofs.«151745_j68229850464792_1_alg».proof.Proof.LibMatRows
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region2

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The block product's record: the left operand's free axis is the result's first axis. -/
theorem dB_l0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's free axis is the result's second axis. -/
theorem dB_r1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The normalised, clipped activation of a block, one entry: the block's entry `(p, k)` is the whole array's entry
    `(P, k)`, and every row array is read at column `k`. -/
theorem act_entry (Z : FVec Ideal SN .f32) (x0 : FVec Ideal S5000x128 .f32) (mu var g beta : FVec Ideal S1x128 .f32)
    (p : Fin 5000) (k : Fin 128) (P : Fin 50000) (hx : x0 (ix2 p k) = Z (ix2 P k)) :
    (maximumf (addf (mulf (mulf (subf x0 (broadcastTo S5000x128 mu broadcasts_S1x128_S5000x128))
        (broadcastTo S5000x128 (rsqrt (addf var (broadcast S1x128 (Scalar.ofBits .f32 0x3727C5AC#32)))) broadcasts_S1x128_S5000x128))
        (broadcastTo S5000x128 g broadcasts_S1x128_S5000x128)) (broadcastTo S5000x128 beta broadcasts_S1x128_S5000x128))
        (broadcast S5000x128 (Scalar.ofBits .f32 0x00000000#32)) : FVec Ideal S5000x128 .f32) (ix2 p k)
      = bnRelu Z mu var g beta (ix2 P k) := by
  rw [bnRelu_ix2]
  show max ((x0 (ix2 p k) - broadcastTo S5000x128 mu broadcasts_S1x128_S5000x128 (ix2 p k))
        * broadcastTo S5000x128 (rsqrt (addf var (broadcast S1x128 (Scalar.ofBits .f32 0x3727C5AC#32)))) broadcasts_S1x128_S5000x128 (ix2 p k)
        * broadcastTo S5000x128 g broadcasts_S1x128_S5000x128 (ix2 p k)
        + broadcastTo S5000x128 beta broadcasts_S1x128_S5000x128 (ix2 p k)) (Scalar.ofBits .f32 0x00000000#32) = _
  rw [broadcastTo_1b_ab_apply mu, broadcastTo_1b_ab_apply g, broadcastTo_1b_ab_apply beta,
    broadcastTo_1b_ab_apply (rsqrt (addf var (broadcast S1x128 (Scalar.ofBits .f32 0x3727C5AC#32)))), hx]
  rfl

/-- One entry of a block's result: row `p` of the block is row `P` of the whole array; the activation of the block's
    row is the activation of the whole array's row, so the block's product is the whole product's row `P`. -/
theorem pay_entry (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (Z : FVec Ideal SN .f32) (x0 : FVec Ideal S5000x128 .f32) (mu var g beta : FVec Ideal S1x128 .f32)
    (x5 : FVec Ideal S128x128 .f32) (x6 : FVec Ideal S1x128 .f32)
    (p : Fin 5000) (q : Fin 128) (P : Fin 50000) (hx : ∀ k : Fin 128, x0 (ix2 p k) = Z (ix2 P k)) :
    k2_pay1 x0 mu var g beta x5 x6 (ix2 p q) = addRow (Host.dotGeneral dW none (bnRelu Z mu var g beta) x5) x6 (ix2 P q) := by
  unfold k2_pay1
  simp only [shapeCast_self]
  show _ + _ = Host.dotGeneral dW none (bnRelu Z mu var g beta) x5 (ix2 P q) + x6 (ix2 (0 : Fin 1) q)
  refine congrArg₂ (· + ·) ?_ ?_
  · exact Cert.LibMatRows.block_entry dot_S5000x128_S128x128_S5000x128_1_0_0_1_n_n dW rfl rfl rfl rfl dB_l0 dB_r1
      hrW hsW hlcW hrcW hl0W hr1W (bnRelu Z mu var g beta) x5 _ _ p q P
      (fun k => act_entry Z x0 mu var g beta p k P (hx k)) (fun k => rfl)
  · exact broadcastTo_1b_ab_apply x6 broadcasts_S1x128_S5000x128 p q

/-- The printed index maps over the grid: the row blocks move with the grid point, the whole arrays stay. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = t.val ∧ win2_7.index t (1 : Fin 2) = 0 :=
  (by decide +kernel : ∀ t : Fin grid2.N, _)

/-- Row `p` of window 0's block at point `t` is row `5000 t + p` of its array. -/
theorem blk0 (c : Dev nD) (t : Fin cfg2.N) (p : Fin 5000) (k : Fin 128) (P : Fin 50000) (hP : P.val = 5000 * t.val + p.val) :
    iblk2 V c 0 t (ix2 p k) = V c main_v21 (ix2 P k) := by
  obtain ⟨e0, e1, e2, e3, e4, e5, e6, e7, e8, e9, e10, e11, e12, e13, e14, e15⟩ := idx_facts t
  show V c main_v21 (((cfg2.win 0).blk t).view.emb (ix2 p k)) = V c main_v21 (ix2 P k)
  refine congrArg _ (funext fun a => Fin.ext ?_)
  match a with
  | ⟨0, _⟩ => show win2_0.index t (0 : Fin 2) * 5000 + 1 * p.val = P.val; omega
  | ⟨1, _⟩ => show win2_0.index t (1 : Fin 2) * 128 + 1 * k.val = k.val; omega

/-- Window 1's block is its whole array (one row). -/
theorem blk1 (c : Dev nD) (t : Fin cfg2.N) : iblk2 V c 1 t = V c main_v25 := by
  obtain ⟨e0, e1, e2, e3, e4, e5, e6, e7, e8, e9, e10, e11, e12, e13, e14, e15⟩ := idx_facts t
  funext y
  show V c main_v25 (((cfg2.win 1).blk t).view.emb y) = V c main_v25 y
  refine congrArg _ (funext fun a => Fin.ext ?_)
  match a with
  | ⟨0, _⟩ => show win2_1.index t (0 : Fin 2) * 1 + 1 * (y 0).val = (y 0).val; omega
  | ⟨1, _⟩ => show win2_1.index t (1 : Fin 2) * 128 + 1 * (y 1).val = (y 1).val; omega

/-- Window 2's block is its whole array (one row). -/
theorem blk2 (c : Dev nD) (t : Fin cfg2.N) : iblk2 V c 2 t = V c main_v32 := by
  obtain ⟨e0, e1, e2, e3, e4, e5, e6, e7, e8, e9, e10, e11, e12, e13, e14, e15⟩ := idx_facts t
  funext y
  show V c main_v32 (((cfg2.win 2).blk t).view.emb y) = V c main_v32 y
  refine congrArg _ (funext fun a => Fin.ext ?_)
  match a with
  | ⟨0, _⟩ => show win2_2.index t (0 : Fin 2) * 1 + 1 * (y 0).val = (y 0).val; omega
  | ⟨1, _⟩ => show win2_2.index t (1 : Fin 2) * 128 + 1 * (y 1).val = (y 1).val; omega

/-- Window 3's block is its whole array (one row). -/
theorem blk3 (c : Dev nD) (t : Fin cfg2.N) : iblk2 V c 3 t = V c main_v35 := by
  obtain ⟨e0, e1, e2, e3, e4, e5, e6, e7, e8, e9, e10, e11, e12, e13, e14, e15⟩ := idx_facts t
  funext y
  show V c main_v35 (((cfg2.win 3).blk t).view.emb y) = V c main_v35 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 128 + 1 * (y 1).val = (y 1).val; omega

/-- Window 4's block is its whole array (one row). -/
theorem blk4 (c : Dev nD) (t : Fin cfg2.N) : iblk2 V c 4 t = V c main_v38 := by
  obtain ⟨e0, e1, e2, e3, e4, e5, e6, e7, e8, e9, e10, e11, e12, e13, e14, e15⟩ := idx_facts t
  funext y
  show V c main_v38 (((cfg2.win 4).blk t).view.emb y) = V c main_v38 y
  refine congrArg _ (funext fun a => Fin.ext ?_)
  match a with
  | ⟨0, _⟩ => show win2_4.index t (0 : Fin 2) * 1 + 1 * (y 0).val = (y 0).val; omega
  | ⟨1, _⟩ => show win2_4.index t (1 : Fin 2) * 128 + 1 * (y 1).val = (y 1).val; omega

/-- Window 5's block is its whole array (the weight matrix). -/
theorem blk5 (c : Dev nD) (t : Fin cfg2.N) : iblk2 V c 5 t = V c main_v40 := by
  obtain ⟨e0, e1, e2, e3, e4, e5, e6, e7, e8, e9, e10, e11, e12, e13, e14, e15⟩ := idx_facts t
  funext y
  show V c main_v40 (((cfg2.win 5).blk t).view.emb y) = V c main_v40 y
  refine congrArg _ (funext fun a => Fin.ext ?_)
  match a with
  | ⟨0, _⟩ => show win2_5.index t (0 : Fin 2) * 128 + 1 * (y 0).val = (y 0).val; omega
  | ⟨1, _⟩ => show win2_5.index t (1 : Fin 2) * 128 + 1 * (y 1).val = (y 1).val; omega

/-- Window 6's block is its whole array (one row). -/
theorem blk6 (c : Dev nD) (t : Fin cfg2.N) : iblk2 V c 6 t = V c main_v43 := by
  obtain ⟨e0, e1, e2, e3, e4, e5, e6, e7, e8, e9, e10, e11, e12, e13, e14, e15⟩ := idx_facts t
  funext y
  show V c main_v43 (((cfg2.win 6).blk t).view.emb y) = V c main_v43 y
  refine congrArg _ (funext fun a => Fin.ext ?_)
  match a with
  | ⟨0, _⟩ => show win2_6.index t (0 : Fin 2) * 1 + 1 * (y 0).val = (y 0).val; omega
  | ⟨1, _⟩ => show win2_6.index t (1 : Fin 2) * 128 + 1 * (y 1).val = (y 1).val; omega

/-- What point `t` writes back is block `t` of the whole result. -/
theorem flushed_eq (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) (t : Fin cfg2.N) :
    (dat2 V c).flushed 7 t = ((cfg2.win 7).blk t).view.read (Elt Ideal)
      (addRow (Host.dotGeneral (φ₁ := .f32) (φ₂ := .f32) dW none (bnRelu (V c main_v21) (V c main_v25) (V c main_v32) (V c main_v35) (V c main_v38)) (V c main_v40)) (V c main_v43)) := by
  show (cfg2.win 7).cut (grid2.coords t) ((dat2 V c).after 7 t) = _
  rw [after2_7]
  unfold out2_7
  rw [View.canon_unit_zero hz]
  simp only [View.ld_unit_zero (S := S5000x128) hz, View.ld_unit_zero (S := S1x128) hz, View.ld_unit_zero (S := S128x128) hz]
  rw [blk1, blk2, blk3, blk4, blk5, blk6]
  obtain ⟨e0, e1, e2, e3, e4, e5, e6, e7, e8, e9, e10, e11, e12, e13, e14, e15⟩ := idx_facts t
  funext j
  obtain ⟨p, q, rfl⟩ : ∃ (p : Fin 5000) (q : Fin 128), j = ix2 p q := ⟨j 0, j 1, eq_ix2 j⟩
  have hP : 5000 * t.val + p.val < 50000 := by
    have := t.isLt; have hN : cfg2.N = 10 := N_2; have := p.isLt; omega
  have hemb : ((cfg2.win 7).blk t).view.emb (ix2 p q) = ix2 (⟨5000 * t.val + p.val, hP⟩ : Fin 50000) q := by
    funext a; apply Fin.ext
    match a with
    | ⟨0, _⟩ => show win2_7.index t (0 : Fin 2) * 5000 + 1 * p.val = 5000 * t.val + p.val; omega
    | ⟨1, _⟩ => show win2_7.index t (1 : Fin 2) * 128 + 1 * q.val = q.val; omega
  show k2_pay1 (iblk2 V c 0 t) (V c main_v25) (V c main_v32) (V c main_v35) (V c main_v38) (V c main_v40) (V c main_v43) (ix2 p q) = (addRow (Host.dotGeneral (φ₁ := .f32) (φ₂ := .f32) dW none (bnRelu (V c main_v21) (V c main_v25) (V c main_v32) (V c main_v35) (V c main_v38)) (V c main_v40)) (V c main_v43)) (((cfg2.win 7).blk t).view.emb (ix2 p q))
  rw [hemb]
  exact pay_entry dW hrW hsW hlcW hrcW hl0W hr1W (V c main_v21) (iblk2 V c 0 t) (V c main_v25) (V c main_v32) (V c main_v35) (V c main_v38) (V c main_v40) (V c main_v43) p q _
    (fun k => blk0 V c t p k _ rfl)

/-- An index of the array is in point `t`'s block iff each coordinate is in the block's range on its axis. -/
theorem mem_blk (t : Fin cfg2.N) (i : S50000x128.Idx) :
    i ∈ ((cfg2.win 7).blk t).view.set ↔ ∀ a : Fin 2, win2_7.index t a * S5000x128.size a ≤ (i a).val ∧ (i a).val < win2_7.index t a * S5000x128.size a + S5000x128.size a := by
  show i ∈ ((View.whole main_v44).slice (win2_7.rect t)).set ↔ _
  rw [View.set_slice_whole, Rect.mem_set_unit]
  exact Iff.rfl

/-- Every row is in some point's block: row `r` in block `r / 5000`. -/
theorem cover (i : S50000x128.Idx) : ∃ t : Fin cfg2.N, (cfg2.win 7).flush t = true ∧ i ∈ ((cfg2.win 7).blk t).view.set := by
  have hi0 : (i 0).val < 50000 := (i 0).isLt
  have hi1 : (i 1).val < 128 := (i 1).isLt
  have hN : cfg2.N = 10 := N_2
  let t : Fin cfg2.N := ⟨(i 0).val / 5000, by rw [hN]; omega⟩
  obtain ⟨e0, e1, e2, e3, e4, e5, e6, e7, e8, e9, e10, e11, e12, e13, e14, e15⟩ := idx_facts t
  refine ⟨t, flush2_7 t, ?_⟩
  rw [mem_blk]
  intro a
  have ht : t.val = (i 0).val / 5000 := rfl
  match a with
  | ⟨0, _⟩ => show win2_7.index t (0 : Fin 2) * 5000 ≤ (i 0).val ∧ (i 0).val < win2_7.index t (0 : Fin 2) * 5000 + 5000; omega
  | ⟨1, _⟩ => show win2_7.index t (1 : Fin 2) * 128 ≤ (i 1).val ∧ (i 1).val < win2_7.index t (1 : Fin 2) * 128 + 128; omega

/-- The array the launch leaves, as a function of the arrays it read. -/
theorem final (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) :
    (dat2 V c).arrAt 7 cfg2.N = addRow (Host.dotGeneral (φ₁ := .f32) (φ₂ := .f32) dW none (bnRelu (V c main_v21) (V c main_v25) (V c main_v32) (V c main_v35) (V c main_v38)) (V c main_v40)) (V c main_v43) :=
  (dat2 V c).arrAt_eq_of_cover 7 _ (fun t _ => flushed_eq V dW hrW hsW hlcW hrcW hl0W hr1W c t) cover

end Cert.KernelIdeal.Region2

end
-- ==== Proof.Region3.lean ====
/-
  A normalisation layer, one block of 5000 rows at a time.  Each grid point subtracts the row of column means from its
  5000 rows, scales by the reciprocal square root of the row of column variances (plus the small constant) and by the
  row of gains, adds the row of offsets and clips at zero; the ten blocks tile the 50000 rows, so the array written is
  the whole matrix normalised and clipped entry by entry.
-/
import proofs.«151745_j68229850464792_1_alg».proof.Proof.Gen.KernelIdeal.Frame
import proofs.«151745_j68229850464792_1_alg».proof.Proof.Stages
import proofs.«151745_j68229850464792_1_alg».proof.Proof.LibMatRows
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region3

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- One entry of a block's result: the block's entry `(p, q)` is the whole array's entry `(P, q)`, and every row
    array is read at column `q`. -/
theorem pay_entry (Z : FVec Ideal SN .f32) (x0 : FVec Ideal S5000x128 .f32) (mu var g beta : FVec Ideal S1x128 .f32)
    (p : Fin 5000) (q : Fin 128) (P : Fin 50000) (hx : x0 (ix2 p q) = Z (ix2 P q)) :
    k3_pay1 x0 mu var g beta (ix2 p q) = bnRelu Z mu var g beta (ix2 P q) := by
  unfold k3_pay1
  simp only [shapeCast_self]
  rw [bnRelu_ix2]
  show max ((x0 (ix2 p q) - broadcastTo S5000x128 mu broadcasts_S1x128_S5000x128 (ix2 p q))
        * broadcastTo S5000x128 (rsqrt (addf var (broadcast S1x128 (Scalar.ofBits .f32 0x3727C5AC#32)))) broadcasts_S1x128_S5000x128 (ix2 p q)
        * broadcastTo S5000x128 g broadcasts_S1x128_S5000x128 (ix2 p q)
        + broadcastTo S5000x128 beta broadcasts_S1x128_S5000x128 (ix2 p q)) (Scalar.ofBits .f32 0x00000000#32) = _
  rw [broadcastTo_1b_ab_apply mu, broadcastTo_1b_ab_apply g, broadcastTo_1b_ab_apply beta,
    broadcastTo_1b_ab_apply (rsqrt (addf var (broadcast S1x128 (Scalar.ofBits .f32 0x3727C5AC#32)))), hx]
  rfl

/-- The printed index maps over the grid: the row blocks move with the grid point, the whole arrays stay. -/
theorem idx_facts : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

/-- Row `p` of window 0's block at point `t` is row `5000 t + p` of its array. -/
theorem blk0 (c : Dev nD) (t : Fin cfg3.N) (p : Fin 5000) (k : Fin 128) (P : Fin 50000) (hP : P.val = 5000 * t.val + p.val) :
    iblk3 V c 0 t (ix2 p k) = V c main_v44 (ix2 P k) := by
  obtain ⟨e0, e1, e2, e3, e4, e5, e6, e7, e8, e9, e10, e11⟩ := idx_facts t
  show V c main_v44 (((cfg3.win 0).blk t).view.emb (ix2 p k)) = V c main_v44 (ix2 P k)
  refine congrArg _ (funext fun a => Fin.ext ?_)
  match a with
  | ⟨0, _⟩ => show win3_0.index t (0 : Fin 2) * 5000 + 1 * p.val = P.val; omega
  | ⟨1, _⟩ => show win3_0.index t (1 : Fin 2) * 128 + 1 * k.val = k.val; omega

/-- Window 1's block is its whole array (one row). -/
theorem blk1 (c : Dev nD) (t : Fin cfg3.N) : iblk3 V c 1 t = V c main_v48 := by
  obtain ⟨e0, e1, e2, e3, e4, e5, e6, e7, e8, e9, e10, e11⟩ := idx_facts t
  funext y
  show V c main_v48 (((cfg3.win 1).blk t).view.emb y) = V c main_v48 y
  refine congrArg _ (funext fun a => Fin.ext ?_)
  match a with
  | ⟨0, _⟩ => show win3_1.index t (0 : Fin 2) * 1 + 1 * (y 0).val = (y 0).val; omega
  | ⟨1, _⟩ => show win3_1.index t (1 : Fin 2) * 128 + 1 * (y 1).val = (y 1).val; omega

/-- Window 2's block is its whole array (one row). -/
theorem blk2 (c : Dev nD) (t : Fin cfg3.N) : iblk3 V c 2 t = V c main_v55 := by
  obtain ⟨e0, e1, e2, e3, e4, e5, e6, e7, e8, e9, e10, e11⟩ := idx_facts t
  funext y
  show V c main_v55 (((cfg3.win 2).blk t).view.emb y) = V c main_v55 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 128 + 1 * (y 1).val = (y 1).val; omega

/-- Window 3's block is its whole array (one row). -/
theorem blk3 (c : Dev nD) (t : Fin cfg3.N) : iblk3 V c 3 t = V c main_v58 := by
  obtain ⟨e0, e1, e2, e3, e4, e5, e6, e7, e8, e9, e10, e11⟩ := idx_facts t
  funext y
  show V c main_v58 (((cfg3.win 3).blk t).view.emb y) = V c main_v58 y
  refine congrArg _ (funext fun a => Fin.ext ?_)
  match a with
  | ⟨0, _⟩ => show win3_3.index t (0 : Fin 2) * 1 + 1 * (y 0).val = (y 0).val; omega
  | ⟨1, _⟩ => show win3_3.index t (1 : Fin 2) * 128 + 1 * (y 1).val = (y 1).val; omega

/-- Window 4's block is its whole array (one row). -/
theorem blk4 (c : Dev nD) (t : Fin cfg3.N) : iblk3 V c 4 t = V c main_v61 := by
  obtain ⟨e0, e1, e2, e3, e4, e5, e6, e7, e8, e9, e10, e11⟩ := idx_facts t
  funext y
  show V c main_v61 (((cfg3.win 4).blk t).view.emb y) = V c main_v61 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 128 + 1 * (y 1).val = (y 1).val; omega

/-- What point `t` writes back is block `t` of the whole result. -/
theorem flushed_eq (c : Dev nD) (t : Fin cfg3.N) :
    (dat3 V c).flushed 5 t = ((cfg3.win 5).blk t).view.read (Elt Ideal)
      (bnRelu (V c main_v44) (V c main_v48) (V c main_v55) (V c main_v58) (V c main_v61)) := by
  show (cfg3.win 5).cut (grid3.coords t) ((dat3 V c).after 5 t) = _
  rw [after3_5]
  unfold out3_5
  rw [View.canon_unit_zero hz]
  simp only [View.ld_unit_zero (S := S5000x128) hz, View.ld_unit_zero (S := S1x128) hz]
  rw [blk1, blk2, blk3, blk4]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  have hP : 5000 * t.val + p.val < 50000 := by
    have := t.isLt; have hN : cfg3.N = 10 := N_3; have := p.isLt; omega
  have hemb : ((cfg3.win 5).blk t).view.emb (ix2 p q) = ix2 (⟨5000 * t.val + p.val, hP⟩ : Fin 50000) q := by
    funext a; apply Fin.ext
    match a with
    | ⟨0, _⟩ => show win3_5.index t (0 : Fin 2) * 5000 + 1 * p.val = 5000 * t.val + p.val; omega
    | ⟨1, _⟩ => show win3_5.index t (1 : Fin 2) * 128 + 1 * q.val = q.val; omega
  show k3_pay1 (iblk3 V c 0 t) (V c main_v48) (V c main_v55) (V c main_v58) (V c main_v61) (ix2 p q) = (bnRelu (V c main_v44) (V c main_v48) (V c main_v55) (V c main_v58) (V c main_v61)) (((cfg3.win 5).blk t).view.emb (ix2 p q))
  rw [hemb]
  exact pay_entry (V c main_v44) (iblk3 V c 0 t) (V c main_v48) (V c main_v55) (V c main_v58) (V c main_v61) p q _ (blk0 V c t p q _ rfl)

/-- An index of the array is in point `t`'s block iff each coordinate is in the block's range on its axis. -/
theorem mem_blk (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v62).slice (win3_5.rect t)).set ↔ _
  rw [View.set_slice_whole, Rect.mem_set_unit]
  exact Iff.rfl

/-- Every row is in some point's block: row `r` in block `r / 5000`. -/
theorem cover (i : S50000x128.Idx) : ∃ t : Fin cfg3.N, (cfg3.win 5).flush t = true ∧ i ∈ ((cfg3.win 5).blk t).view.set := by
  have hi0 : (i 0).val < 50000 := (i 0).isLt
  have hi1 : (i 1).val < 128 := (i 1).isLt
  have hN : cfg3.N = 10 := N_3
  let t : Fin cfg3.N := ⟨(i 0).val / 5000, by rw [hN]; omega⟩
  obtain ⟨e0, e1, e2, e3, e4, e5, e6, e7, e8, e9, e10, e11⟩ := idx_facts t
  refine ⟨t, flush3_5 t, ?_⟩
  rw [mem_blk]
  intro a
  have ht : t.val = (i 0).val / 5000 := rfl
  match a with
  | ⟨0, _⟩ => show win3_5.index t (0 : Fin 2) * 5000 ≤ (i 0).val ∧ (i 0).val < win3_5.index t (0 : Fin 2) * 5000 + 5000; omega
  | ⟨1, _⟩ => show win3_5.index t (1 : Fin 2) * 128 ≤ (i 1).val ∧ (i 1).val < win3_5.index t (1 : Fin 2) * 128 + 128; omega

/-- The array the launch leaves, as a function of the arrays it read. -/
theorem final (c : Dev nD) :
    (dat3 V c).arrAt 5 cfg3.N = bnRelu (V c main_v44) (V c main_v48) (V c main_v55) (V c main_v58) (V c main_v61) :=
  (dat3 V c).arrAt_eq_of_cover 5 _ (fun t _ => flushed_eq V c t) cover

end Cert.KernelIdeal.Region3

end
-- ==== Proof.KFold2.lean ====
/-
  The first layer's second half, boundary by boundary: the inner normalisation's rows of column means and variances,
  the second perceptron layer, the outer normalisation's rows, the layer's output — each the reference's named stage of
  the arguments.  The edge endpoints ride along unchanged for the second layer.
-/
import proofs.«151745_j68229850464792_1_alg».proof.Proof.Gen.KernelIdeal.Frame
import proofs.«151745_j68229850464792_1_alg».proof.Proof.KFold1
import proofs.«151745_j68229850464792_1_alg».proof.Proof.Region2
import proofs.«151745_j68229850464792_1_alg».proof.Proof.Region3
set_option maxRecDepth 16384

noncomputable section

open Idealize.ShloMosaic Idealize.ShloMosaic.TcCoe Idealize.SL.Sem
open Idealize.ShloMosaic.Pipeline (Dat)

namespace Cert.KernelIdeal.GinFold

open Cert.KernelIdeal Cert.KernelIdeal.Gen

open Cert.Gin Cert.Gin.Ref
open Cert.ReferenceIdeal.Read (val_main_v1 val_main_v3 val_main_v26 val_main_v34 val_main_v40 val_main_v50 val_main_v53 val_main_v56 val_main_v58 val_main_v59 val_main_v62 val_main_v64 val_main_v72 val_main_v78 val_main_v88 val_main_v91 val_main_v94 lhs_main_v4_0 rhs_main_v4_1)

variable (m : (ℓ : Loc nD τ sig) → Buf (Elt Ideal) ℓ) (ρ : Dev nD → PrngReg) (c : Dev nD)

/-! ## The edge endpoints, carried -/

theorem W4_v1 : W4 m ρ c (Proc.devRef .tc main_v1) = val_main_v1 (F := Ideal) (a1 m c) :=
  (W4_of_ne m ρ c main_v1 (by decide)).trans (W3_v1 m ρ c)
theorem W4_v3 : W4 m ρ c (Proc.devRef .tc main_v3) = val_main_v3 (F := Ideal) (a1 m c) :=
  (W4_of_ne m ρ c main_v3 (by decide)).trans (W3_v3 m ρ c)
theorem W5_v1 : W5 m ρ c (Proc.devRef .tc main_v1) = val_main_v1 (F := Ideal) (a1 m c) :=
  (StableHlo.after_of_forall_not_mem (b := Proc.devRef .tc main_v1) _ _ (by not_written hostOps2)).trans (W4_v1 m ρ c)
theorem W5_v3 : W5 m ρ c (Proc.devRef .tc main_v3) = val_main_v3 (F := Ideal) (a1 m c) :=
  (StableHlo.after_of_forall_not_mem (b := Proc.devRef .tc main_v3) _ _ (by not_written hostOps2)).trans (W4_v3 m ρ c)
theorem W6_v1 : W6 m ρ c (Proc.devRef .tc main_v1) = val_main_v1 (F := Ideal) (a1 m c) :=
  (W6_of_ne m ρ c main_v1 (by decide)).trans (W5_v1 m ρ c)
theorem W6_v3 : W6 m ρ c (Proc.devRef .tc main_v3) = val_main_v3 (F := Ideal) (a1 m c) :=
  (W6_of_ne m ρ c main_v3 (by decide)).trans (W5_v3 m ρ c)
theorem W7_v1 : W7 m ρ c (Proc.devRef .tc main_v1) = val_main_v1 (F := Ideal) (a1 m c) :=
  (StableHlo.after_of_forall_not_mem (b := Proc.devRef .tc main_v1) _ _ (by not_written hostOps3)).trans (W6_v1 m ρ c)
theorem W7_v3 : W7 m ρ c (Proc.devRef .tc main_v3) = val_main_v3 (F := Ideal) (a1 m c) :=
  (StableHlo.after_of_forall_not_mem (b := Proc.devRef .tc main_v3) _ _ (by not_written hostOps3)).trans (W6_v3 m ρ c)
theorem W8_v1 : W8 m ρ c (Proc.devRef .tc main_v1) = val_main_v1 (F := Ideal) (a1 m c) :=
  (W8_of_ne m ρ c main_v1 (by decide)).trans (W7_v1 m ρ c)
theorem W8_v3 : W8 m ρ c (Proc.devRef .tc main_v3) = val_main_v3 (F := Ideal) (a1 m c) :=
  (W8_of_ne m ρ c main_v3 (by decide)).trans (W7_v3 m ρ c)

/-! ## After host stretch 2: the inner normalisation's rows, the second perceptron layer's weights and bias row -/

theorem W5_v21 : W5 m ρ c (Proc.devRef .tc main_v21) = val_main_v26 (F := Ideal) (a0 m c) (a1 m c) (a3 m c) (a4 m c) (a5 m c) (a6 m c) :=
  (StableHlo.after_of_forall_not_mem (b := Proc.devRef .tc main_v21) _ _ (by not_written hostOps2)).trans (W4_v21 m ρ c)

theorem W5_v25 : W5 m ρ c (Proc.devRef .tc main_v25) = val_main_v34 (F := Ideal) (a0 m c) (a1 m c) (a3 m c) (a4 m c) (a5 m c) (a6 m c) := by
  show StableHlo.after hostOps2 (W4 m ρ c) (Proc.devRef .tc main_v25) = _
  dsimp only [hostOps2]
  after_results
  rw [W4_v21 m ρ c]
  exact mean_row _ _ _ _ Cert.ReferenceIdeal.Gen.bcast_S_S128

theorem W5_v32 : W5 m ρ c (Proc.devRef .tc main_v32) = asRow (val_main_v40 (F := Ideal) (a0 m c) (a1 m c) (a3 m c) (a4 m c) (a5 m c) (a6 m c)) := by
  show StableHlo.after hostOps2 (W4 m ρ c) (Proc.devRef .tc main_v32) = _
  dsimp only [hostOps2]
  after_results
  rw [W4_v21 m ρ c]
  simp only [mean_row _ _ _ _ Cert.ReferenceIdeal.Gen.bcast_S_S128]
  exact bcast_row _ _

theorem W5_v35 : W5 m ρ c (Proc.devRef .tc main_v35) = val_main_v50 (F := Ideal) (a7 m c) := by
  show StableHlo.after hostOps2 (W4 m ρ c) (Proc.devRef .tc main_v35) = _
  dsimp only [hostOps2]
  after_results
  rw [W4_arg m ρ c main_arg7 (by simp [argRefs])]
  exact (shapeCast_row _ _).trans (bcast_row _ _).symm

theorem W5_v38 : W5 m ρ c (Proc.devRef .tc main_v38) = val_main_v53 (F := Ideal) (a8 m c) := by
  show StableHlo.after hostOps2 (W4 m ρ c) (Proc.devRef .tc main_v38) = _
  dsimp only [hostOps2]
  after_results
  rw [W4_arg m ρ c main_arg8 (by simp [argRefs])]
  exact (shapeCast_row _ _).trans (bcast_row _ _).symm

theorem W5_v40 : W5 m ρ c (Proc.devRef .tc main_v40) = val_main_v58 (F := Ideal) (a9 m c) := by
  show StableHlo.after hostOps2 (W4 m ρ c) (Proc.devRef .tc main_v40) = _
  dsimp only [hostOps2]
  after_results
  rw [W4_arg m ρ c main_arg9 (by simp [argRefs])]
  rfl

theorem W5_v43 : W5 m ρ c (Proc.devRef .tc main_v43) = val_main_v62 (F := Ideal) (a10 m c) := by
  show StableHlo.after hostOps2 (W4 m ρ c) (Proc.devRef .tc main_v43) = _
  dsimp only [hostOps2]
  after_results
  rw [W4_arg m ρ c main_arg10 (by simp [argRefs])]
  exact (shapeCast_row _ _).trans (bcast_row _ _).symm

/-! ## After launch 2: the second perceptron layer -/

theorem W6_v44 : W6 m ρ c (Proc.devRef .tc main_v44) = val_main_v64 (F := Ideal) (a0 m c) (a1 m c) (a3 m c) (a4 m c) (a5 m c) (a6 m c) (a7 m c) (a8 m c) (a9 m c) (a10 m c) := by
  refine (W6_arr m ρ c 7).trans ?_
  refine (Region2.final (V5 m ρ) dW rfl rfl rfl rfl lhs_main_v4_0 rhs_main_v4_1 c).trans ?_
  show addRow (Host.dotGeneral (φ₁ := .f32) (φ₂ := .f32) dW none
      (bnRelu (W5 m ρ c (Proc.devRef .tc main_v21)) (W5 m ρ c (Proc.devRef .tc main_v25)) (W5 m ρ c (Proc.devRef .tc main_v32)) (W5 m ρ c (Proc.devRef .tc main_v35)) (W5 m ρ c (Proc.devRef .tc main_v38)))
      (W5 m ρ c (Proc.devRef .tc main_v40))) (W5 m ρ c (Proc.devRef .tc main_v43)) = _
  rw [W5_v21 m ρ c, W5_v25 m ρ c, W5_v32 m ρ c, W5_v35 m ρ c, W5_v38 m ρ c, W5_v40 m ρ c, W5_v43 m ρ c]
  rw [← ref_a1 (a0 m c) (a1 m c) (a3 m c) (a4 m c) (a5 m c) (a6 m c) (a7 m c) (a8 m c)]
  exact (ref_z2 (a0 m c) (a1 m c) (a3 m c) (a4 m c) (a5 m c) (a6 m c) (a7 m c) (a8 m c) (a9 m c) (a10 m c)).symm

/-! ## After host stretch 3: the outer normalisation's rows -/

theorem W7_v44 : W7 m ρ c (Proc.devRef .tc main_v44) = val_main_v64 (F := Ideal) (a0 m c) (a1 m c) (a3 m c) (a4 m c) (a5 m c) (a6 m c) (a7 m c) (a8 m c) (a9 m c) (a10 m c) :=
  (StableHlo.after_of_forall_not_mem (b := Proc.devRef .tc main_v44) _ _ (by not_written hostOps3)).trans (W6_v44 m ρ c)

theorem W7_v48 : W7 m ρ c (Proc.devRef .tc main_v48) = val_main_v72 (F := Ideal) (a0 m c) (a1 m c) (a3 m c) (a4 m c) (a5 m c) (a6 m c) (a7 m c) (a8 m c) (a9 m c) (a10 m c) := by
  show StableHlo.after hostOps3 (W6 m ρ c) (Proc.devRef .tc main_v48) = _
  dsimp only [hostOps3]
  after_results
  rw [W6_v44 m ρ c]
  exact mean_row _ _ _ _ Cert.ReferenceIdeal.Gen.bcast_S_S128

theorem W7_v55 : W7 m ρ c (Proc.devRef .tc main_v55) = asRow (val_main_v78 (F := Ideal) (a0 m c) (a1 m c) (a3 m c) (a4 m c) (a5 m c) (a6 m c) (a7 m c) (a8 m c) (a9 m c) (a10 m c)) := by
  show StableHlo.after hostOps3 (W6 m ρ c) (Proc.devRef .tc main_v55) = _
  dsimp only [hostOps3]
  after_results
  rw [W6_v44 m ρ c]
  simp only [mean_row _ _ _ _ Cert.ReferenceIdeal.Gen.bcast_S_S128]
  exact bcast_row _ _

theorem W7_v58 : W7 m ρ c (Proc.devRef .tc main_v58) = val_main_v88 (F := Ideal) (a11 m c) := by
  show StableHlo.after hostOps3 (W6 m ρ c) (Proc.devRef .tc main_v58) = _
  dsimp only [hostOps3]
  after_results
  rw [W6_arg m ρ c main_arg11 (by simp [argRefs])]
  exact (shapeCast_row _ _).trans (bcast_row _ _).symm

theorem W7_v61 : W7 m ρ c (Proc.devRef .tc main_v61) = val_main_v91 (F := Ideal) (a12 m c) := by
  show StableHlo.after hostOps3 (W6 m ρ c) (Proc.devRef .tc main_v61) = _
  dsimp only [hostOps3]
  after_results
  rw [W6_arg m ρ c main_arg12 (by simp [argRefs])]
  exact (shapeCast_row _ _).trans (bcast_row _ _).symm

/-! ## After launch 3: the layer's output -/

theorem W8_v62 : W8 m ρ c (Proc.devRef .tc main_v62) = val_main_v94 (F := Ideal) (a0 m c) (a1 m c) (a3 m c) (a4 m c) (a5 m c) (a6 m c) (a7 m c) (a8 m c) (a9 m c) (a10 m c) (a11 m c) (a12 m c) := by
  refine (W8_arr m ρ c 5).trans ?_
  refine (Region3.final (V7 m ρ) c).trans ?_
  show bnRelu (W7 m ρ c (Proc.devRef .tc main_v44)) (W7 m ρ c (Proc.devRef .tc main_v48)) (W7 m ρ c (Proc.devRef .tc main_v55)) (W7 m ρ c (Proc.devRef .tc main_v58)) (W7 m ρ c (Proc.devRef .tc main_v61)) = _
  rw [W7_v44 m ρ c, W7_v48 m ρ c, W7_v55 m ρ c, W7_v58 m ρ c, W7_v61 m ρ c]
  exact (ref_h1 (a0 m c) (a1 m c) (a3 m c) (a4 m c) (a5 m c) (a6 m c) (a7 m c) (a8 m c) (a9 m c) (a10 m c) (a11 m c) (a12 m c)).symm

end Cert.KernelIdeal.GinFold

end
-- ==== Proof.Region4.lean ====
/-
  A dense layer on the sum of two feature matrices, one block of 5000 rows at a time.  Each grid point adds its 5000
  rows of the two summands, multiplies the sum with the whole weight matrix and adds the bias row; the ten blocks tile
  the 50000 rows, so the array written is the whole product of the sum with the weights, the bias row added to every row.
-/
import proofs.«151745_j68229850464792_1_alg».proof.Proof.Gen.KernelIdeal.Frame
import proofs.«151745_j68229850464792_1_alg».proof.Proof.Stages
import proofs.«151745_j68229850464792_1_alg».proof.Proof.LibMatRows
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region4

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The block product's record: the left operand's free axis is the result's first axis. -/
theorem dB_l0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's free axis is the result's second axis. -/
theorem dB_r1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- One entry of a block's result: row `p` of both blocks is row `P` of the two whole summands. -/
theorem pay_entry (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (A B : FVec Ideal SN .f32) (x0 x1 : FVec Ideal S5000x128 .f32) (x2 : FVec Ideal S128x128 .f32) (x3 : FVec Ideal S1x128 .f32)
    (p : Fin 5000) (q : Fin 128) (P : Fin 50000)
    (hx0 : ∀ k : Fin 128, x0 (ix2 p k) = A (ix2 P k)) (hx1 : ∀ k : Fin 128, x1 (ix2 p k) = B (ix2 P k)) :
    k4_pay1 x0 x1 x2 x3 (ix2 p q) = addRow (Host.dotGeneral dW none (addf A B) x2) x3 (ix2 P q) := by
  unfold k4_pay1
  simp only [shapeCast_self]
  show _ + _ = Host.dotGeneral dW none (addf A B) x2 (ix2 P q) + x3 (ix2 (0 : Fin 1) q)
  refine congrArg₂ (· + ·) ?_ ?_
  · exact Cert.LibMatRows.block_entry dot_S5000x128_S128x128_S5000x128_1_0_0_1_n_n dW rfl rfl rfl rfl dB_l0 dB_r1
      hrW hsW hlcW hrcW hl0W hr1W (addf A B) x2 _ _ p q P
      (fun k => by
        show x0 (ix2 p k) + x1 (ix2 p k) = A (ix2 P k) + B (ix2 P k)
        rw [hx0 k, hx1 k]) (fun k => rfl)
  · exact broadcastTo_1b_ab_apply x3 broadcasts_S1x128_S5000x128 p q

/-- The printed index maps over the grid: the row blocks move with the grid point, the whole arrays stay. -/
theorem idx_facts : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = 0 ∧ win4_2.index t (1 : Fin 2) = 0
    ∧ win4_3.index t (0 : Fin 2) = 0 ∧ win4_3.index t (1 : Fin 2) = 0
    ∧ win4_4.index t (0 : Fin 2) = t.val ∧ win4_4.index t (1 : Fin 2) = 0 :=
  (by decide +kernel : ∀ t : Fin grid4.N, _)

/-- Row `p` of window 0's block at point `t` is row `5000 t + p` of its array. -/
theorem blk0 (c : Dev nD) (t : Fin cfg4.N) (p : Fin 5000) (k : Fin 128) (P : Fin 50000) (hP : P.val = 5000 * t.val + p.val) :
    iblk4 V c 0 t (ix2 p k) = V c main_v62 (ix2 P k) := by
  obtain ⟨e0, e1, e2, e3, e4, e5, e6, e7, e8, e9⟩ := idx_facts t
  show V c main_v62 (((cfg4.win 0).blk t).view.emb (ix2 p k)) = V c main_v62 (ix2 P k)
  refine congrArg _ (funext fun a => Fin.ext ?_)
  match a with
  | ⟨0, _⟩ => show win4_0.index t (0 : Fin 2) * 5000 + 1 * p.val = P.val; omega
  | ⟨1, _⟩ => show win4_0.index t (1 : Fin 2) * 128 + 1 * k.val = k.val; omega

/-- Row `p` of window 1's block at point `t` is row `5000 t + p` of its array. -/
theorem blk1 (c : Dev nD) (t : Fin cfg4.N) (p : Fin 5000) (k : Fin 128) (P : Fin 50000) (hP : P.val = 5000 * t.val + p.val) :
    iblk4 V c 1 t (ix2 p k) = V c main_v72 (ix2 P k) := by
  obtain ⟨e0, e1, e2, e3, e4, e5, e6, e7, e8, e9⟩ := idx_facts t
  show V c main_v72 (((cfg4.win 1).blk t).view.emb (ix2 p k)) = V c main_v72 (ix2 P k)
  refine congrArg _ (funext fun a => Fin.ext ?_)
  match a with
  | ⟨0, _⟩ => show win4_1.index t (0 : Fin 2) * 5000 + 1 * p.val = P.val; omega
  | ⟨1, _⟩ => show win4_1.index t (1 : Fin 2) * 128 + 1 * k.val = k.val; omega

/-- Window 2's block is its whole array (the weight matrix). -/
theorem blk2 (c : Dev nD) (t : Fin cfg4.N) : iblk4 V c 2 t = V c main_v74 := by
  obtain ⟨e0, e1, e2, e3, e4, e5, e6, e7, e8, e9⟩ := idx_facts t
  funext y
  show V c main_v74 (((cfg4.win 2).blk t).view.emb y) = V c main_v74 y
  refine congrArg _ (funext fun a => Fin.ext ?_)
  match a with
  | ⟨0, _⟩ => show win4_2.index t (0 : Fin 2) * 128 + 1 * (y 0).val = (y 0).val; omega
  | ⟨1, _⟩ => show win4_2.index t (1 : Fin 2) * 128 + 1 * (y 1).val = (y 1).val; omega

/-- Window 3's block is its whole array (one row). -/
theorem blk3 (c : Dev nD) (t : Fin cfg4.N) : iblk4 V c 3 t = V c main_v77 := by
  obtain ⟨e0, e1, e2, e3, e4, e5, e6, e7, e8, e9⟩ := idx_facts t
  funext y
  show V c main_v77 (((cfg4.win 3).blk t).view.emb y) = V c main_v77 y
  refine congrArg _ (funext fun a => Fin.ext ?_)
  match a with
  | ⟨0, _⟩ => show win4_3.index t (0 : Fin 2) * 1 + 1 * (y 0).val = (y 0).val; omega
  | ⟨1, _⟩ => show win4_3.index t (1 : Fin 2) * 128 + 1 * (y 1).val = (y 1).val; omega

/-- What point `t` writes back is block `t` of the whole result. -/
theorem flushed_eq (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) (t : Fin cfg4.N) :
    (dat4 V c).flushed 4 t = ((cfg4.win 4).blk t).view.read (Elt Ideal)
      (addRow (Host.dotGeneral (φ₁ := .f32) (φ₂ := .f32) dW none (addf (V c main_v62 : FVec Ideal SN .f32) (V c main_v72)) (V c main_v74)) (V c main_v77)) := by
  show (cfg4.win 4).cut (grid4.coords t) ((dat4 V c).after 4 t) = _
  rw [after4_4]
  unfold out4_4
  rw [View.canon_unit_zero hz]
  simp only [View.ld_unit_zero (S := S5000x128) hz, View.ld_unit_zero (S := S128x128) hz, View.ld_unit_zero (S := S1x128) hz]
  rw [blk2, blk3]
  obtain ⟨e0, e1, e2, e3, e4, e5, e6, e7, e8, e9⟩ := idx_facts t
  funext j
  obtain ⟨p, q, rfl⟩ : ∃ (p : Fin 5000) (q : Fin 128), j = ix2 p q := ⟨j 0, j 1, eq_ix2 j⟩
  have hP : 5000 * t.val + p.val < 50000 := by
    have := t.isLt; have hN : cfg4.N = 10 := N_4; have := p.isLt; omega
  have hemb : ((cfg4.win 4).blk t).view.emb (ix2 p q) = ix2 (⟨5000 * t.val + p.val, hP⟩ : Fin 50000) q := by
    funext a; apply Fin.ext
    match a with
    | ⟨0, _⟩ => show win4_4.index t (0 : Fin 2) * 5000 + 1 * p.val = 5000 * t.val + p.val; omega
    | ⟨1, _⟩ => show win4_4.index t (1 : Fin 2) * 128 + 1 * q.val = q.val; omega
  show k4_pay1 (iblk4 V c 0 t) (iblk4 V c 1 t) (V c main_v74) (V c main_v77) (ix2 p q) = (addRow (Host.dotGeneral (φ₁ := .f32) (φ₂ := .f32) dW none (addf (V c main_v62 : FVec Ideal SN .f32) (V c main_v72)) (V c main_v74)) (V c main_v77)) (((cfg4.win 4).blk t).view.emb (ix2 p q))
  rw [hemb]
  exact pay_entry dW hrW hsW hlcW hrcW hl0W hr1W (V c main_v62) (V c main_v72) (iblk4 V c 0 t) (iblk4 V c 1 t) (V c main_v74) (V c main_v77) p q _
    (fun k => blk0 V c t p k _ rfl) (fun k => blk1 V c t p k _ rfl)

/-- An index of the array is in point `t`'s block iff each coordinate is in the block's range on its axis. -/
theorem mem_blk (t : Fin cfg4.N) (i : S50000x128.Idx) :
    i ∈ ((cfg4.win 4).blk t).view.set ↔ ∀ a : Fin 2, win4_4.index t a * S5000x128.size a ≤ (i a).val ∧ (i a).val < win4_4.index t a * S5000x128.size a + S5000x128.size a := by
  show i ∈ ((View.whole main_v78).slice (win4_4.rect t)).set ↔ _
  rw [View.set_slice_whole, Rect.mem_set_unit]
  exact Iff.rfl

/-- Every row is in some point's block: row `r` in block `r / 5000`. -/
theorem cover (i : S50000x128.Idx) : ∃ t : Fin cfg4.N, (cfg4.win 4).flush t = true ∧ i ∈ ((cfg4.win 4).blk t).view.set := by
  have hi0 : (i 0).val < 50000 := (i 0).isLt
  have hi1 : (i 1).val < 128 := (i 1).isLt
  have hN : cfg4.N = 10 := N_4
  let t : Fin cfg4.N := ⟨(i 0).val / 5000, by rw [hN]; omega⟩
  obtain ⟨e0, e1, e2, e3, e4, e5, e6, e7, e8, e9⟩ := idx_facts t
  refine ⟨t, flush4_4 t, ?_⟩
  rw [mem_blk]
  intro a
  have ht : t.val = (i 0).val / 5000 := rfl
  match a with
  | ⟨0, _⟩ => show win4_4.index t (0 : Fin 2) * 5000 ≤ (i 0).val ∧ (i 0).val < win4_4.index t (0 : Fin 2) * 5000 + 5000; omega
  | ⟨1, _⟩ => show win4_4.index t (1 : Fin 2) * 128 ≤ (i 1).val ∧ (i 1).val < win4_4.index t (1 : Fin 2) * 128 + 128; omega

/-- The array the launch leaves, as a function of the arrays it read. -/
theorem final (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) :
    (dat4 V c).arrAt 4 cfg4.N = addRow (Host.dotGeneral (φ₁ := .f32) (φ₂ := .f32) dW none (addf (V c main_v62 : FVec Ideal SN .f32) (V c main_v72)) (V c main_v74)) (V c main_v77) :=
  (dat4 V c).arrAt_eq_of_cover 4 _ (fun t _ => flushed_eq V dW hrW hsW hlcW hrcW hl0W hr1W c t) cover

end Cert.KernelIdeal.Region4

end
-- ==== Proof.Region5.lean ====
/-
  A normalisation layer followed by a dense layer, one block of 5000 rows at a time.  Each grid point normalises its
  5000 rows (subtract the row of column means, scale by the reciprocal square root of the row of column variances plus
  the small constant and by the row of gains, add the row of offsets, clip at zero), multiplies the result with the
  whole weight matrix and adds the bias row; the ten blocks tile the 50000 rows, so the array written is the whole
  product of the normalised matrix with the weights, the bias row added to every row.
-/
import proofs.«151745_j68229850464792_1_alg».proof.Proof.Gen.KernelIdeal.Frame
import proofs.«151745_j68229850464792_1_alg».proof.Proof.Stages
import proofs.«151745_j68229850464792_1_alg».proof.Proof.LibMatRows
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region5

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The block product's record: the left operand's free axis is the result's first axis. -/
theorem dB_l0 (j : S5000x128.Idx) (k : dot_S5000x128_S128x128_S5000x128_1_0_0_1_n_n.contr.Idx) :
    (dot_S5000x128_S128x128_S5000x128_1_0_0_1_n_n.lhsIdx j k 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The right operand's free axis is the result's second axis. -/
theorem dB_r1 (j : S5000x128.Idx) (k : dot_S5000x128_S128x128_S5000x128_1_0_0_1_n_n.contr.Idx) :
    (dot_S5000x128_S128x128_S5000x128_1_0_0_1_n_n.rhsIdx j k 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- The normalised, clipped activation of a block, one entry: the block's entry `(p, k)` is the whole array's entry
    `(P, k)`, and every row array is read at column `k`. -/
theorem act_entry (Z : FVec Ideal SN .f32) (x0 : FVec Ideal S5000x128 .f32) (mu var g beta : FVec Ideal S1x128 .f32)
    (p : Fin 5000) (k : Fin 128) (P : Fin 50000) (hx : x0 (ix2 p k) = Z (ix2 P k)) :
    (maximumf (addf (mulf (mulf (subf x0 (broadcastTo S5000x128 mu broadcasts_S1x128_S5000x128))
        (broadcastTo S5000x128 (rsqrt (addf var (broadcast S1x128 (Scalar.ofBits .f32 0x3727C5AC#32)))) broadcasts_S1x128_S5000x128))
        (broadcastTo S5000x128 g broadcasts_S1x128_S5000x128)) (broadcastTo S5000x128 beta broadcasts_S1x128_S5000x128))
        (broadcast S5000x128 (Scalar.ofBits .f32 0x00000000#32)) : FVec Ideal S5000x128 .f32) (ix2 p k)
      = bnRelu Z mu var g beta (ix2 P k) := by
  rw [bnRelu_ix2]
  show max ((x0 (ix2 p k) - broadcastTo S5000x128 mu broadcasts_S1x128_S5000x128 (ix2 p k))
        * broadcastTo S5000x128 (rsqrt (addf var (broadcast S1x128 (Scalar.ofBits .f32 0x3727C5AC#32)))) broadcasts_S1x128_S5000x128 (ix2 p k)
        * broadcastTo S5000x128 g broadcasts_S1x128_S5000x128 (ix2 p k)
        + broadcastTo S5000x128 beta broadcasts_S1x128_S5000x128 (ix2 p k)) (Scalar.ofBits .f32 0x00000000#32) = _
  rw [broadcastTo_1b_ab_apply mu, broadcastTo_1b_ab_apply g, broadcastTo_1b_ab_apply beta,
    broadcastTo_1b_ab_apply (rsqrt (addf var (broadcast S1x128 (Scalar.ofBits .f32 0x3727C5AC#32)))), hx]
  rfl

/-- One entry of a block's result: row `p` of the block is row `P` of the whole array; the activation of the block's
    row is the activation of the whole array's row, so the block's product is the whole product's row `P`. -/
theorem pay_entry (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val)
    (Z : FVec Ideal SN .f32) (x0 : FVec Ideal S5000x128 .f32) (mu var g beta : FVec Ideal S1x128 .f32)
    (x5 : FVec Ideal S128x128 .f32) (x6 : FVec Ideal S1x128 .f32)
    (p : Fin 5000) (q : Fin 128) (P : Fin 50000) (hx : ∀ k : Fin 128, x0 (ix2 p k) = Z (ix2 P k)) :
    k5_pay1 x0 mu var g beta x5 x6 (ix2 p q) = addRow (Host.dotGeneral dW none (bnRelu Z mu var g beta) x5) x6 (ix2 P q) := by
  unfold k5_pay1
  simp only [shapeCast_self]
  show _ + _ = Host.dotGeneral dW none (bnRelu Z mu var g beta) x5 (ix2 P q) + x6 (ix2 (0 : Fin 1) q)
  refine congrArg₂ (· + ·) ?_ ?_
  · exact Cert.LibMatRows.block_entry dot_S5000x128_S128x128_S5000x128_1_0_0_1_n_n dW rfl rfl rfl rfl dB_l0 dB_r1
      hrW hsW hlcW hrcW hl0W hr1W (bnRelu Z mu var g beta) x5 _ _ p q P
      (fun k => act_entry Z x0 mu var g beta p k P (hx k)) (fun k => rfl)
  · exact broadcastTo_1b_ab_apply x6 broadcasts_S1x128_S5000x128 p q

/-- The printed index maps over the grid: the row blocks move with the grid point, the whole arrays stay. -/
theorem idx_facts : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- Row `p` of window 0's block at point `t` is row `5000 t + p` of its array. -/
theorem blk0 (c : Dev nD) (t : Fin cfg5.N) (p : Fin 5000) (k : Fin 128) (P : Fin 50000) (hP : P.val = 5000 * t.val + p.val) :
    iblk5 V c 0 t (ix2 p k) = V c main_v78 (ix2 P k) := by
  obtain ⟨e0, e1, e2, e3, e4, e5, e6, e7, e8, e9, e10, e11, e12, e13, e14, e15⟩ := idx_facts t
  show V c main_v78 (((cfg5.win 0).blk t).view.emb (ix2 p k)) = V c main_v78 (ix2 P k)
  refine congrArg _ (funext fun a => Fin.ext ?_)
  match a with
  | ⟨0, _⟩ => show win5_0.index t (0 : Fin 2) * 5000 + 1 * p.val = P.val; omega
  | ⟨1, _⟩ => show win5_0.index t (1 : Fin 2) * 128 + 1 * k.val = k.val; omega

/-- Window 1's block is its whole array (one row). -/
theorem blk1 (c : Dev nD) (t : Fin cfg5.N) : iblk5 V c 1 t = V c main_v82 := by
  obtain ⟨e0, e1, e2, e3, e4, e5, e6, e7, e8, e9, e10, e11, e12, e13, e14, e15⟩ := idx_facts t
  funext y
  show V c main_v82 (((cfg5.win 1).blk t).view.emb y) = V c main_v82 y
  refine congrArg _ (funext fun a => Fin.ext ?_)
  match a with
  | ⟨0, _⟩ => show win5_1.index t (0 : Fin 2) * 1 + 1 * (y 0).val = (y 0).val; omega
  | ⟨1, _⟩ => show win5_1.index t (1 : Fin 2) * 128 + 1 * (y 1).val = (y 1).val; omega

/-- Window 2's block is its whole array (one row). -/
theorem blk2 (c : Dev nD) (t : Fin cfg5.N) : iblk5 V c 2 t = V c main_v89 := by
  obtain ⟨e0, e1, e2, e3, e4, e5, e6, e7, e8, e9, e10, e11, e12, e13, e14, e15⟩ := idx_facts t
  funext y
  show V c main_v89 (((cfg5.win 2).blk t).view.emb y) = V c main_v89 y
  refine congrArg _ (funext fun a => Fin.ext ?_)
  match a with
  | ⟨0, _⟩ => show win5_2.index t (0 : Fin 2) * 1 + 1 * (y 0).val = (y 0).val; omega
  | ⟨1, _⟩ => show win5_2.index t (1 : Fin 2) * 128 + 1 * (y 1).val = (y 1).val; omega

/-- Window 3's block is its whole array (one row). -/
theorem blk3 (c : Dev nD) (t : Fin cfg5.N) : iblk5 V c 3 t = V c main_v92 := by
  obtain ⟨e0, e1, e2, e3, e4, e5, e6, e7, e8, e9, e10, e11, e12, e13, e14, e15⟩ := idx_facts t
  funext y
  show V c main_v92 (((cfg5.win 3).blk t).view.emb y) = V c main_v92 y
  refine congrArg _ (funext fun a => Fin.ext ?_)
  match a with
  | ⟨0, _⟩ => show win5_3.index t (0 : Fin 2) * 1 + 1 * (y 0).val = (y 0).val; omega
  | ⟨1, _⟩ => show win5_3.index t (1 : Fin 2) * 128 + 1 * (y 1).val = (y 1).val; omega

/-- Window 4's block is its whole array (one row). -/
theorem blk4 (c : Dev nD) (t : Fin cfg5.N) : iblk5 V c 4 t = V c main_v95 := by
  obtain ⟨e0, e1, e2, e3, e4, e5, e6, e7, e8, e9, e10, e11, e12, e13, e14, e15⟩ := idx_facts t
  funext y
  show V c main_v95 (((cfg5.win 4).blk t).view.emb y) = V c main_v95 y
  refine congrArg _ (funext fun a => Fin.ext ?_)
  match a with
  | ⟨0, _⟩ => show win5_4.index t (0 : Fin 2) * 1 + 1 * (y 0).val = (y 0).val; omega
  | ⟨1, _⟩ => show win5_4.index t (1 : Fin 2) * 128 + 1 * (y 1).val = (y 1).val; omega

/-- Window 5's block is its whole array (the weight matrix). -/
theorem blk5 (c : Dev nD) (t : Fin cfg5.N) : iblk5 V c 5 t = V c main_v97 := by
  obtain ⟨e0, e1, e2, e3, e4, e5, e6, e7, e8, e9, e10, e11, e12, e13, e14, e15⟩ := idx_facts t
  funext y
  show V c main_v97 (((cfg5.win 5).blk t).view.emb y) = V c main_v97 y
  refine congrArg _ (funext fun a => Fin.ext ?_)
  match a with
  | ⟨0, _⟩ => show win5_5.index t (0 : Fin 2) * 128 + 1 * (y 0).val = (y 0).val; omega
  | ⟨1, _⟩ => show win5_5.index t (1 : Fin 2) * 128 + 1 * (y 1).val = (y 1).val; omega

/-- Window 6's block is its whole array (one row). -/
theorem blk6 (c : Dev nD) (t : Fin cfg5.N) : iblk5 V c 6 t = V c main_v100 := by
  obtain ⟨e0, e1, e2, e3, e4, e5, e6, e7, e8, e9, e10, e11, e12, e13, e14, e15⟩ := idx_facts t
  funext y
  show V c main_v100 (((cfg5.win 6).blk t).view.emb y) = V c main_v100 y
  refine congrArg _ (funext fun a => Fin.ext ?_)
  match a with
  | ⟨0, _⟩ => show win5_6.index t (0 : Fin 2) * 1 + 1 * (y 0).val = (y 0).val; omega
  | ⟨1, _⟩ => show win5_6.index t (1 : Fin 2) * 128 + 1 * (y 1).val = (y 1).val; omega

/-- What point `t` writes back is block `t` of the whole result. -/
theorem flushed_eq (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) (t : Fin cfg5.N) :
    (dat5 V c).flushed 7 t = ((cfg5.win 7).blk t).view.read (Elt Ideal)
      (addRow (Host.dotGeneral (φ₁ := .f32) (φ₂ := .f32) dW none (bnRelu (V c main_v78) (V c main_v82) (V c main_v89) (V c main_v92) (V c main_v95)) (V c main_v97)) (V c main_v100)) := by
  show (cfg5.win 7).cut (grid5.coords t) ((dat5 V c).after 7 t) = _
  rw [after5_7]
  unfold out5_7
  rw [View.canon_unit_zero hz]
  simp only [View.ld_unit_zero (S := S5000x128) hz, View.ld_unit_zero (S := S1x128) hz, View.ld_unit_zero (S := S128x128) hz]
  rw [blk1, blk2, blk3, blk4, blk5, blk6]
  obtain ⟨e0, e1, e2, e3, e4, e5, e6, e7, e8, e9, e10, e11, e12, e13, e14, e15⟩ := idx_facts t
  funext j
  obtain ⟨p, q, rfl⟩ : ∃ (p : Fin 5000) (q : Fin 128), j = ix2 p q := ⟨j 0, j 1, eq_ix2 j⟩
  have hP : 5000 * t.val + p.val < 50000 := by
    have := t.isLt; have hN : cfg5.N = 10 := N_5; have := p.isLt; omega
  have hemb : ((cfg5.win 7).blk t).view.emb (ix2 p q) = ix2 (⟨5000 * t.val + p.val, hP⟩ : Fin 50000) q := by
    funext a; apply Fin.ext
    match a with
    | ⟨0, _⟩ => show win5_7.index t (0 : Fin 2) * 5000 + 1 * p.val = 5000 * t.val + p.val; omega
    | ⟨1, _⟩ => show win5_7.index t (1 : Fin 2) * 128 + 1 * q.val = q.val; omega
  show k5_pay1 (iblk5 V c 0 t) (V c main_v82) (V c main_v89) (V c main_v92) (V c main_v95) (V c main_v97) (V c main_v100) (ix2 p q) = (addRow (Host.dotGeneral (φ₁ := .f32) (φ₂ := .f32) dW none (bnRelu (V c main_v78) (V c main_v82) (V c main_v89) (V c main_v92) (V c main_v95)) (V c main_v97)) (V c main_v100)) (((cfg5.win 7).blk t).view.emb (ix2 p q))
  rw [hemb]
  exact pay_entry dW hrW hsW hlcW hrcW hl0W hr1W (V c main_v78) (iblk5 V c 0 t) (V c main_v82) (V c main_v89) (V c main_v92) (V c main_v95) (V c main_v97) (V c main_v100) p q _
    (fun k => blk0 V c t p k _ rfl)

/-- An index of the array is in point `t`'s block iff each coordinate is in the block's range on its axis. -/
theorem mem_blk (t : Fin cfg5.N) (i : S50000x128.Idx) :
    i ∈ ((cfg5.win 7).blk t).view.set ↔ ∀ a : Fin 2, win5_7.index t a * S5000x128.size a ≤ (i a).val ∧ (i a).val < win5_7.index t a * S5000x128.size a + S5000x128.size a := by
  show i ∈ ((View.whole main_v101).slice (win5_7.rect t)).set ↔ _
  rw [View.set_slice_whole, Rect.mem_set_unit]
  exact Iff.rfl

/-- Every row is in some point's block: row `r` in block `r / 5000`. -/
theorem cover (i : S50000x128.Idx) : ∃ t : Fin cfg5.N, (cfg5.win 7).flush t = true ∧ i ∈ ((cfg5.win 7).blk t).view.set := by
  have hi0 : (i 0).val < 50000 := (i 0).isLt
  have hi1 : (i 1).val < 128 := (i 1).isLt
  have hN : cfg5.N = 10 := N_5
  let t : Fin cfg5.N := ⟨(i 0).val / 5000, by rw [hN]; omega⟩
  obtain ⟨e0, e1, e2, e3, e4, e5, e6, e7, e8, e9, e10, e11, e12, e13, e14, e15⟩ := idx_facts t
  refine ⟨t, flush5_7 t, ?_⟩
  rw [mem_blk]
  intro a
  have ht : t.val = (i 0).val / 5000 := rfl
  match a with
  | ⟨0, _⟩ => show win5_7.index t (0 : Fin 2) * 5000 ≤ (i 0).val ∧ (i 0).val < win5_7.index t (0 : Fin 2) * 5000 + 5000; omega
  | ⟨1, _⟩ => show win5_7.index t (1 : Fin 2) * 128 ≤ (i 1).val ∧ (i 1).val < win5_7.index t (1 : Fin 2) * 128 + 128; omega

/-- The array the launch leaves, as a function of the arrays it read. -/
theorem final (dW : DotDims SN ⟨2, ![128, 128]⟩ SN)
    (hrW : dW.contr.rank = 1) (hsW : dW.contr.size ⟨0, by omega⟩ = 128)
    (hlcW : dW.lhsContracting = [1]) (hrcW : dW.rhsContracting = [0])
    (hl0W : ∀ j k, (dW.lhsIdx j k 0).val = (j 0).val) (hr1W : ∀ j k, (dW.rhsIdx j k 1).val = (j 1).val) (c : Dev nD) :
    (dat5 V c).arrAt 7 cfg5.N = addRow (Host.dotGeneral (φ₁ := .f32) (φ₂ := .f32) dW none (bnRelu (V c main_v78) (V c main_v82) (V c main_v89) (V c main_v92) (V c main_v95)) (V c main_v97)) (V c main_v100) :=
  (dat5 V c).arrAt_eq_of_cover 7 _ (fun t _ => flushed_eq V dW hrW hsW hlcW hrcW hl0W hr1W c t) cover

end Cert.KernelIdeal.Region5

end
-- ==== Proof.Region6.lean ====
/-
  A normalisation layer, one block of 5000 rows at a time.  Each grid point subtracts the row of column means from its
  5000 rows, scales by the reciprocal square root of the row of column variances (plus the small constant) and by the
  row of gains, adds the row of offsets and clips at zero; the ten blocks tile the 50000 rows, so the array written is
  the whole matrix normalised and clipped entry by entry.
-/
import proofs.«151745_j68229850464792_1_alg».proof.Proof.Gen.KernelIdeal.Frame
import proofs.«151745_j68229850464792_1_alg».proof.Proof.Stages
import proofs.«151745_j68229850464792_1_alg».proof.Proof.LibMatRows
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region6

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- One entry of a block's result: the block's entry `(p, q)` is the whole array's entry `(P, q)`, and every row
    array is read at column `q`. -/
theorem pay_entry (Z : FVec Ideal SN .f32) (x0 : FVec Ideal S5000x128 .f32) (mu var g beta : FVec Ideal S1x128 .f32)
    (p : Fin 5000) (q : Fin 128) (P : Fin 50000) (hx : x0 (ix2 p q) = Z (ix2 P q)) :
    k6_pay1 x0 mu var g beta (ix2 p q) = bnRelu Z mu var g beta (ix2 P q) := by
  unfold k6_pay1
  simp only [shapeCast_self]
  rw [bnRelu_ix2]
  show max ((x0 (ix2 p q) - broadcastTo S5000x128 mu broadcasts_S1x128_S5000x128 (ix2 p q))
        * broadcastTo S5000x128 (rsqrt (addf var (broadcast S1x128 (Scalar.ofBits .f32 0x3727C5AC#32)))) broadcasts_S1x128_S5000x128 (ix2 p q)
        * broadcastTo S5000x128 g broadcasts_S1x128_S5000x128 (ix2 p q)
        + broadcastTo S5000x128 beta broadcasts_S1x128_S5000x128 (ix2 p q)) (Scalar.ofBits .f32 0x00000000#32) = _
  rw [broadcastTo_1b_ab_apply mu, broadcastTo_1b_ab_apply g, broadcastTo_1b_ab_apply beta,
    broadcastTo_1b_ab_apply (rsqrt (addf var (broadcast S1x128 (Scalar.ofBits .f32 0x3727C5AC#32)))), hx]
  rfl

/-- The printed index maps over the grid: the row blocks move with the grid point, the whole arrays stay. -/
theorem idx_facts : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0 :=
  (by decide +kernel : ∀ t : Fin grid6.N, _)

/-- Row `p` of window 0's block at point `t` is row `5000 t + p` of its array. -/
theorem blk0 (c : Dev nD) (t : Fin cfg6.N) (p : Fin 5000) (k : Fin 128) (P : Fin 50000) (hP : P.val = 5000 * t.val + p.val) :
    iblk6 V c 0 t (ix2 p k) = V c main_v101 (ix2 P k) := by
  obtain ⟨e0, e1, e2, e3, e4, e5, e6, e7, e8, e9, e10, e11⟩ := idx_facts t
  show V c main_v101 (((cfg6.win 0).blk t).view.emb (ix2 p k)) = V c main_v101 (ix2 P k)
  refine congrArg _ (funext fun a => Fin.ext ?_)
  match a with
  | ⟨0, _⟩ => show win6_0.index t (0 : Fin 2) * 5000 + 1 * p.val = P.val; omega
  | ⟨1, _⟩ => show win6_0.index t (1 : Fin 2) * 128 + 1 * k.val = k.val; omega

/-- Window 1's block is its whole array (one row). -/
theorem blk1 (c : Dev nD) (t : Fin cfg6.N) : iblk6 V c 1 t = V c main_v105 := by
  obtain ⟨e0, e1, e2, e3, e4, e5, e6, e7, e8, e9, e10, e11⟩ := idx_facts t
  funext y
  show V c main_v105 (((cfg6.win 1).blk t).view.emb y) = V c main_v105 y
  refine congrArg _ (funext fun a => Fin.ext ?_)
  match a with
  | ⟨0, _⟩ => show win6_1.index t (0 : Fin 2) * 1 + 1 * (y 0).val = (y 0).val; omega
  | ⟨1, _⟩ => show win6_1.index t (1 : Fin 2) * 128 + 1 * (y 1).val = (y 1).val; omega

/-- Window 2's block is its whole array (one row). -/
theorem blk2 (c : Dev nD) (t : Fin cfg6.N) : iblk6 V c 2 t = V c main_v112 := by
  obtain ⟨e0, e1, e2, e3, e4, e5, e6, e7, e8, e9, e10, e11⟩ := idx_facts t
  funext y
  show V c main_v112 (((cfg6.win 2).blk t).view.emb y) = V c main_v112 y
  refine congrArg _ (funext fun a => Fin.ext ?_)
  match a with
  | ⟨0, _⟩ => show win6_2.index t (0 : Fin 2) * 1 + 1 * (y 0).val = (y 0).val; omega
  | ⟨1, _⟩ => show win6_2.index t (1 : Fin 2) * 128 + 1 * (y 1).val = (y 1).val; omega

/-- Window 3's block is its whole array (one row). -/
theorem blk3 (c : Dev nD) (t : Fin cfg6.N) : iblk6 V c 3 t = V c main_v115 := by
  obtain ⟨e0, e1, e2, e3, e4, e5, e6, e7, e8, e9, e10, e11⟩ := idx_facts t
  funext y
  show V c main_v115 (((cfg6.win 3).blk t).view.emb y) = V c main_v115 y
  refine congrArg _ (funext fun a => Fin.ext ?_)
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Window 4's block is its whole array (one row). -/
theorem blk4 (c : Dev nD) (t : Fin cfg6.N) : iblk6 V c 4 t = V c main_v118 := by
  obtain ⟨e0, e1, e2, e3, e4, e5, e6, e7, e8, e9, e10, e11⟩ := idx_facts t
  funext y
  show V c main_v118 (((cfg6.win 4).blk t).view.emb y) = V c main_v118 y
  refine congrArg _ (funext fun a => Fin.ext ?_)
  match a with
  | ⟨0, _⟩ => show win6_4.index t (0 : Fin 2) * 1 + 1 * (y 0).val = (y 0).val; omega
  | ⟨1, _⟩ => show win6_4.index t (1 : Fin 2) * 128 + 1 * (y 1).val = (y 1).val; omega

/-- What point `t` writes back is block `t` of the whole result. -/
theorem flushed_eq (c : Dev nD) (t : Fin cfg6.N) :
    (dat6 V c).flushed 5 t = ((cfg6.win 5).blk t).view.read (Elt Ideal)
      (bnRelu (V c main_v101) (V c main_v105) (V c main_v112) (V c main_v115) (V c main_v118)) := by
  show (cfg6.win 5).cut (grid6.coords t) ((dat6 V c).after 5 t) = _
  rw [after6_5]
  unfold out6_5
  rw [View.canon_unit_zero hz]
  simp only [View.ld_unit_zero (S := S5000x128) hz, View.ld_unit_zero (S := S1x128) hz]
  rw [blk1, blk2, blk3, blk4]
  obtain ⟨e0, e1, e2, e3, e4, e5, e6, e7, e8, e9, e10, e11⟩ := idx_facts t
  funext j
  obtain ⟨p, q, rfl⟩ : ∃ (p : Fin 5000) (q : Fin 128), j = ix2 p q := ⟨j 0, j 1, eq_ix2 j⟩
  have hP : 5000 * t.val + p.val < 50000 := by
    have := t.isLt; have hN : cfg6.N = 10 := N_6; have := p.isLt; omega
  have hemb : ((cfg6.win 5).blk t).view.emb (ix2 p q) = ix2 (⟨5000 * t.val + p.val, hP⟩ : Fin 50000) q := by
    funext a; apply Fin.ext
    match a with
    | ⟨0, _⟩ => show win6_5.index t (0 : Fin 2) * 5000 + 1 * p.val = 5000 * t.val + p.val; omega
    | ⟨1, _⟩ => show win6_5.index t (1 : Fin 2) * 128 + 1 * q.val = q.val; omega
  show k6_pay1 (iblk6 V c 0 t) (V c main_v105) (V c main_v112) (V c main_v115) (V c main_v118) (ix2 p q) = (bnRelu (V c main_v101) (V c main_v105) (V c main_v112) (V c main_v115) (V c main_v118)) (((cfg6.win 5).blk t).view.emb (ix2 p q))
  rw [hemb]
  exact pay_entry (V c main_v101) (iblk6 V c 0 t) (V c main_v105) (V c main_v112) (V c main_v115) (V c main_v118) p q _ (blk0 V c t p q _ rfl)

/-- An index of the array is in point `t`'s block iff each coordinate is in the block's range on its axis. -/
theorem mem_blk (t : Fin cfg6.N) (i : S50000x128.Idx) :
    i ∈ ((cfg6.win 5).blk t).view.set ↔ ∀ a : Fin 2, win6_5.index t a * S5000x128.size a ≤ (i a).val ∧ (i a).val < win6_5.index t a * S5000x128.size a + S5000x128.size a := by
  show i ∈ ((View.whole main_v119).slice (win6_5.rect t)).set ↔ _
  rw [View.set_slice_whole, Rect.mem_set_unit]
  exact Iff.rfl

/-- Every row is in some point's block: row `r` in block `r / 5000`. -/
theorem cover (i : S50000x128.Idx) : ∃ t : Fin cfg6.N, (cfg6.win 5).flush t = true ∧ i ∈ ((cfg6.win 5).blk t).view.set := by
  have hi0 : (i 0).val < 50000 := (i 0).isLt
  have hi1 : (i 1).val < 128 := (i 1).isLt
  have hN : cfg6.N = 10 := N_6
  let t : Fin cfg6.N := ⟨(i 0).val / 5000, by rw [hN]; omega⟩
  obtain ⟨e0, e1, e2, e3, e4, e5, e6, e7, e8, e9, e10, e11⟩ := idx_facts t
  refine ⟨t, flush6_5 t, ?_⟩
  rw [mem_blk]
  intro a
  have ht : t.val = (i 0).val / 5000 := rfl
  match a with
  | ⟨0, _⟩ => show win6_5.index t (0 : Fin 2) * 5000 ≤ (i 0).val ∧ (i 0).val < win6_5.index t (0 : Fin 2) * 5000 + 5000; omega
  | ⟨1, _⟩ => show win6_5.index t (1 : Fin 2) * 128 ≤ (i 1).val ∧ (i 1).val < win6_5.index t (1 : Fin 2) * 128 + 128; omega

/-- The array the launch leaves, as a function of the arrays it read. -/
theorem final (c : Dev nD) :
    (dat6 V c).arrAt 5 cfg6.N = bnRelu (V c main_v101) (V c main_v105) (V c main_v112) (V c main_v115) (V c main_v118) :=
  (dat6 V c).arrAt_eq_of_cover 5 _ (fun t _ => flushed_eq V c t) cover

end Cert.KernelIdeal.Region6

end
-- ==== Proof.KFold3.lean ====
/-
  The second layer, boundary by boundary: the neighbourhood sums of the first layer's output, the two perceptron
  layers with their normalisations, the layer's output — each the reference's named stage of the arguments.  The first
  layer's output rides along unchanged for the pooling at the end.
-/
import proofs.«151745_j68229850464792_1_alg».proof.Proof.Gen.KernelIdeal.Frame
import proofs.«151745_j68229850464792_1_alg».proof.Proof.KFold2
import proofs.«151745_j68229850464792_1_alg».proof.Proof.Region4
import proofs.«151745_j68229850464792_1_alg».proof.Proof.Region5
import proofs.«151745_j68229850464792_1_alg».proof.Proof.Region6
set_option maxRecDepth 16384

noncomputable section

open Idealize.ShloMosaic Idealize.ShloMosaic.TcCoe Idealize.SL.Sem
open Idealize.ShloMosaic.Pipeline (Dat)

namespace Cert.KernelIdeal.GinFold

open Cert.KernelIdeal Cert.KernelIdeal.Gen

open Cert.Gin Cert.Gin.Ref
open Cert.ReferenceIdeal.Read (val_main_v1 val_main_v3 val_main_v94 val_main_v104 val_main_v105 val_main_v107 val_main_v108 val_main_v111 val_main_v113 val_main_v121 val_main_v127 val_main_v137 val_main_v140 val_main_v143 val_main_v145 val_main_v146 val_main_v149 val_main_v151 val_main_v159 val_main_v165 val_main_v175 val_main_v178 val_main_v181 lhs_main_v4_0 rhs_main_v4_1)

variable (m : (ℓ : Loc nD τ sig) → Buf (Elt Ideal) ℓ) (ρ : Dev nD → PrngReg) (c : Dev nD)

/-! ## After host stretch 4: the neighbourhood sums, the first perceptron layer's weights and bias row -/

theorem W9_v62 : W9 m ρ c (Proc.devRef .tc main_v62) = val_main_v94 (F := Ideal) (a0 m c) (a1 m c) (a3 m c) (a4 m c) (a5 m c) (a6 m c) (a7 m c) (a8 m c) (a9 m c) (a10 m c) (a11 m c) (a12 m c) :=
  (StableHlo.after_of_forall_not_mem (b := Proc.devRef .tc main_v62) _ _ (by not_written hostOps4)).trans (W8_v62 m ρ c)

set_option maxHeartbeats 800000 in
theorem W9_v72 : W9 m ρ c (Proc.devRef .tc main_v72) = val_main_v104 (F := Ideal) (a0 m c) (a1 m c) (a3 m c) (a4 m c) (a5 m c) (a6 m c) (a7 m c) (a8 m c) (a9 m c) (a10 m c) (a11 m c) (a12 m c) := by
  have e0 := W8_v1 m ρ c
  have e1 := W8_v3 m ρ c
  have e2 := W8_v62 m ρ c
  show StableHlo.after hostOps4 (W8 m ρ c) (Proc.devRef .tc main_v72) = _
  generalize W8 m ρ c = U at e0 e1 e2 ⊢
  dsimp only [hostOps4]
  after_results_simp
  rw [e0, e1, e2]
  rfl

theorem W9_v74 : W9 m ρ c (Proc.devRef .tc main_v74) = val_main_v107 (F := Ideal) (a5 m c) := by
  have e0 := W8_arg m ρ c main_arg5 (by simp [argRefs])
  show StableHlo.after hostOps4 (W8 m ρ c) (Proc.devRef .tc main_v74) = _
  generalize W8 m ρ c = U at e0 ⊢
  dsimp only [hostOps4]
  after_results_simp
  rw [e0]
  rfl

theorem W9_v77 : W9 m ρ c (Proc.devRef .tc main_v77) = val_main_v111 (F := Ideal) (a6 m c) := by
  have e0 := W8_arg m ρ c main_arg6 (by simp [argRefs])
  show StableHlo.after hostOps4 (W8 m ρ c) (Proc.devRef .tc main_v77) = _
  generalize W8 m ρ c = U at e0 ⊢
  dsimp only [hostOps4]
  after_results_simp
  rw [e0]
  exact (shapeCast_row _ _).trans (bcast_row _ _).symm

/-! ## After launch 4: the first perceptron layer -/

theorem W10_v78 : W10 m ρ c (Proc.devRef .tc main_v78) = val_main_v113 (F := Ideal) (a0 m c) (a1 m c) (a3 m c) (a4 m c) (a5 m c) (a6 m c) (a7 m c) (a8 m c) (a9 m c) (a10 m c) (a11 m c) (a12 m c) := by
  refine (W10_arr m ρ c 4).trans ?_
  refine (Region4.final (V9 m ρ) dW rfl rfl rfl rfl lhs_main_v4_0 rhs_main_v4_1 c).trans ?_
  show addRow (Host.dotGeneral (φ₁ := .f32) (φ₂ := .f32) dW none
      (addf (W9 m ρ c (Proc.devRef .tc main_v62) : FVec Ideal SN .f32) (W9 m ρ c (Proc.devRef .tc main_v72)))
      (W9 m ρ c (Proc.devRef .tc main_v74))) (W9 m ρ c (Proc.devRef .tc main_v77)) = _
  rw [W9_v62 m ρ c, W9_v72 m ρ c, W9_v74 m ρ c, W9_v77 m ρ c]
  exact (ref_z3 (a0 m c) (a1 m c) (a3 m c) (a4 m c) (a5 m c) (a6 m c) (a7 m c) (a8 m c) (a9 m c) (a10 m c) (a11 m c) (a12 m c)).symm

theorem W10_v62 : W10 m ρ c (Proc.devRef .tc main_v62) = val_main_v94 (F := Ideal) (a0 m c) (a1 m c) (a3 m c) (a4 m c) (a5 m c) (a6 m c) (a7 m c) (a8 m c) (a9 m c) (a10 m c) (a11 m c) (a12 m c) :=
  ((W10_arr m ρ c 0).trans (((dat4 (V9 m ρ) c).arrAt_in 0 rfl _).trans (A_eq4 (V9 m ρ) c 0))).trans (W9_v62 m ρ c)

/-! ## After host stretch 5: the inner normalisation's rows, the second perceptron layer's weights and bias row -/

theorem W11_v78 : W11 m ρ c (Proc.devRef .tc main_v78) = val_main_v113 (F := Ideal) (a0 m c) (a1 m c) (a3 m c) (a4 m c) (a5 m c) (a6 m c) (a7 m c) (a8 m c) (a9 m c) (a10 m c) (a11 m c) (a12 m c) :=
  (StableHlo.after_of_forall_not_mem (b := Proc.devRef .tc main_v78) _ _ (by not_written hostOps5)).trans (W10_v78 m ρ c)

theorem W11_v82 : W11 m ρ c (Proc.devRef .tc main_v82) = val_main_v121 (F := Ideal) (a0 m c) (a1 m c) (a3 m c) (a4 m c) (a5 m c) (a6 m c) (a7 m c) (a8 m c) (a9 m c) (a10 m c) (a11 m c) (a12 m c) := by
  have e0 := W10_v78 m ρ c
  show StableHlo.after hostOps5 (W10 m ρ c) (Proc.devRef .tc main_v82) = _
  generalize W10 m ρ c = U at e0 ⊢
  dsimp only [hostOps5]
  after_results_simp
  rw [e0]
  exact mean_row _ _ _ _ Cert.ReferenceIdeal.Gen.bcast_S_S128

theorem W11_v89 : W11 m ρ c (Proc.devRef .tc main_v89) = asRow (val_main_v127 (F := Ideal) (a0 m c) (a1 m c) (a3 m c) (a4 m c) (a5 m c) (a6 m c) (a7 m c) (a8 m c) (a9 m c) (a10 m c) (a11 m c) (a12 m c)) := by
  have e0 := W10_v78 m ρ c
  show StableHlo.after hostOps5 (W10 m ρ c) (Proc.devRef .tc main_v89) = _
  generalize W10 m ρ c = U at e0 ⊢
  dsimp only [hostOps5]
  after_results_simp
  rw [e0]
  simp only [mean_row _ _ _ _ Cert.ReferenceIdeal.Gen.bcast_S_S128]
  exact bcast_row _ _

theorem W11_v92 : W11 m ρ c (Proc.devRef .tc main_v92) = val_main_v137 (F := Ideal) (a7 m c) := by
  have e0 := W10_arg m ρ c main_arg7 (by simp [argRefs])
  show StableHlo.after hostOps5 (W10 m ρ c) (Proc.devRef .tc main_v92) = _
  generalize W10 m ρ c = U at e0 ⊢
  dsimp only [hostOps5]
  after_results_simp
  rw [e0]
  exact (shapeCast_row _ _).trans (bcast_row _ _).symm

theorem W11_v95 : W11 m ρ c (Proc.devRef .tc main_v95) = val_main_v140 (F := Ideal) (a8 m c) := by
  have e0 := W10_arg m ρ c main_arg8 (by simp [argRefs])
  show StableHlo.after hostOps5 (W10 m ρ c) (Proc.devRef .tc main_v95) = _
  generalize W10 m ρ c = U at e0 ⊢
  dsimp only [hostOps5]
  after_results_simp
  rw [e0]
  exact (shapeCast_row _ _).trans (bcast_row _ _).symm

theorem W11_v97 : W11 m ρ c (Proc.devRef .tc main_v97) = val_main_v145 (F := Ideal) (a9 m c) := by
  have e0 := W10_arg m ρ c main_arg9 (by simp [argRefs])
  show StableHlo.after hostOps5 (W10 m ρ c) (Proc.devRef .tc main_v97) = _
  generalize W10 m ρ c = U at e0 ⊢
  dsimp only [hostOps5]
  after_results_simp
  rw [e0]
  rfl

theorem W11_v100 : W11 m ρ c (Proc.devRef .tc main_v100) = val_main_v149 (F := Ideal) (a10 m c) := by
  have e0 := W10_arg m ρ c main_arg10 (by simp [argRefs])
  show StableHlo.after hostOps5 (W10 m ρ c) (Proc.devRef .tc main_v100) = _
  generalize W10 m ρ c = U at e0 ⊢
  dsimp only [hostOps5]
  after_results_simp
  rw [e0]
  exact (shapeCast_row _ _).trans (bcast_row _ _).symm

/-! ## After launch 5: the second perceptron layer -/

theorem W12_v101 : W12 m ρ c (Proc.devRef .tc main_v101) = val_main_v151 (F := Ideal) (a0 m c) (a1 m c) (a3 m c) (a4 m c) (a5 m c) (a6 m c) (a7 m c) (a8 m c) (a9 m c) (a10 m c) (a11 m c) (a12 m c) := by
  refine (W12_arr m ρ c 7).trans ?_
  refine (Region5.final (V11 m ρ) dW rfl rfl rfl rfl lhs_main_v4_0 rhs_main_v4_1 c).trans ?_
  show addRow (Host.dotGeneral (φ₁ := .f32) (φ₂ := .f32) dW none
      (bnRelu (W11 m ρ c (Proc.devRef .tc main_v78)) (W11 m ρ c (Proc.devRef .tc main_v82)) (W11 m ρ c (Proc.devRef .tc main_v89)) (W11 m ρ c (Proc.devRef .tc main_v92)) (W11 m ρ c (Proc.devRef .tc main_v95)))
      (W11 m ρ c (Proc.devRef .tc main_v97))) (W11 m ρ c (Proc.devRef .tc main_v100)) = _
  rw [W11_v78 m ρ c, W11_v82 m ρ c, W11_v89 m ρ c, W11_v92 m ρ c, W11_v95 m ρ c, W11_v97 m ρ c, W11_v100 m ρ c]
  rw [← ref_a3 (a0 m c) (a1 m c) (a3 m c) (a4 m c) (a5 m c) (a6 m c) (a7 m c) (a8 m c) (a9 m c) (a10 m c) (a11 m c) (a12 m c)]
  exact (ref_z4 (a0 m c) (a1 m c) (a3 m c) (a4 m c) (a5 m c) (a6 m c) (a7 m c) (a8 m c) (a9 m c) (a10 m c) (a11 m c) (a12 m c)).symm

/-! ## After host stretch 6: the outer normalisation's rows -/

theorem W13_v101 : W13 m ρ c (Proc.devRef .tc main_v101) = val_main_v151 (F := Ideal) (a0 m c) (a1 m c) (a3 m c) (a4 m c) (a5 m c) (a6 m c) (a7 m c) (a8 m c) (a9 m c) (a10 m c) (a11 m c) (a12 m c) :=
  (StableHlo.after_of_forall_not_mem (b := Proc.devRef .tc main_v101) _ _ (by not_written hostOps6)).trans (W12_v101 m ρ c)

theorem W13_v105 : W13 m ρ c (Proc.devRef .tc main_v105) = val_main_v159 (F := Ideal) (a0 m c) (a1 m c) (a3 m c) (a4 m c) (a5 m c) (a6 m c) (a7 m c) (a8 m c) (a9 m c) (a10 m c) (a11 m c) (a12 m c) := by
  have e0 := W12_v101 m ρ c
  show StableHlo.after hostOps6 (W12 m ρ c) (Proc.devRef .tc main_v105) = _
  generalize W12 m ρ c = U at e0 ⊢
  dsimp only [hostOps6]
  after_results_simp
  rw [e0]
  exact mean_row _ _ _ _ Cert.ReferenceIdeal.Gen.bcast_S_S128

theorem W13_v112 : W13 m ρ c (Proc.devRef .tc main_v112) = asRow (val_main_v165 (F := Ideal) (a0 m c) (a1 m c) (a3 m c) (a4 m c) (a5 m c) (a6 m c) (a7 m c) (a8 m c) (a9 m c) (a10 m c) (a11 m c) (a12 m c)) := by
  have e0 := W12_v101 m ρ c
  show StableHlo.after hostOps6 (W12 m ρ c) (Proc.devRef .tc main_v112) = _
  generalize W12 m ρ c = U at e0 ⊢
  dsimp only [hostOps6]
  after_results_simp
  rw [e0]
  simp only [mean_row _ _ _ _ Cert.ReferenceIdeal.Gen.bcast_S_S128]
  exact bcast_row _ _

theorem W13_v115 : W13 m ρ c (Proc.devRef .tc main_v115) = val_main_v175 (F := Ideal) (a11 m c) := by
  have e0 := W12_arg m ρ c main_arg11 (by simp [argRefs])
  show StableHlo.after hostOps6 (W12 m ρ c) (Proc.devRef .tc main_v115) = _
  generalize W12 m ρ c = U at e0 ⊢
  dsimp only [hostOps6]
  after_results_simp
  rw [e0]
  exact (shapeCast_row _ _).trans (bcast_row _ _).symm

theorem W13_v118 : W13 m ρ c (Proc.devRef .tc main_v118) = val_main_v178 (F := Ideal) (a12 m c) := by
  have e0 := W12_arg m ρ c main_arg12 (by simp [argRefs])
  show StableHlo.after hostOps6 (W12 m ρ c) (Proc.devRef .tc main_v118) = _
  generalize W12 m ρ c = U at e0 ⊢
  dsimp only [hostOps6]
  after_results_simp
  rw [e0]
  exact (shapeCast_row _ _).trans (bcast_row _ _).symm

/-! ## After launch 6: the layer's output -/

theorem W14_v119 : W14 m ρ c (Proc.devRef .tc main_v119) = val_main_v181 (F := Ideal) (a0 m c) (a1 m c) (a3 m c) (a4 m c) (a5 m c) (a6 m c) (a7 m c) (a8 m c) (a9 m c) (a10 m c) (a11 m c) (a12 m c) := by
  refine (W14_arr m ρ c 5).trans ?_
  refine (Region6.final (V13 m ρ) c).trans ?_
  show bnRelu (W13 m ρ c (Proc.devRef .tc main_v101)) (W13 m ρ c (Proc.devRef .tc main_v105)) (W13 m ρ c (Proc.devRef .tc main_v112)) (W13 m ρ c (Proc.devRef .tc main_v115)) (W13 m ρ c (Proc.devRef .tc main_v118)) = _
  rw [W13_v101 m ρ c, W13_v105 m ρ c, W13_v112 m ρ c, W13_v115 m ρ c, W13_v118 m ρ c]
  exact (ref_h2 (a0 m c) (a1 m c) (a3 m c) (a4 m c) (a5 m c) (a6 m c) (a7 m c) (a8 m c) (a9 m c) (a10 m c) (a11 m c) (a12 m c)).symm

/-! ## The first layer's output, carried to the end of the second layer -/

theorem W11_v62 : W11 m ρ c (Proc.devRef .tc main_v62) = val_main_v94 (F := Ideal) (a0 m c) (a1 m c) (a3 m c) (a4 m c) (a5 m c) (a6 m c) (a7 m c) (a8 m c) (a9 m c) (a10 m c) (a11 m c) (a12 m c) :=
  (StableHlo.after_of_forall_not_mem (b := Proc.devRef .tc main_v62) _ _ (by not_written hostOps5)).trans (W10_v62 m ρ c)
theorem W12_v62 : W12 m ρ c (Proc.devRef .tc main_v62) = val_main_v94 (F := Ideal) (a0 m c) (a1 m c) (a3 m c) (a4 m c) (a5 m c) (a6 m c) (a7 m c) (a8 m c) (a9 m c) (a10 m c) (a11 m c) (a12 m c) :=
  (W12_of_ne m ρ c main_v62 (by decide)).trans (W11_v62 m ρ c)
theorem W13_v62 : W13 m ρ c (Proc.devRef .tc main_v62) = val_main_v94 (F := Ideal) (a0 m c) (a1 m c) (a3 m c) (a4 m c) (a5 m c) (a6 m c) (a7 m c) (a8 m c) (a9 m c) (a10 m c) (a11 m c) (a12 m c) :=
  (StableHlo.after_of_forall_not_mem (b := Proc.devRef .tc main_v62) _ _ (by not_written hostOps6)).trans (W12_v62 m ρ c)
theorem W14_v62 : W14 m ρ c (Proc.devRef .tc main_v62) = val_main_v94 (F := Ideal) (a0 m c) (a1 m c) (a3 m c) (a4 m c) (a5 m c) (a6 m c) (a7 m c) (a8 m c) (a9 m c) (a10 m c) (a11 m c) (a12 m c) :=
  (W14_of_ne m ρ c main_v62 (by decide)).trans (W13_v62 m ρ c)

end Cert.KernelIdeal.GinFold

end
-- ==== Proof.Region7.lean ====
/-
  The final projection, in one piece.  The single grid point multiplies the whole 512 × 256 matrix with the whole column
  of 256 weights and adds the one bias to every entry; every window is its whole array, so the array written is the
  whole product with the bias added.
-/
import proofs.«151745_j68229850464792_1_alg».proof.Proof.Gen.KernelIdeal.Frame
import proofs.«151745_j68229850464792_1_alg».proof.Proof.Stages
import proofs.«151745_j68229850464792_1_alg».proof.Proof.LibMatRows
import Idealize.ShloMosaic.Lib.Pipeline.Value
import Idealize.ShloMosaic.Lib.ValueLayout

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Region7

open Cert.KernelIdeal Cert.KernelIdeal.Gen Cert.Gin

variable (V : (c : Dev nD) → (b : Ref sig .tc) → Buf (Elt Ideal) ((c : Thread nD τ).loc b))

theorem hz : (![0, 0] : Fin 2 → Nat) = fun _ => 0 := funext fun a => by fin_cases a <;> rfl

/-- The product's record: the left operand's free axis is the result's first axis. -/
theorem dB_l0 (j : S512x1.Idx) (k : dot_S512x256_S256x1_S512x1_1_0_0_1_n_n.contr.Idx) :
    (dot_S512x256_S256x1_S512x1_1_0_0_1_n_n.lhsIdx j k 0).val = (j 0).val := by
  unfold DotDims.lhsIdx
  rw [dif_neg (show ¬(0 : Fin S512x256.rank) ∈ dot_S512x256_S256x1_S512x1_1_0_0_1_n_n.lhsBatch by decide), dif_pos (show (0 : Fin S512x256.rank) ∈ dot_S512x256_S256x1_S512x1_1_0_0_1_n_n.lhsNonContracting by decide)]
  rfl
/-- The right operand's free axis is the result's second axis. -/
theorem dB_r1 (j : S512x1.Idx) (k : dot_S512x256_S256x1_S512x1_1_0_0_1_n_n.contr.Idx) :
    (dot_S512x256_S256x1_S512x1_1_0_0_1_n_n.rhsIdx j k 1).val = (j 1).val := by
  unfold DotDims.rhsIdx
  rw [dif_neg (show ¬(1 : Fin S256x1.rank) ∈ dot_S512x256_S256x1_S512x1_1_0_0_1_n_n.rhsBatch by decide), dif_pos (show (1 : Fin S256x1.rank) ∈ dot_S512x256_S256x1_S512x1_1_0_0_1_n_n.rhsNonContracting by decide)]
  rfl

/-- One entry of the result: the product's entry plus the one bias. -/
theorem pay_entry (d7 : DotDims ⟨2, ![512, 256]⟩ ⟨2, ![256, 1]⟩ ⟨2, ![512, 1]⟩) (hr7 : d7.contr.rank = 1) (hs7 : d7.contr.size ⟨0, by omega⟩ = 256)
    (hlc7 : d7.lhsContracting = [1]) (hrc7 : d7.rhsContracting = [0])
    (hl07 : ∀ j k, (d7.lhsIdx j k 0).val = (j 0).val) (hr17 : ∀ j k, (d7.rhsIdx j k 1).val = (j 1).val)
    (X : FVec Ideal S512x256 .f32) (W : FVec Ideal S256x1 .f32) (b : FVec Ideal S1x1 .f32) (p : Fin 512) (q : Fin 1) :
    k7_pay1 X W b (ix2 p q) = Host.dotGeneral d7 none X W (ix2 p q) + b (ix2 (0 : Fin 1) (0 : Fin 1)) := by
  obtain rfl : q = 0 := Subsingleton.elim _ _
  unfold k7_pay1
  simp only [shapeCast_self]
  show _ + _ = Host.dotGeneral d7 none X W (ix2 p (0 : Fin 1)) + b (ix2 (0 : Fin 1) (0 : Fin 1))
  refine congrArg₂ (· + ·) ?_ ?_
  · exact Cert.LibMatRows.block_entry dot_S512x256_S256x1_S512x1_1_0_0_1_n_n d7 rfl rfl rfl rfl dB_l0 dB_r1
      hr7 hs7 hlc7 hrc7 hl07 hr17 X W _ _ p (0 : Fin 1) p (fun k => rfl) (fun k => rfl)
  · exact broadcastTo_1b_ab_apply b broadcasts_S1x1_S512x1 p (0 : Fin 1)

/-- The printed index maps at the one grid point: every window starts at the origin. -/
theorem idx_facts : ∀ t : Fin cfg7.N, win7_0.index t (0 : Fin 2) = 0 ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = 0 ∧ win7_3.index t (1 : Fin 2) = 0 :=
  (by decide +kernel : ∀ t : Fin grid7.N, _)

/-- Window 0's block is its whole array (the matrix). -/
theorem blk0 (c : Dev nD) (t : Fin cfg7.N) : iblk7 V c 0 t = V c main_v132 := by
  obtain ⟨e0, e1, e2, e3, e4, e5, e6, e7⟩ := idx_facts t
  funext y
  show V c main_v132 (((cfg7.win 0).blk t).view.emb y) = V c main_v132 y
  refine congrArg _ (funext fun a => Fin.ext ?_)
  match a with
  | ⟨0, _⟩ => show win7_0.index t (0 : Fin 2) * 512 + 1 * (y 0).val = (y 0).val; omega
  | ⟨1, _⟩ => show win7_0.index t (1 : Fin 2) * 256 + 1 * (y 1).val = (y 1).val; omega

/-- Window 1's block is its whole array (the column of weights). -/
theorem blk1 (c : Dev nD) (t : Fin cfg7.N) : iblk7 V c 1 t = V c main_arg13 := by
  obtain ⟨e0, e1, e2, e3, e4, e5, e6, e7⟩ := idx_facts t
  funext y
  show V c main_arg13 (((cfg7.win 1).blk t).view.emb y) = V c main_arg13 y
  refine congrArg _ (funext fun a => Fin.ext ?_)
  match a with
  | ⟨0, _⟩ => show win7_1.index t (0 : Fin 2) * 256 + 1 * (y 0).val = (y 0).val; omega
  | ⟨1, _⟩ => show win7_1.index t (1 : Fin 2) * 1 + 1 * (y 1).val = (y 1).val; omega

/-- Window 2's block is its whole array (the one bias). -/
theorem blk2 (c : Dev nD) (t : Fin cfg7.N) : iblk7 V c 2 t = V c main_v133 := by
  obtain ⟨e0, e1, e2, e3, e4, e5, e6, e7⟩ := idx_facts t
  funext y
  show V c main_v133 (((cfg7.win 2).blk t).view.emb y) = V c main_v133 y
  refine congrArg _ (funext fun a => Fin.ext ?_)
  match a with
  | ⟨0, _⟩ => show win7_2.index t (0 : Fin 2) * 1 + 1 * (y 0).val = (y 0).val; omega
  | ⟨1, _⟩ => show win7_2.index t (1 : Fin 2) * 1 + 1 * (y 1).val = (y 1).val; omega

/-- What the one point writes back is the whole result. -/
theorem flushed_eq (d7 : DotDims ⟨2, ![512, 256]⟩ ⟨2, ![256, 1]⟩ ⟨2, ![512, 1]⟩) (hr7 : d7.contr.rank = 1) (hs7 : d7.contr.size ⟨0, by omega⟩ = 256)
    (hlc7 : d7.lhsContracting = [1]) (hrc7 : d7.rhsContracting = [0])
    (hl07 : ∀ j k, (d7.lhsIdx j k 0).val = (j 0).val) (hr17 : ∀ j k, (d7.rhsIdx j k 1).val = (j 1).val) (c : Dev nD) (t : Fin cfg7.N) :
    (dat7 V c).flushed 3 t = ((cfg7.win 3).blk t).view.read (Elt Ideal)
      (fun i => Host.dotGeneral (F := Ideal) (φ₁ := .f32) (φ₂ := .f32) d7 none (V c main_v132) (V c main_arg13) i + (V c main_v133 : FVec Ideal ⟨2, ![1, 1]⟩ .f32) (ix2 (0 : Fin 1) (0 : Fin 1))) := by
  show (cfg7.win 3).cut (grid7.coords t) ((dat7 V c).after 3 t) = _
  rw [after7_3]
  unfold out7_3
  rw [View.canon_unit_zero hz]
  simp only [View.ld_unit_zero (S := S512x256) hz, View.ld_unit_zero (S := S256x1) hz, View.ld_unit_zero (S := S1x1) hz]
  rw [blk0, blk1, blk2]
  obtain ⟨e0, e1, e2, e3, e4, e5, e6, e7⟩ := idx_facts t
  funext j
  obtain ⟨p, q, rfl⟩ : ∃ (p : Fin 512) (q : Fin 1), j = ix2 p q := ⟨j 0, j 1, eq_ix2 j⟩
  have hemb : ((cfg7.win 3).blk t).view.emb (ix2 p q) = ix2 p q := by
    funext a; apply Fin.ext
    match a with
    | ⟨0, _⟩ => show win7_3.index t (0 : Fin 2) * 512 + 1 * p.val = p.val; omega
    | ⟨1, _⟩ => show win7_3.index t (1 : Fin 2) * 1 + 1 * q.val = q.val; omega
  show k7_pay1 (V c main_v132) (V c main_arg13) (V c main_v133) (ix2 p q) = (fun i => Host.dotGeneral (F := Ideal) (φ₁ := .f32) (φ₂ := .f32) d7 none (V c main_v132) (V c main_arg13) i + (V c main_v133 : FVec Ideal ⟨2, ![1, 1]⟩ .f32) (ix2 (0 : Fin 1) (0 : Fin 1))) (((cfg7.win 3).blk t).view.emb (ix2 p q))
  rw [hemb]
  exact pay_entry d7 hr7 hs7 hlc7 hrc7 hl07 hr17 (V c main_v132) (V c main_arg13) (V c main_v133) p q

/-- An index of the array is in the point's block iff each coordinate is in the block's range on its axis. -/
theorem mem_blk (t : Fin cfg7.N) (i : S512x1.Idx) :
    i ∈ ((cfg7.win 3).blk t).view.set ↔ ∀ a : Fin 2, win7_3.index t a * S512x1.size a ≤ (i a).val ∧ (i a).val < win7_3.index t a * S512x1.size a + S512x1.size a := by
  show i ∈ ((View.whole main_v134).slice (win7_3.rect t)).set ↔ _
  rw [View.set_slice_whole, Rect.mem_set_unit]
  exact Iff.rfl

/-- Every entry is in the one point's block. -/
theorem cover (i : S512x1.Idx) : ∃ t : Fin cfg7.N, (cfg7.win 3).flush t = true ∧ i ∈ ((cfg7.win 3).blk t).view.set := by
  have hi0 : (i 0).val < 512 := (i 0).isLt
  have hi1 : (i 1).val < 1 := (i 1).isLt
  have hN : cfg7.N = 1 := N_7
  let t : Fin cfg7.N := ⟨0, by rw [hN]; omega⟩
  obtain ⟨e0, e1, e2, e3, e4, e5, e6, e7⟩ := idx_facts t
  refine ⟨t, flush7_3 t, ?_⟩
  rw [mem_blk]
  intro a
  match a with
  | ⟨0, _⟩ => show win7_3.index t (0 : Fin 2) * 512 ≤ (i 0).val ∧ (i 0).val < win7_3.index t (0 : Fin 2) * 512 + 512; omega
  | ⟨1, _⟩ => show win7_3.index t (1 : Fin 2) * 1 ≤ (i 1).val ∧ (i 1).val < win7_3.index t (1 : Fin 2) * 1 + 1; omega

/-- The array the launch leaves: the whole product of the matrix with the column of weights, the one bias added to every entry. -/
theorem final (d7 : DotDims ⟨2, ![512, 256]⟩ ⟨2, ![256, 1]⟩ ⟨2, ![512, 1]⟩) (hr7 : d7.contr.rank = 1) (hs7 : d7.contr.size ⟨0, by omega⟩ = 256)
    (hlc7 : d7.lhsContracting = [1]) (hrc7 : d7.rhsContracting = [0])
    (hl07 : ∀ j k, (d7.lhsIdx j k 0).val = (j 0).val) (hr17 : ∀ j k, (d7.rhsIdx j k 1).val = (j 1).val) (c : Dev nD) :
    (dat7 V c).arrAt 3 cfg7.N = fun i => Host.dotGeneral (F := Ideal) (φ₁ := .f32) (φ₂ := .f32) d7 none (V c main_v132) (V c main_arg13) i + (V c main_v133 : FVec Ideal ⟨2, ![1, 1]⟩ .f32) (ix2 (0 : Fin 1) (0 : Fin 1)) :=
  (dat7 V c).arrAt_eq_of_cover 3 _ (fun t _ => flushed_eq V d7 hr7 hs7 hlc7 hrc7 hl07 hr17 c t) cover

end Cert.KernelIdeal.Region7

end
-- ==== Proof.KFold4.lean ====
/-
  The read-out.  The two layers' outputs are joined, summed per graph and divided by the graph sizes by the same
  host operations in both programs; the last launch multiplies the pooled features with the read-out weights and adds
  the one bias.  So the result buffer holds the reference's result of the arguments.
-/
import proofs.«151745_j68229850464792_1_alg».proof.Proof.Gen.KernelIdeal.Frame
import proofs.«151745_j68229850464792_1_alg».proof.Proof.KFold3
import proofs.«151745_j68229850464792_1_alg».proof.Proof.Region7
set_option maxRecDepth 16384

noncomputable section

open Idealize.ShloMosaic Idealize.ShloMosaic.TcCoe Idealize.SL.Sem
open Idealize.ShloMosaic.Pipeline (Dat)

namespace Cert.KernelIdeal.GinFold

open Cert.KernelIdeal Cert.KernelIdeal.Gen

open Cert.Gin Cert.Gin.Ref
open Cert.ReferenceIdeal.Read (val_main_v94 val_main_v181 val_main_v194 val_main_v195 val_main_v196 val_main_v198 lhs_main_v195_0 rhs_main_v195_1)

variable (m : (ℓ : Loc nD τ sig) → Buf (Elt Ideal) ℓ) (ρ : Dev nD → PrngReg) (c : Dev nD)

/-- The reference's record of a product of a [512,256] matrix with a [256,1] matrix. -/
abbrev d7 := Cert.ReferenceIdeal.dot_S512x256_S256x1_S512x1_1_0_0_1_n_n

set_option maxHeartbeats 800000 in
theorem W15_v132 : W15 m ρ c (Proc.devRef .tc main_v132) = val_main_v194 (F := Ideal) (a0 m c) (a1 m c) (a2 m c) (a3 m c) (a4 m c) (a5 m c) (a6 m c) (a7 m c) (a8 m c) (a9 m c) (a10 m c) (a11 m c) (a12 m c) := by
  have e0 := W14_v62 m ρ c
  have e1 := W14_v119 m ρ c
  have e2 := W14_arg m ρ c main_arg2 (by simp [argRefs])
  show StableHlo.after hostOps7 (W14 m ρ c) (Proc.devRef .tc main_v132) = _
  generalize W14 m ρ c = U at e0 e1 e2 ⊢
  dsimp only [hostOps7]
  after_results_simp
  rw [e0, e1, e2]
  rfl

theorem W15_v133 : W15 m ρ c (Proc.devRef .tc main_v133) = val_main_v196 (F := Ideal) (a14 m c) := by
  have e0 := W14_arg m ρ c main_arg14 (by simp [argRefs])
  show StableHlo.after hostOps7 (W14 m ρ c) (Proc.devRef .tc main_v133) = _
  generalize W14 m ρ c = U at e0 ⊢
  dsimp only [hostOps7]
  after_results_simp
  rw [e0]
  exact one_by_one _ _ _

/-- The result buffer after the last launch holds the reference's result of the arguments. -/
theorem W16_v134 : W16 m ρ c (Proc.devRef .tc main_v134) = val_main_v198 (F := Ideal) (a0 m c) (a1 m c) (a2 m c) (a3 m c) (a4 m c) (a5 m c) (a6 m c) (a7 m c) (a8 m c) (a9 m c) (a10 m c) (a11 m c) (a12 m c) (a13 m c) (a14 m c) := by
  refine (W16_arr m ρ c 3).trans ?_
  refine (Region7.final (V15 m ρ) d7 rfl rfl rfl rfl lhs_main_v195_0 rhs_main_v195_1 c).trans ?_
  show (fun i => Host.dotGeneral (F := Ideal) (φ₁ := .f32) (φ₂ := .f32) d7 none (W15 m ρ c (Proc.devRef .tc main_v132)) (W15 m ρ c (Proc.devRef .tc main_arg13)) i
      + (W15 m ρ c (Proc.devRef .tc main_v133) : FVec Ideal ⟨2, ![1, 1]⟩ .f32) (ValueIdx.ix2 (0 : Fin 1) (0 : Fin 1))) = _
  rw [W15_v132 m ρ c, W15_arg m ρ c main_arg13 (by simp [argRefs]), W15_v133 m ρ c]
  exact (ref_out (a0 m c) (a1 m c) (a2 m c) (a3 m c) (a4 m c) (a5 m c) (a6 m c) (a7 m c) (a8 m c) (a9 m c) (a10 m c) (a11 m c) (a12 m c) (a13 m c) (a14 m c)).symm

end Cert.KernelIdeal.GinFold

end
-- ==== Proof.RefFold.lean ====
/-
  The reference program's run, read one stretch of operations at a time.

  The program is a list of host operations; what a buffer holds at the end is the fold of the operations over the
  launch contents.  The list is cut into ten consecutive stretches.  At each cut the contents of the few buffers a
  later stretch still reads are named: the fifteen arguments, which no operation writes, and the stretch's outputs,
  each equal to the value the reading module defines for it as a function of the arguments.  A stretch is read
  against the names at the cut before it, so no value is ever spelt out twice.
-/
import proofs.«151745_j68229850464792_1_alg».proof.Proof.RefRun
import proofs.«151745_j68229850464792_1_alg».proof.Proof.RefRead

noncomputable section

namespace Cert.Gin.RefFold

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable (m : (ℓ : Loc nD τ sig) → Buf (Elt Ideal) ℓ) (c : Dev nD)

set_option quotPrecheck false in
local notation "A0" => m ((c.tc : Thread nD τ).loc main_arg0)
set_option quotPrecheck false in
local notation "A1" => m ((c.tc : Thread nD τ).loc main_arg1)
set_option quotPrecheck false in
local notation "A2" => m ((c.tc : Thread nD τ).loc main_arg2)
set_option quotPrecheck false in
local notation "A3" => m ((c.tc : Thread nD τ).loc main_arg3)
set_option quotPrecheck false in
local notation "A4" => m ((c.tc : Thread nD τ).loc main_arg4)
set_option quotPrecheck false in
local notation "A5" => m ((c.tc : Thread nD τ).loc main_arg5)
set_option quotPrecheck false in
local notation "A6" => m ((c.tc : Thread nD τ).loc main_arg6)
set_option quotPrecheck false in
local notation "A7" => m ((c.tc : Thread nD τ).loc main_arg7)
set_option quotPrecheck false in
local notation "A8" => m ((c.tc : Thread nD τ).loc main_arg8)
set_option quotPrecheck false in
local notation "A9" => m ((c.tc : Thread nD τ).loc main_arg9)
set_option quotPrecheck false in
local notation "A10" => m ((c.tc : Thread nD τ).loc main_arg10)
set_option quotPrecheck false in
local notation "A11" => m ((c.tc : Thread nD τ).loc main_arg11)
set_option quotPrecheck false in
local notation "A12" => m ((c.tc : Thread nD τ).loc main_arg12)
set_option quotPrecheck false in
local notation "A13" => m ((c.tc : Thread nD τ).loc main_arg13)
set_option quotPrecheck false in
local notation "A14" => m ((c.tc : Thread nD τ).loc main_arg14)

/-- The argument buffers. -/
abbrev argRefs : List (Ref sig .tc) := [main_arg0, main_arg1, main_arg2, main_arg3, main_arg4, main_arg5, main_arg6, main_arg7, main_arg8, main_arg9, main_arg10, main_arg11, main_arg12, main_arg13, main_arg14]

/-- The contents at launch. -/
def U0 : Valuation τ sig (Elt Ideal) := launchContents m c
/-- The contents after the first stretch. -/
def U1 : Valuation τ sig (Elt Ideal) := after ops1 (U0 m c)
/-- The contents after the first 2 stretches. -/
def U2 : Valuation τ sig (Elt Ideal) := after ops2 (U1 m c)
/-- The contents after the first 3 stretches. -/
def U3 : Valuation τ sig (Elt Ideal) := after ops3 (U2 m c)
/-- The contents after the first 4 stretches. -/
def U4 : Valuation τ sig (Elt Ideal) := after ops4 (U3 m c)
/-- The contents after the first 5 stretches. -/
def U5 : Valuation τ sig (Elt Ideal) := after ops5 (U4 m c)
/-- The contents after the first 6 stretches. -/
def U6 : Valuation τ sig (Elt Ideal) := after ops6 (U5 m c)
/-- The contents after the first 7 stretches. -/
def U7 : Valuation τ sig (Elt Ideal) := after ops7 (U6 m c)
/-- The contents after the first 8 stretches. -/
def U8 : Valuation τ sig (Elt Ideal) := after ops8 (U7 m c)
/-- The contents after the first 9 stretches. -/
def U9 : Valuation τ sig (Elt Ideal) := after ops9 (U8 m c)
/-- The contents after the first 10 stretches. -/
def U10 : Valuation τ sig (Elt Ideal) := after ops10 (U9 m c)

/-- The fold over the whole program is the fold over the ten stretches in turn. -/
theorem fold_eq : after ops (launchContents m c) = U10 m c := by
  simp only [ops, StableHlo.after_append]
  rfl

/-- A buffer that no operation of a literal stretch writes: the buffer differs from each operation's result buffer. -/
local macro "not_written" l:ident : tactic =>
  `(tactic| exact List.forall_iff_forall_mem.mp (by
      simp only [$l:ident, List.Forall, StableHlo.nullary_writes, StableHlo.unary_writes, StableHlo.binary_writes,
        StableHlo.ternary_writes, StableHlo.quaternary_writes, StableHlo.reshape_writes, StableHlo.binaryIndexed_writes,
        Finset.mem_singleton]
      repeat' apply And.intro
      all_goals exact StableHlo.devRef_ne_of_ne (by decide)))

/-- At launch an argument's buffer holds the argument. -/
theorem U0_arg (a : Ref sig .tc) (ha : a ∈ argRefs) : U0 m c (Proc.devRef .tc a) = m ((c.tc : Thread nD τ).loc a) := rfl
/-- No operation of stretch 1 writes an argument. -/
theorem U1_arg (a : Ref sig .tc) (ha : a ∈ argRefs) : U1 m c (Proc.devRef .tc a) = m ((c.tc : Thread nD τ).loc a) := by
  have h : ∀ op ∈ (ops1 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops1
  exact (after_of_forall_not_mem ops1 (U0 m c) h).trans (U0_arg m c a ha)
/-- Stretch 1 leaves at the buffer of value 1 that value, as the reading module defines it. -/
theorem U1_v1 : U1 m c (Proc.devRef .tc main_v1) = val_main_v1 (F := Ideal) A1 := by
  show after ops1 (U0 m c) _ = _
  after_results_simp
  simp only [U0_arg m c main_arg1 (by decide)]
  rfl
/-- Stretch 1 leaves at the buffer of value 3 that value, as the reading module defines it. -/
theorem U1_v3 : U1 m c (Proc.devRef .tc main_v3) = val_main_v3 (F := Ideal) A1 := by
  show after ops1 (U0 m c) _ = _
  after_results_simp
  simp only [U0_arg m c main_arg1 (by decide)]
  rfl
/-- Stretch 1 leaves at the buffer of value 7 that value, as the reading module defines it. -/
theorem U1_v7 : U1 m c (Proc.devRef .tc main_v7) = val_main_v7 (F := Ideal) A0 A3 A4 := by
  show after ops1 (U0 m c) _ = _
  after_results_simp
  simp only [U0_arg m c main_arg0 (by decide), U0_arg m c main_arg3 (by decide), U0_arg m c main_arg4 (by decide)]
  rfl
/-- No operation of stretch 2 writes an argument. -/
theorem U2_arg (a : Ref sig .tc) (ha : a ∈ argRefs) : U2 m c (Proc.devRef .tc a) = m ((c.tc : Thread nD τ).loc a) := by
  have h : ∀ op ∈ (ops2 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops2
  exact (after_of_forall_not_mem ops2 (U1 m c) h).trans (U1_arg m c a ha)
/-- Stretch 2 does not write the buffer of value 1. -/
theorem U2_v1 : U2 m c (Proc.devRef .tc main_v1) = val_main_v1 (F := Ideal) A1 :=
  (after_of_forall_not_mem ops2 (U1 m c) (by not_written ops2)).trans (U1_v1 m c)
/-- Stretch 2 does not write the buffer of value 3. -/
theorem U2_v3 : U2 m c (Proc.devRef .tc main_v3) = val_main_v3 (F := Ideal) A1 :=
  (after_of_forall_not_mem ops2 (U1 m c) (by not_written ops2)).trans (U1_v3 m c)
/-- Stretch 2 leaves at the buffer of value 26 that value, as the reading module defines it. -/
theorem U2_v26 : U2 m c (Proc.devRef .tc main_v26) = val_main_v26 (F := Ideal) A0 A1 A3 A4 A5 A6 := by
  show after ops2 (U1 m c) _ = _
  after_results_simp
  simp only [U1_v1 m c, U1_v3 m c, U1_v7 m c, U1_arg m c main_arg5 (by decide), U1_arg m c main_arg6 (by decide)]
  rfl
/-- No operation of stretch 3 writes an argument. -/
theorem U3_arg (a : Ref sig .tc) (ha : a ∈ argRefs) : U3 m c (Proc.devRef .tc a) = m ((c.tc : Thread nD τ).loc a) := by
  have h : ∀ op ∈ (ops3 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops3
  exact (after_of_forall_not_mem ops3 (U2 m c) h).trans (U2_arg m c a ha)
/-- Stretch 3 does not write the buffer of value 1. -/
theorem U3_v1 : U3 m c (Proc.devRef .tc main_v1) = val_main_v1 (F := Ideal) A1 :=
  (after_of_forall_not_mem ops3 (U2 m c) (by not_written ops3)).trans (U2_v1 m c)
/-- Stretch 3 does not write the buffer of value 3. -/
theorem U3_v3 : U3 m c (Proc.devRef .tc main_v3) = val_main_v3 (F := Ideal) A1 :=
  (after_of_forall_not_mem ops3 (U2 m c) (by not_written ops3)).trans (U2_v3 m c)
/-- Stretch 3 leaves at the buffer of value 56 that value, as the reading module defines it. -/
theorem U3_v56 : U3 m c (Proc.devRef .tc main_v56) = val_main_v56 (F := Ideal) A0 A1 A3 A4 A5 A6 A7 A8 := by
  show after ops3 (U2 m c) _ = _
  after_results_simp
  simp only [U2_v26 m c, U2_arg m c main_arg7 (by decide), U2_arg m c main_arg8 (by decide)]
  rfl
/-- No operation of stretch 4 writes an argument. -/
theorem U4_arg (a : Ref sig .tc) (ha : a ∈ argRefs) : U4 m c (Proc.devRef .tc a) = m ((c.tc : Thread nD τ).loc a) := by
  have h : ∀ op ∈ (ops4 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops4
  exact (after_of_forall_not_mem ops4 (U3 m c) h).trans (U3_arg m c a ha)
/-- Stretch 4 does not write the buffer of value 1. -/
theorem U4_v1 : U4 m c (Proc.devRef .tc main_v1) = val_main_v1 (F := Ideal) A1 :=
  (after_of_forall_not_mem ops4 (U3 m c) (by not_written ops4)).trans (U3_v1 m c)
/-- Stretch 4 does not write the buffer of value 3. -/
theorem U4_v3 : U4 m c (Proc.devRef .tc main_v3) = val_main_v3 (F := Ideal) A1 :=
  (after_of_forall_not_mem ops4 (U3 m c) (by not_written ops4)).trans (U3_v3 m c)
/-- Stretch 4 leaves at the buffer of value 64 that value, as the reading module defines it. -/
theorem U4_v64 : U4 m c (Proc.devRef .tc main_v64) = val_main_v64 (F := Ideal) A0 A1 A3 A4 A5 A6 A7 A8 A9 A10 := by
  show after ops4 (U3 m c) _ = _
  after_results_simp
  simp only [U3_v56 m c, U3_arg m c main_arg9 (by decide), U3_arg m c main_arg10 (by decide)]
  rfl
/-- No operation of stretch 5 writes an argument. -/
theorem U5_arg (a : Ref sig .tc) (ha : a ∈ argRefs) : U5 m c (Proc.devRef .tc a) = m ((c.tc : Thread nD τ).loc a) := by
  have h : ∀ op ∈ (ops5 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops5
  exact (after_of_forall_not_mem ops5 (U4 m c) h).trans (U4_arg m c a ha)
/-- Stretch 5 does not write the buffer of value 1. -/
theorem U5_v1 : U5 m c (Proc.devRef .tc main_v1) = val_main_v1 (F := Ideal) A1 :=
  (after_of_forall_not_mem ops5 (U4 m c) (by not_written ops5)).trans (U4_v1 m c)
/-- Stretch 5 does not write the buffer of value 3. -/
theorem U5_v3 : U5 m c (Proc.devRef .tc main_v3) = val_main_v3 (F := Ideal) A1 :=
  (after_of_forall_not_mem ops5 (U4 m c) (by not_written ops5)).trans (U4_v3 m c)
/-- Stretch 5 leaves at the buffer of value 94 that value, as the reading module defines it. -/
theorem U5_v94 : U5 m c (Proc.devRef .tc main_v94) = val_main_v94 (F := Ideal) A0 A1 A3 A4 A5 A6 A7 A8 A9 A10 A11 A12 := by
  show after ops5 (U4 m c) _ = _
  after_results_simp
  simp only [U4_v64 m c, U4_arg m c main_arg11 (by decide), U4_arg m c main_arg12 (by decide)]
  rfl
/-- No operation of stretch 6 writes an argument. -/
theorem U6_arg (a : Ref sig .tc) (ha : a ∈ argRefs) : U6 m c (Proc.devRef .tc a) = m ((c.tc : Thread nD τ).loc a) := by
  have h : ∀ op ∈ (ops6 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops6
  exact (after_of_forall_not_mem ops6 (U5 m c) h).trans (U5_arg m c a ha)
/-- Stretch 6 does not write the buffer of value 94. -/
theorem U6_v94 : U6 m c (Proc.devRef .tc main_v94) = val_main_v94 (F := Ideal) A0 A1 A3 A4 A5 A6 A7 A8 A9 A10 A11 A12 :=
  (after_of_forall_not_mem ops6 (U5 m c) (by not_written ops6)).trans (U5_v94 m c)
/-- Stretch 6 leaves at the buffer of value 113 that value, as the reading module defines it. -/
theorem U6_v113 : U6 m c (Proc.devRef .tc main_v113) = val_main_v113 (F := Ideal) A0 A1 A3 A4 A5 A6 A7 A8 A9 A10 A11 A12 := by
  show after ops6 (U5 m c) _ = _
  after_results_simp
  simp only [U5_v1 m c, U5_v3 m c, U5_v94 m c, U5_arg m c main_arg5 (by decide), U5_arg m c main_arg6 (by decide)]
  rfl
/-- No operation of stretch 7 writes an argument. -/
theorem U7_arg (a : Ref sig .tc) (ha : a ∈ argRefs) : U7 m c (Proc.devRef .tc a) = m ((c.tc : Thread nD τ).loc a) := by
  have h : ∀ op ∈ (ops7 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops7
  exact (after_of_forall_not_mem ops7 (U6 m c) h).trans (U6_arg m c a ha)
/-- Stretch 7 does not write the buffer of value 94. -/
theorem U7_v94 : U7 m c (Proc.devRef .tc main_v94) = val_main_v94 (F := Ideal) A0 A1 A3 A4 A5 A6 A7 A8 A9 A10 A11 A12 :=
  (after_of_forall_not_mem ops7 (U6 m c) (by not_written ops7)).trans (U6_v94 m c)
/-- Stretch 7 leaves at the buffer of value 143 that value, as the reading module defines it. -/
theorem U7_v143 : U7 m c (Proc.devRef .tc main_v143) = val_main_v143 (F := Ideal) A0 A1 A3 A4 A5 A6 A7 A8 A9 A10 A11 A12 := by
  show after ops7 (U6 m c) _ = _
  after_results_simp
  simp only [U6_v113 m c, U6_arg m c main_arg7 (by decide), U6_arg m c main_arg8 (by decide)]
  rfl
/-- No operation of stretch 8 writes an argument. -/
theorem U8_arg (a : Ref sig .tc) (ha : a ∈ argRefs) : U8 m c (Proc.devRef .tc a) = m ((c.tc : Thread nD τ).loc a) := by
  have h : ∀ op ∈ (ops8 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops8
  exact (after_of_forall_not_mem ops8 (U7 m c) h).trans (U7_arg m c a ha)
/-- Stretch 8 does not write the buffer of value 94. -/
theorem U8_v94 : U8 m c (Proc.devRef .tc main_v94) = val_main_v94 (F := Ideal) A0 A1 A3 A4 A5 A6 A7 A8 A9 A10 A11 A12 :=
  (after_of_forall_not_mem ops8 (U7 m c) (by not_written ops8)).trans (U7_v94 m c)
/-- Stretch 8 leaves at the buffer of value 151 that value, as the reading module defines it. -/
theorem U8_v151 : U8 m c (Proc.devRef .tc main_v151) = val_main_v151 (F := Ideal) A0 A1 A3 A4 A5 A6 A7 A8 A9 A10 A11 A12 := by
  show after ops8 (U7 m c) _ = _
  after_results_simp
  simp only [U7_v143 m c, U7_arg m c main_arg9 (by decide), U7_arg m c main_arg10 (by decide)]
  rfl
/-- No operation of stretch 9 writes an argument. -/
theorem U9_arg (a : Ref sig .tc) (ha : a ∈ argRefs) : U9 m c (Proc.devRef .tc a) = m ((c.tc : Thread nD τ).loc a) := by
  have h : ∀ op ∈ (ops9 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops9
  exact (after_of_forall_not_mem ops9 (U8 m c) h).trans (U8_arg m c a ha)
/-- Stretch 9 does not write the buffer of value 94. -/
theorem U9_v94 : U9 m c (Proc.devRef .tc main_v94) = val_main_v94 (F := Ideal) A0 A1 A3 A4 A5 A6 A7 A8 A9 A10 A11 A12 :=
  (after_of_forall_not_mem ops9 (U8 m c) (by not_written ops9)).trans (U8_v94 m c)
/-- Stretch 9 leaves at the buffer of value 181 that value, as the reading module defines it. -/
theorem U9_v181 : U9 m c (Proc.devRef .tc main_v181) = val_main_v181 (F := Ideal) A0 A1 A3 A4 A5 A6 A7 A8 A9 A10 A11 A12 := by
  show after ops9 (U8 m c) _ = _
  after_results_simp
  simp only [U8_v151 m c, U8_arg m c main_arg11 (by decide), U8_arg m c main_arg12 (by decide)]
  rfl
/-- No operation of stretch 10 writes an argument. -/
theorem U10_arg (a : Ref sig .tc) (ha : a ∈ argRefs) : U10 m c (Proc.devRef .tc a) = m ((c.tc : Thread nD τ).loc a) := by
  have h : ∀ op ∈ (ops10 : List (HloOp τ sig (Elt Ideal))), Proc.devRef .tc a ∉ op.writes := by
    simp only [argRefs, List.mem_cons, List.mem_singleton, List.not_mem_nil, or_false] at ha
    rcases ha with rfl | rfl | rfl | rfl | rfl | rfl | rfl | rfl | rfl | rfl | rfl | rfl | rfl | rfl | rfl
    all_goals not_written ops10
  exact (after_of_forall_not_mem ops10 (U9 m c) h).trans (U9_arg m c a ha)
/-- Stretch 10 leaves at the buffer of value 198 that value, as the reading module defines it.  The two carried
    values enter through the joined pair of arrays, where they are rewritten in place. -/
theorem U10_v198 : U10 m c (Proc.devRef .tc main_v198) = val_main_v198 (F := Ideal) A0 A1 A2 A3 A4 A5 A6 A7 A8 A9 A10 A11 A12 A13 A14 := by
  show after ops10 (U9 m c) _ = _
  after_results_simp
  simp only [U9_arg m c main_arg2 (by decide), U9_arg m c main_arg13 (by decide), U9_arg m c main_arg14 (by decide)]
  rw [U9_v94 m c, U9_v181 m c]
  rfl
/-- What the program returns: the buffer of its last value ends at that value, as a function of the arguments. -/
theorem result : after ops (launchContents m c) (Proc.devRef .tc main_v198)
    = val_main_v198 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) := by
  rw [fold_eq]
  exact U10_v198 m c

/-- Every argument's buffer ends as it was launched. -/
theorem kept (a : Ref sig .tc) (ha : a ∈ argRefs) :
    after ops (launchContents m c) (Proc.devRef .tc a) = m ((c.tc : Thread nD τ).loc a) := by
  rw [fold_eq]
  exact U10_arg m c a ha

end Cert.Gin.RefFold

end
-- ==== Proof.RefValue.lean ====
/-
  The reference's run with its result named: every execution ends with the result buffer at the reference's last
  stage of the arguments, and with the argument buffers unchanged.
-/
import proofs.«151745_j68229850464792_1_alg».proof.Proof.RefRun
import proofs.«151745_j68229850464792_1_alg».proof.Proof.RefFold

noncomputable section

namespace Cert.ReferenceIdeal.GinRun

open Cert.ReferenceIdeal Cert.ReferenceIdeal.Gen Cert.ReferenceIdeal.Value Cert.ReferenceIdeal.Read Cert.Gin.RefFold
open Idealize.ShloMosaic Idealize.ShloMosaic.TcCoe Idealize.SL.Sem Idealize.ShloMosaic.StableHlo

/-- Every weakly fair execution of the reference ends with its result at the last stage of the arguments and the
    arguments as launched. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v198)
        = val_main_v198 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) :=
  (θ_run defs _ _).mono (fun r h c => ⟨(h c main_v198).trans (result m c),
      (h c main_arg0).trans (kept m c main_arg0 (by simp [argRefs])),
      (h c main_arg1).trans (kept m c main_arg1 (by simp [argRefs])),
      (h c main_arg2).trans (kept m c main_arg2 (by simp [argRefs])),
      (h c main_arg3).trans (kept m c main_arg3 (by simp [argRefs])),
      (h c main_arg4).trans (kept m c main_arg4 (by simp [argRefs])),
      (h c main_arg5).trans (kept m c main_arg5 (by simp [argRefs])),
      (h c main_arg6).trans (kept m c main_arg6 (by simp [argRefs])),
      (h c main_arg7).trans (kept m c main_arg7 (by simp [argRefs])),
      (h c main_arg8).trans (kept m c main_arg8 (by simp [argRefs])),
      (h c main_arg9).trans (kept m c main_arg9 (by simp [argRefs])),
      (h c main_arg10).trans (kept m c main_arg10 (by simp [argRefs])),
      (h c main_arg11).trans (kept m c main_arg11 (by simp [argRefs])),
      (h c main_arg12).trans (kept m c main_arg12 (by simp [argRefs])),
      (h c main_arg13).trans (kept m c main_arg13 (by simp [argRefs])),
      (h c main_arg14).trans (kept m c main_arg14 (by simp [argRefs]))⟩)
    (run_fold (F := Ideal) m ρ)

end Cert.ReferenceIdeal.GinRun

end
-- ==== Proof.lean ====
/-
  A two-layer graph network computed by eight tiled launches among host operations, against the same network written
  with whole-array operations.  On the extended reals the two programs are the same function of the arguments: every
  launch writes, block of rows by block of rows, exactly the whole-array stage the reference computes — a dense layer
  is the whole matrix product with the bias row added, a normalisation layer subtracts the row of column means, scales
  by the reciprocal square root of the row of column variances and by the gains, adds the offsets and clips at zero —
  and the host operations between the launches (the neighbourhood sums over the edges, the column means and
  variances, the pooling over the graphs) are the reference's own.  No law beyond associativity of the layout is used,
  so the finiteness of the inputs is never opened.
  The three frames: the kernel's two are the launch theorem over its sixteen segments; the reference's is its run with
  the result dropped.  Nothing was rewritten by the idealization, so `preserves` is trivial.
-/
import proofs.«151745_j68229850464792_1_alg».proof.Defs
import proofs.«151745_j68229850464792_1_alg».proof.Proof.Gen.Kernel
import proofs.«151745_j68229850464792_1_alg».proof.Proof.Gen.Kernel.Skeleton
import proofs.«151745_j68229850464792_1_alg».proof.Proof.Gen.Kernel.Launch
import proofs.«151745_j68229850464792_1_alg».proof.Proof.Gen.Kernel.Points
import proofs.«151745_j68229850464792_1_alg».proof.Proof.Gen.Kernel.Frame
import proofs.«151745_j68229850464792_1_alg».proof.Proof.Gen.KernelIdeal
import proofs.«151745_j68229850464792_1_alg».proof.Proof.Gen.KernelIdeal.Skeleton
import proofs.«151745_j68229850464792_1_alg».proof.Proof.Gen.KernelIdeal.Launch
import proofs.«151745_j68229850464792_1_alg».proof.Proof.Gen.KernelIdeal.Points
import proofs.«151745_j68229850464792_1_alg».proof.Proof.Gen.KernelIdeal.Frame
import proofs.«151745_j68229850464792_1_alg».proof.Proof.Gen.ReferenceIdeal
import proofs.«151745_j68229850464792_1_alg».proof.Proof.Gen.Pre_finite_inputs
import proofs.«151745_j68229850464792_1_alg».proof.Proof.KernelRun
import proofs.«151745_j68229850464792_1_alg».proof.Proof.KFold4
import proofs.«151745_j68229850464792_1_alg».proof.Proof.RefValue
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

/-- The reference's frame: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.GinRun.run_value m ρ)

/-- Both programs end with their result at the reference's last stage of the (agreeing) arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.ReferenceIdeal.Read.val_main_v198 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun _ h c => ⟨(h c).1.trans (Cert.KernelIdeal.GinFold.W16_v134 m ρ c), (h c).2⟩)
      (Cert.KernelIdeal.GinRun.run_value m ρ)
  · refine (θ_run Cert.ReferenceIdeal.defs _ _).mono (fun _ h c => ⟨(h c).1.trans ?_, (h c).2⟩)
      (Cert.ReferenceIdeal.GinRun.run_value m' ρ')
    obtain ⟨e0, e1, e2, e3, e4, e5, e6, e7, e8, e9, e10, e11, e12, e13, e14⟩ := hagree c
    rw [e0, e1, e2, e3, e4, e5, e6, e7, e8, e9, e10, e11, e12, e13, e14]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
